-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S2x600000 : Shape := ⟨2, ![2, 600000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S128 .f32) (main_arg5 : FVec F S128x10 .f32) (main_arg6 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg5
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x10 .f32) (main_arg6 : FVec F S10 .f32) (main_arg7 : IVec S2x600000 32) (main_arg8 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x128 : Shape := ⟨2, ![50000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S5000x128 : Shape := ⟨2, ![5000, 128]⟩
abbrev S5000x1 : Shape := ⟨2, ![5000, 1]⟩
abbrev S650000x128 : Shape := ⟨2, ![650000, 128]⟩
abbrev S1x128 : Shape := ⟨2, ![1, 128]⟩
abbrev S64x128 : Shape := ⟨2, ![64, 128]⟩
abbrev S5000x64 : Shape := ⟨2, ![5000, 64]⟩
abbrev S64x5000 : Shape := ⟨2, ![64, 5000]⟩
abbrev S64 : Shape := ⟨1, ![64]⟩
abbrev S64x1 : Shape := ⟨2, ![64, 1]⟩
abbrev S1x10 : Shape := ⟨2, ![1, 10]⟩
abbrev S64x10 : Shape := ⟨2, ![64, 10]⟩

abbrev nBuf : Space → Nat
  | .hbm => 70
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x10, .f32⟩
  | .hbm, ⟨6, _⟩ => ⟨S10, .f32⟩
  | .hbm, ⟨7, _⟩ => ⟨S2x600000, .i32⟩
  | .hbm, ⟨8, _⟩ => ⟨S50000, .i32⟩
  | .hbm, ⟨9, _⟩ => ⟨S50000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S1x600000, .i32⟩
  | .hbm, ⟨14, _⟩ => ⟨S600000, .i32⟩
  | .hbm, ⟨15, _⟩ => ⟨S650000, .i32⟩
  | .hbm, ⟨16, _⟩ => ⟨S_, .f32⟩
  | .hbm, ⟨17, _⟩ => ⟨S650000, .f32⟩
  | .hbm, ⟨18, _⟩ => ⟨S_, .f32⟩
  | .hbm, ⟨19, _⟩ => ⟨S50000, .f32⟩
  | .hbm, ⟨20, _⟩ => ⟨S650000x1, .i32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x128, .f32⟩
  | .hbm, ⟨25, _⟩ => ⟨S_, .i32⟩
  | .hbm, ⟨26, _⟩ => ⟨S650000, .i32⟩
  | .hbm, ⟨27, _⟩ => ⟨S650000, .i1⟩
  | .hbm, ⟨28, _⟩ => ⟨S_, .i32⟩
  | .hbm, ⟨29, _⟩ => ⟨S650000, .i32⟩
  | .hbm, ⟨30, _⟩ => ⟨S650000, .i32⟩
  | .hbm, ⟨31, _⟩ => ⟨S650000, .i32⟩
  | .hbm, ⟨32, _⟩ => ⟨S650000x1, .i32⟩
  | .hbm, ⟨33, _⟩ => ⟨S650000x128, .f32⟩
  | .hbm, ⟨34, _⟩ => ⟨S_, .f32⟩
  | .hbm, ⟨35, _⟩ => ⟨S50000x128, .f32⟩
  | .hbm, ⟨36, _⟩ => ⟨S650000x1, .i32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S_, .i32⟩
  | .hbm, ⟨41, _⟩ => ⟨S650000, .i32⟩
  | .hbm, ⟨42, _⟩ => ⟨S650000, .i1⟩
  | .hbm, ⟨43, _⟩ => ⟨S_, .i32⟩
  | .hbm, ⟨44, _⟩ => ⟨S650000, .i32⟩
  | .hbm, ⟨45, _⟩ => ⟨S650000, .i32⟩
  | .hbm, ⟨46, _⟩ => ⟨S650000, .i32⟩
  | .hbm, ⟨47, _⟩ => ⟨S650000x1, .i32⟩
  | .hbm, ⟨48, _⟩ => ⟨S650000x128, .f32⟩
  | .hbm, ⟨49, _⟩ => ⟨S_, .f32⟩
  | .hbm, ⟨50, _⟩ => ⟨S50000x128, .f32⟩
  | .hbm, ⟨51, _⟩ => ⟨S650000x1, .i32⟩
  | .hbm, ⟨52, _⟩ => ⟨S50000x128, .f32⟩
  | .hbm, ⟨53, _⟩ => ⟨S1x128, .f32⟩
  | .hbm, ⟨54, _⟩ => ⟨S50000x1, .i32⟩
  | .hbm, ⟨55, _⟩ => ⟨S64x128, .f32⟩
  | .hbm, ⟨56, _⟩ => ⟨S_, .f32⟩
  | .hbm, ⟨57, _⟩ => ⟨S50000, .f32⟩
  | .hbm, ⟨58, _⟩ => ⟨S_, .f32⟩
  | .hbm, ⟨59, _⟩ => ⟨S64, .f32⟩
  | .hbm, ⟨60, _⟩ => ⟨S50000x1, .i32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S64x1, .f32⟩
  | .hbm, ⟨66, _⟩ => ⟨S64x128, .f32⟩
  | .hbm, ⟨67, _⟩ => ⟨S64x128, .f32⟩
  | .hbm, ⟨68, _⟩ => ⟨S1x10, .f32⟩
  | .hbm, ⟨69, _⟩ => ⟨S64x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S5000x1, .i32⟩
  | .local _ .vmem, ⟨21, _⟩ => ⟨S5000x1, .i32⟩
  | .local _ .vmem, ⟨22, _⟩ => ⟨S64x128, .f32⟩
  | .local _ .vmem, ⟨23, _⟩ => ⟨S64x128, .f32⟩
  | .local _ .vmem, ⟨24, _⟩ => ⟨S128x10, .f32⟩
  | .local _ .vmem, ⟨25, _⟩ => ⟨S1x10, .f32⟩
  | .local _ .vmem, ⟨26, _⟩ => ⟨S64x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc3_stg0_0 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc3_sem0_0 : DmaSem sig := 23
abbrev cc3_sem1_0 : DmaSem sig := 24
abbrev cc3_sem2_0 : DmaSem sig := 25
abbrev cc3_sem3_0 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S64x128_S64x128_0_0 : ∀ a, (![0, 0] : Fin 2 → Nat) a + S64x128.size a ≤ S64x128.size a
  h_S64x128 : 0 < S64x128.numel
  iota_S5000x64_d1_w32 : S5000x64.Iotas .tc 32 [1]
  broadcasts_S5000x1_S5000x64 : S5000x1.Broadcasts S5000x64
  natLt_1_32 : 1 < 32
  transposes_S5000x64_p1_0_S64x5000 : S5000x64.Transposes [1, 0] S64x5000
  shapeCasts_S64x128_S64x128 : S64x128.ShapeCasts S64x128
  bcast_S_S64 : S_.BroadcastsInDim S64 (![] : Fin 0 → Fin S64.rank)
  bcast_S50000_S50000x1_0 : S50000.BroadcastsInDim S50000x1 (![0] : Fin 1 → Fin S50000x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S10_S1x10 : S10.ShapeCasts S1x10
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S50000_S650000x1_S650000_n_0_0_1_wf : ScatterDims.WF S50000 S650000x1 S650000 [] [0] [0] 1
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S64x5000_S5000x128_S64x128_1_0_0_1_n_n_wf : DotDims.WF S64x5000 S5000x128 S64x128 [1] [0] [0] [1] [] []
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .i32 = 32 ∨ (Rect.block (s := S50000x1) S5000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x10.size a ≤ S128x10.size a
  hwx3_1 : ∀ i : grid3.Coords, EltTy.bits .f32 = 32 ∨ (Rect.block (s := S128x10) S128x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x10.size a ≤ S64x10.size a
  hwx3_3 : ∀ i : grid3.Coords, EltTy.bits .f32 = 32 ∨ (Rect.block (s := S64x10) S64x10.size (cc3_transform_3 i) (hinb3_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S64x5000_S5000x128_S64x128_1_0_0_1_n_n : DotDims S64x5000 S5000x128 S64x128 where
  lhsContracting := [1]
  rhsContracting := [0]
  lhsNonContracting := [0]
  rhsNonContracting := [1]
  lhsBatch := []
  rhsBatch := []
  wf := dot_S64x5000_S5000x128_S64x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v38) S64x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v47) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S64x10.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 105
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x10, .f32⟩
  | .hbm, ⟨6, _⟩ => ⟨S10, .f32⟩
  | .hbm, ⟨7, _⟩ => ⟨S2x600000, .i32⟩
  | .hbm, ⟨8, _⟩ => ⟨S50000, .i32⟩
  | .hbm, ⟨9, _⟩ => ⟨S50000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S1x600000, .i32⟩
  | .hbm, ⟨14, _⟩ => ⟨S600000, .i32⟩
  | .hbm, ⟨15, _⟩ => ⟨S650000, .i32⟩
  | .hbm, ⟨16, _⟩ => ⟨S_, .f32⟩
  | .hbm, ⟨17, _⟩ => ⟨S650000, .f32⟩
  | .hbm, ⟨18, _⟩ => ⟨S_, .f32⟩
  | .hbm, ⟨19, _⟩ => ⟨S50000, .f32⟩
  | .hbm, ⟨20, _⟩ => ⟨S650000x1, .i32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S650000, .i32⟩
  | .hbm, ⟨25, _⟩ => ⟨S650000, .i1⟩
  | .hbm, ⟨26, _⟩ => ⟨S_, .i32⟩
  | .hbm, ⟨27, _⟩ => ⟨S650000, .i32⟩
  | .hbm, ⟨28, _⟩ => ⟨S650000, .i32⟩
  | .hbm, ⟨29, _⟩ => ⟨S650000, .i32⟩
  | .hbm, ⟨30, _⟩ => ⟨S650000x1, .i32⟩
  | .hbm, ⟨31, _⟩ => ⟨S650000, .f32⟩
  | .hbm, ⟨32, _⟩ => ⟨S_, .i32⟩
  | .hbm, ⟨33, _⟩ => ⟨S650000, .i32⟩
  | .hbm, ⟨34, _⟩ => ⟨S650000, .i1⟩
  | .hbm, ⟨35, _⟩ => ⟨S_, .i32⟩
  | .hbm, ⟨36, _⟩ => ⟨S650000, .i32⟩
  | .hbm, ⟨37, _⟩ => ⟨S650000, .i32⟩
  | .hbm, ⟨38, _⟩ => ⟨S650000, .i32⟩
  | .hbm, ⟨39, _⟩ => ⟨S650000x1, .i32⟩
  | .hbm, ⟨40, _⟩ => ⟨S650000, .f32⟩
  | .hbm, ⟨41, _⟩ => ⟨S650000, .f32⟩
  | .hbm, ⟨42, _⟩ => ⟨S50000x128, .f32⟩
  | .hbm, ⟨43, _⟩ => ⟨S650000x1, .f32⟩
  | .hbm, ⟨44, _⟩ => ⟨S_, .i32⟩
  | .hbm, ⟨45, _⟩ => ⟨S650000, .i32⟩
  | .hbm, ⟨46, _⟩ => ⟨S650000, .i1⟩
  | .hbm, ⟨47, _⟩ => ⟨S_, .i32⟩
  | .hbm, ⟨48, _⟩ => ⟨S650000, .i32⟩
  | .hbm, ⟨49, _⟩ => ⟨S650000, .i32⟩
  | .hbm, ⟨50, _⟩ => ⟨S650000, .i32⟩
  | .hbm, ⟨51, _⟩ => ⟨S650000x1, .i32⟩
  | .hbm, ⟨52, _⟩ => ⟨S650000x128, .f32⟩
  | .hbm, ⟨53, _⟩ => ⟨S650000x128, .f32⟩
  | .hbm, ⟨54, _⟩ => ⟨S650000x128, .f32⟩
  | .hbm, ⟨55, _⟩ => ⟨S_, .f32⟩
  | .hbm, ⟨56, _⟩ => ⟨S50000x128, .f32⟩
  | .hbm, ⟨57, _⟩ => ⟨S650000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S650000x1, .f32⟩
  | .hbm, ⟨67, _⟩ => ⟨S_, .i32⟩
  | .hbm, ⟨68, _⟩ => ⟨S650000, .i32⟩
  | .hbm, ⟨69, _⟩ => ⟨S650000, .i1⟩
  | .hbm, ⟨70, _⟩ => ⟨S_, .i32⟩
  | .hbm, ⟨71, _⟩ => ⟨S650000, .i32⟩
  | .hbm, ⟨72, _⟩ => ⟨S650000, .i32⟩
  | .hbm, ⟨73, _⟩ => ⟨S650000, .i32⟩
  | .hbm, ⟨74, _⟩ => ⟨S650000x1, .i32⟩
  | .hbm, ⟨75, _⟩ => ⟨S650000x128, .f32⟩
  | .hbm, ⟨76, _⟩ => ⟨S650000x128, .f32⟩
  | .hbm, ⟨77, _⟩ => ⟨S650000x128, .f32⟩
  | .hbm, ⟨78, _⟩ => ⟨S_, .f32⟩
  | .hbm, ⟨79, _⟩ => ⟨S50000x128, .f32⟩
  | .hbm, ⟨80, _⟩ => ⟨S650000x1, .i32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S64x128, .f32⟩
  | .hbm, ⟨87, _⟩ => ⟨S50000x1, .i32⟩
  | .hbm, ⟨88, _⟩ => ⟨S64x128, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S64, .f32⟩
  | .hbm, ⟨93, _⟩ => ⟨S50000x1, .i32⟩
  | .hbm, ⟨94, _⟩ => ⟨S64, .f32⟩
  | .hbm, ⟨95, _⟩ => ⟨S_, .f32⟩
  | .hbm, ⟨96, _⟩ => ⟨S64, .f32⟩
  | .hbm, ⟨97, _⟩ => ⟨S64, .f32⟩
  | .hbm, ⟨98, _⟩ => ⟨S64x1, .f32⟩
  | .hbm, ⟨99, _⟩ => ⟨S64x128, .f32⟩
  | .hbm, ⟨100, _⟩ => ⟨S64x128, .f32⟩
  | .hbm, ⟨101, _⟩ => ⟨S64x10, .f32⟩
  | .hbm, ⟨102, _⟩ => ⟨S1x10, .f32⟩
  | .hbm, ⟨103, _⟩ => ⟨S64x10, .f32⟩
  | .hbm, ⟨104, _⟩ => ⟨S64x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_7 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_10 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_cst_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KernelRun.lean ====
/-
  The idealized kernel's run with its result named: every weakly fair execution of @main terminates without a fault,
  the argument arrays end as launched, and the result array ends at the contents the last of @main's eight segments
  (four stretches of host operations, four pallas regions) leaves in it — the fold `Gen.W8` of the generated frame
  read at the result's buffer. The frame theorem of the generated module states the same run and keeps only the
  arguments; here the result's buffer is read off the last thread state as well.
-/
import proofs.«162227_j16466904612871_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result's buffer read: its contents are the last boundary's, `Gen.W8`. -/
theorem run : θ_run defs (onTc (τ := τ) (main (F := F))) ⟨m, fun _ => 0, ρ⟩ (fun r => ∀ c : Dev nD,
      r.2.mem ((c.tc : Thread nD τ).loc main_v49) = W8 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v49 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.RunValue

end
-- ==== Proof.KernelWalk.lean ====
/-
  Buffers that a stretch of host operations or a pallas region does not write keep their contents across it: each
  argument, the two edge-index arrays and the degree-factor column, followed from the boundary where they are
  produced to every later boundary where the program reads them.
-/
import proofs.«162227_j16466904612871_2_alg».proof.Proof.Gen.KernelIdeal.Frame

set_option maxRecDepth 16384

noncomputable section

namespace Cert.KernelIdeal.Walk

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- No operation of the stretch writes the buffer: its contents pass through. -/
macro "host_skip " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

theorem W1_arg0_step (c : Dev nD) : W1 m ρ c (Proc.devRef .tc main_arg0) = W0 m ρ c (Proc.devRef .tc main_arg0) :=
  by host_skip hostOps0
theorem W1_arg0 (c : Dev nD) : W1 m ρ c (Proc.devRef .tc main_arg0) = m ((c : Thread nD τ).loc main_arg0) :=
  (W1_arg0_step m ρ c).trans rfl

theorem W1_arg1_step (c : Dev nD) : W1 m ρ c (Proc.devRef .tc main_arg1) = W0 m ρ c (Proc.devRef .tc main_arg1) :=
  by host_skip hostOps0
theorem W1_arg1 (c : Dev nD) : W1 m ρ c (Proc.devRef .tc main_arg1) = m ((c : Thread nD τ).loc main_arg1) :=
  (W1_arg1_step m ρ c).trans rfl

theorem W1_arg2_step (c : Dev nD) : W1 m ρ c (Proc.devRef .tc main_arg2) = W0 m ρ c (Proc.devRef .tc main_arg2) :=
  by host_skip hostOps0
theorem W1_arg2 (c : Dev nD) : W1 m ρ c (Proc.devRef .tc main_arg2) = m ((c : Thread nD τ).loc main_arg2) :=
  (W1_arg2_step m ρ c).trans rfl

theorem W2_arg2_step (c : Dev nD) : W2 m ρ c (Proc.devRef .tc main_arg2) = W1 m ρ c (Proc.devRef .tc main_arg2) :=
  W2_of_ne m ρ c main_arg2 (by decide)
theorem W2_arg2 (c : Dev nD) : W2 m ρ c (Proc.devRef .tc main_arg2) = m ((c : Thread nD τ).loc main_arg2) :=
  (W2_arg2_step m ρ c).trans (W1_arg2 m ρ c)

theorem W1_arg3_step (c : Dev nD) : W1 m ρ c (Proc.devRef .tc main_arg3) = W0 m ρ c (Proc.devRef .tc main_arg3) :=
  by host_skip hostOps0
theorem W1_arg3 (c : Dev nD) : W1 m ρ c (Proc.devRef .tc main_arg3) = m ((c : Thread nD τ).loc main_arg3) :=
  (W1_arg3_step m ρ c).trans rfl

theorem W2_arg3_step (c : Dev nD) : W2 m ρ c (Proc.devRef .tc main_arg3) = W1 m ρ c (Proc.devRef .tc main_arg3) :=
  W2_of_ne m ρ c main_arg3 (by decide)
theorem W2_arg3 (c : Dev nD) : W2 m ρ c (Proc.devRef .tc main_arg3) = m ((c : Thread nD τ).loc main_arg3) :=
  (W2_arg3_step m ρ c).trans (W1_arg3 m ρ c)

theorem W3_arg3_step (c : Dev nD) : W3 m ρ c (Proc.devRef .tc main_arg3) = W2 m ρ c (Proc.devRef .tc main_arg3) :=
  by host_skip hostOps1
theorem W3_arg3 (c : Dev nD) : W3 m ρ c (Proc.devRef .tc main_arg3) = m ((c : Thread nD τ).loc main_arg3) :=
  (W3_arg3_step m ρ c).trans (W2_arg3 m ρ c)

theorem W1_arg4_step (c : Dev nD) : W1 m ρ c (Proc.devRef .tc main_arg4) = W0 m ρ c (Proc.devRef .tc main_arg4) :=
  by host_skip hostOps0
theorem W1_arg4 (c : Dev nD) : W1 m ρ c (Proc.devRef .tc main_arg4) = m ((c : Thread nD τ).loc main_arg4) :=
  (W1_arg4_step m ρ c).trans rfl

theorem W2_arg4_step (c : Dev nD) : W2 m ρ c (Proc.devRef .tc main_arg4) = W1 m ρ c (Proc.devRef .tc main_arg4) :=
  W2_of_ne m ρ c main_arg4 (by decide)
theorem W2_arg4 (c : Dev nD) : W2 m ρ c (Proc.devRef .tc main_arg4) = m ((c : Thread nD τ).loc main_arg4) :=
  (W2_arg4_step m ρ c).trans (W1_arg4 m ρ c)

theorem W3_arg4_step (c : Dev nD) : W3 m ρ c (Proc.devRef .tc main_arg4) = W2 m ρ c (Proc.devRef .tc main_arg4) :=
  by host_skip hostOps1
theorem W3_arg4 (c : Dev nD) : W3 m ρ c (Proc.devRef .tc main_arg4) = m ((c : Thread nD τ).loc main_arg4) :=
  (W3_arg4_step m ρ c).trans (W2_arg4 m ρ c)

theorem W4_arg4_step (c : Dev nD) : W4 m ρ c (Proc.devRef .tc main_arg4) = W3 m ρ c (Proc.devRef .tc main_arg4) :=
  W4_of_ne m ρ c main_arg4 (by decide)
theorem W4_arg4 (c : Dev nD) : W4 m ρ c (Proc.devRef .tc main_arg4) = m ((c : Thread nD τ).loc main_arg4) :=
  (W4_arg4_step m ρ c).trans (W3_arg4 m ρ c)

theorem W1_arg8_step (c : Dev nD) : W1 m ρ c (Proc.devRef .tc main_arg8) = W0 m ρ c (Proc.devRef .tc main_arg8) :=
  by host_skip hostOps0
theorem W1_arg8 (c : Dev nD) : W1 m ρ c (Proc.devRef .tc main_arg8) = m ((c : Thread nD τ).loc main_arg8) :=
  (W1_arg8_step m ρ c).trans rfl

theorem W2_arg8_step (c : Dev nD) : W2 m ρ c (Proc.devRef .tc main_arg8) = W1 m ρ c (Proc.devRef .tc main_arg8) :=
  W2_of_ne m ρ c main_arg8 (by decide)
theorem W2_arg8 (c : Dev nD) : W2 m ρ c (Proc.devRef .tc main_arg8) = m ((c : Thread nD τ).loc main_arg8) :=
  (W2_arg8_step m ρ c).trans (W1_arg8 m ρ c)

theorem W3_arg8_step (c : Dev nD) : W3 m ρ c (Proc.devRef .tc main_arg8) = W2 m ρ c (Proc.devRef .tc main_arg8) :=
  by host_skip hostOps1
theorem W3_arg8 (c : Dev nD) : W3 m ρ c (Proc.devRef .tc main_arg8) = m ((c : Thread nD τ).loc main_arg8) :=
  (W3_arg8_step m ρ c).trans (W2_arg8 m ρ c)

theorem W4_arg8_step (c : Dev nD) : W4 m ρ c (Proc.devRef .tc main_arg8) = W3 m ρ c (Proc.devRef .tc main_arg8) :=
  W4_of_ne m ρ c main_arg8 (by decide)
theorem W4_arg8 (c : Dev nD) : W4 m ρ c (Proc.devRef .tc main_arg8) = m ((c : Thread nD τ).loc main_arg8) :=
  (W4_arg8_step m ρ c).trans (W3_arg8 m ρ c)

theorem W5_arg8_step (c : Dev nD) : W5 m ρ c (Proc.devRef .tc main_arg8) = W4 m ρ c (Proc.devRef .tc main_arg8) :=
  by host_skip hostOps2
theorem W5_arg8 (c : Dev nD) : W5 m ρ c (Proc.devRef .tc main_arg8) = m ((c : Thread nD τ).loc main_arg8) :=
  (W5_arg8_step m ρ c).trans (W4_arg8 m ρ c)

theorem W6_arg8_step (c : Dev nD) : W6 m ρ c (Proc.devRef .tc main_arg8) = W5 m ρ c (Proc.devRef .tc main_arg8) :=
  W6_of_ne m ρ c main_arg8 (by decide)
theorem W6_arg8 (c : Dev nD) : W6 m ρ c (Proc.devRef .tc main_arg8) = m ((c : Thread nD τ).loc main_arg8) :=
  (W6_arg8_step m ρ c).trans (W5_arg8 m ρ c)

theorem W1_arg6_step (c : Dev nD) : W1 m ρ c (Proc.devRef .tc main_arg6) = W0 m ρ c (Proc.devRef .tc main_arg6) :=
  by host_skip hostOps0
theorem W1_arg6 (c : Dev nD) : W1 m ρ c (Proc.devRef .tc main_arg6) = m ((c : Thread nD τ).loc main_arg6) :=
  (W1_arg6_step m ρ c).trans rfl

theorem W2_arg6_step (c : Dev nD) : W2 m ρ c (Proc.devRef .tc main_arg6) = W1 m ρ c (Proc.devRef .tc main_arg6) :=
  W2_of_ne m ρ c main_arg6 (by decide)
theorem W2_arg6 (c : Dev nD) : W2 m ρ c (Proc.devRef .tc main_arg6) = m ((c : Thread nD τ).loc main_arg6) :=
  (W2_arg6_step m ρ c).trans (W1_arg6 m ρ c)

theorem W3_arg6_step (c : Dev nD) : W3 m ρ c (Proc.devRef .tc main_arg6) = W2 m ρ c (Proc.devRef .tc main_arg6) :=
  by host_skip hostOps1
theorem W3_arg6 (c : Dev nD) : W3 m ρ c (Proc.devRef .tc main_arg6) = m ((c : Thread nD τ).loc main_arg6) :=
  (W3_arg6_step m ρ c).trans (W2_arg6 m ρ c)

theorem W4_arg6_step (c : Dev nD) : W4 m ρ c (Proc.devRef .tc main_arg6) = W3 m ρ c (Proc.devRef .tc main_arg6) :=
  W4_of_ne m ρ c main_arg6 (by decide)
theorem W4_arg6 (c : Dev nD) : W4 m ρ c (Proc.devRef .tc main_arg6) = m ((c : Thread nD τ).loc main_arg6) :=
  (W4_arg6_step m ρ c).trans (W3_arg6 m ρ c)

theorem W5_arg6_step (c : Dev nD) : W5 m ρ c (Proc.devRef .tc main_arg6) = W4 m ρ c (Proc.devRef .tc main_arg6) :=
  by host_skip hostOps2
theorem W5_arg6 (c : Dev nD) : W5 m ρ c (Proc.devRef .tc main_arg6) = m ((c : Thread nD τ).loc main_arg6) :=
  (W5_arg6_step m ρ c).trans (W4_arg6 m ρ c)

theorem W6_arg6_step (c : Dev nD) : W6 m ρ c (Proc.devRef .tc main_arg6) = W5 m ρ c (Proc.devRef .tc main_arg6) :=
  W6_of_ne m ρ c main_arg6 (by decide)
theorem W6_arg6 (c : Dev nD) : W6 m ρ c (Proc.devRef .tc main_arg6) = m ((c : Thread nD τ).loc main_arg6) :=
  (W6_arg6_step m ρ c).trans (W5_arg6 m ρ c)

theorem W1_arg5_step (c : Dev nD) : W1 m ρ c (Proc.devRef .tc main_arg5) = W0 m ρ c (Proc.devRef .tc main_arg5) :=
  by host_skip hostOps0
theorem W1_arg5 (c : Dev nD) : W1 m ρ c (Proc.devRef .tc main_arg5) = m ((c : Thread nD τ).loc main_arg5) :=
  (W1_arg5_step m ρ c).trans rfl

theorem W2_arg5_step (c : Dev nD) : W2 m ρ c (Proc.devRef .tc main_arg5) = W1 m ρ c (Proc.devRef .tc main_arg5) :=
  W2_of_ne m ρ c main_arg5 (by decide)
theorem W2_arg5 (c : Dev nD) : W2 m ρ c (Proc.devRef .tc main_arg5) = m ((c : Thread nD τ).loc main_arg5) :=
  (W2_arg5_step m ρ c).trans (W1_arg5 m ρ c)

theorem W3_arg5_step (c : Dev nD) : W3 m ρ c (Proc.devRef .tc main_arg5) = W2 m ρ c (Proc.devRef .tc main_arg5) :=
  by host_skip hostOps1
theorem W3_arg5 (c : Dev nD) : W3 m ρ c (Proc.devRef .tc main_arg5) = m ((c : Thread nD τ).loc main_arg5) :=
  (W3_arg5_step m ρ c).trans (W2_arg5 m ρ c)

theorem W4_arg5_step (c : Dev nD) : W4 m ρ c (Proc.devRef .tc main_arg5) = W3 m ρ c (Proc.devRef .tc main_arg5) :=
  W4_of_ne m ρ c main_arg5 (by decide)
theorem W4_arg5 (c : Dev nD) : W4 m ρ c (Proc.devRef .tc main_arg5) = m ((c : Thread nD τ).loc main_arg5) :=
  (W4_arg5_step m ρ c).trans (W3_arg5 m ρ c)

theorem W5_arg5_step (c : Dev nD) : W5 m ρ c (Proc.devRef .tc main_arg5) = W4 m ρ c (Proc.devRef .tc main_arg5) :=
  by host_skip hostOps2
theorem W5_arg5 (c : Dev nD) : W5 m ρ c (Proc.devRef .tc main_arg5) = m ((c : Thread nD τ).loc main_arg5) :=
  (W5_arg5_step m ρ c).trans (W4_arg5 m ρ c)

theorem W6_arg5_step (c : Dev nD) : W6 m ρ c (Proc.devRef .tc main_arg5) = W5 m ρ c (Proc.devRef .tc main_arg5) :=
  W6_of_ne m ρ c main_arg5 (by decide)
theorem W6_arg5 (c : Dev nD) : W6 m ρ c (Proc.devRef .tc main_arg5) = m ((c : Thread nD τ).loc main_arg5) :=
  (W6_arg5_step m ρ c).trans (W5_arg5 m ρ c)

theorem W7_arg5_step (c : Dev nD) : W7 m ρ c (Proc.devRef .tc main_arg5) = W6 m ρ c (Proc.devRef .tc main_arg5) :=
  by host_skip hostOps3
theorem W7_arg5 (c : Dev nD) : W7 m ρ c (Proc.devRef .tc main_arg5) = m ((c : Thread nD τ).loc main_arg5) :=
  (W7_arg5_step m ρ c).trans (W6_arg5 m ρ c)

theorem W2_v3_step (c : Dev nD) : W2 m ρ c (Proc.devRef .tc main_v3) = W1 m ρ c (Proc.devRef .tc main_v3) :=
  W2_of_ne m ρ c main_v3 (by decide)
theorem W2_v3 (c : Dev nD) : W2 m ρ c (Proc.devRef .tc main_v3) = W1 m ρ c (Proc.devRef .tc main_v3) :=
  W2_v3_step m ρ c

theorem W3_v3_step (c : Dev nD) : W3 m ρ c (Proc.devRef .tc main_v3) = W2 m ρ c (Proc.devRef .tc main_v3) :=
  by host_skip hostOps1
theorem W3_v3 (c : Dev nD) : W3 m ρ c (Proc.devRef .tc main_v3) = W1 m ρ c (Proc.devRef .tc main_v3) :=
  (W3_v3_step m ρ c).trans (W2_v3 m ρ c)

theorem W4_v3_step (c : Dev nD) : W4 m ρ c (Proc.devRef .tc main_v3) = W3 m ρ c (Proc.devRef .tc main_v3) :=
  W4_of_ne m ρ c main_v3 (by decide)
theorem W4_v3 (c : Dev nD) : W4 m ρ c (Proc.devRef .tc main_v3) = W1 m ρ c (Proc.devRef .tc main_v3) :=
  (W4_v3_step m ρ c).trans (W3_v3 m ρ c)

theorem W2_v6_step (c : Dev nD) : W2 m ρ c (Proc.devRef .tc main_v6) = W1 m ρ c (Proc.devRef .tc main_v6) :=
  W2_of_ne m ρ c main_v6 (by decide)
theorem W2_v6 (c : Dev nD) : W2 m ρ c (Proc.devRef .tc main_v6) = W1 m ρ c (Proc.devRef .tc main_v6) :=
  W2_v6_step m ρ c

theorem W3_v6_step (c : Dev nD) : W3 m ρ c (Proc.devRef .tc main_v6) = W2 m ρ c (Proc.devRef .tc main_v6) :=
  by host_skip hostOps1
theorem W3_v6 (c : Dev nD) : W3 m ρ c (Proc.devRef .tc main_v6) = W1 m ρ c (Proc.devRef .tc main_v6) :=
  (W3_v6_step m ρ c).trans (W2_v6 m ρ c)

theorem W4_v6_step (c : Dev nD) : W4 m ρ c (Proc.devRef .tc main_v6) = W3 m ρ c (Proc.devRef .tc main_v6) :=
  W4_of_ne m ρ c main_v6 (by decide)
theorem W4_v6 (c : Dev nD) : W4 m ρ c (Proc.devRef .tc main_v6) = W1 m ρ c (Proc.devRef .tc main_v6) :=
  (W4_v6_step m ρ c).trans (W3_v6 m ρ c)

theorem W2_v12_step (c : Dev nD) : W2 m ρ c (Proc.devRef .tc main_v12) = W1 m ρ c (Proc.devRef .tc main_v12) :=
  (W2_arr m ρ c 2).trans (((dat0 (V1 m ρ) c).arrAt_in 2 rfl _).trans (A_eq0 (V1 m ρ) c 2))
theorem W2_v12 (c : Dev nD) : W2 m ρ c (Proc.devRef .tc main_v12) = W1 m ρ c (Proc.devRef .tc main_v12) :=
  W2_v12_step m ρ c

theorem W3_v12_step (c : Dev nD) : W3 m ρ c (Proc.devRef .tc main_v12) = W2 m ρ c (Proc.devRef .tc main_v12) :=
  by host_skip hostOps1
theorem W3_v12 (c : Dev nD) : W3 m ρ c (Proc.devRef .tc main_v12) = W1 m ρ c (Proc.devRef .tc main_v12) :=
  (W3_v12_step m ρ c).trans (W2_v12 m ρ c)

theorem W4_v12_step (c : Dev nD) : W4 m ρ c (Proc.devRef .tc main_v12) = W3 m ρ c (Proc.devRef .tc main_v12) :=
  (W4_arr m ρ c 1).trans (((dat1 (V3 m ρ) c).arrAt_in 1 rfl _).trans (A_eq1 (V3 m ρ) c 1))
theorem W4_v12 (c : Dev nD) : W4 m ρ c (Proc.devRef .tc main_v12) = W1 m ρ c (Proc.devRef .tc main_v12) :=
  (W4_v12_step m ρ c).trans (W3_v12 m ρ c)

theorem W5_v12_step (c : Dev nD) : W5 m ρ c (Proc.devRef .tc main_v12) = W4 m ρ c (Proc.devRef .tc main_v12) :=
  by host_skip hostOps2
theorem W5_v12 (c : Dev nD) : W5 m ρ c (Proc.devRef .tc main_v12) = W1 m ρ c (Proc.devRef .tc main_v12) :=
  (W5_v12_step m ρ c).trans (W4_v12 m ρ c)

end Cert.KernelIdeal.Walk

end
-- ==== Proof.Region2.lean ====
/-
  The pooling region as a value. Its one output block (all 64 graphs by 128 features) stays in place over the ten
  grid points: the first point clears it, every point adds its block's contribution, the last point writes it back.
  So the result array is the ordered chain ((0 + p₀) + p₁) + … + p₉ of the ten per-block contributions.
-/
import proofs.«162227_j16466904612871_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.PoolValue

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- A later point: the body leaves, in the output block holding `xo`, `xo` plus the block's contribution. -/
theorem out_B (c : Dev nD) (i : grid2.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x1 .i32) (h4 : a4.IsWhole) (a5 : Memref sig .tc .vmem S64x128 .f32) (h5 : a5.IsWhole) (hc : ¬cond2_0 i)
    (x0 : Vec F S5000x128 .f32) (x1 : Vec F S5000x1 .f32) (x2 : Vec F S1x128 .f32) (x3 : Vec F S5000x1 .i32) (xo : Vec F S64x128 .f32) :
    out2_B_4 c i a1 h1 a2 h2 a3 h3 a4 h4 a5 h5 hc x0 x1 x2 x3 xo = k2_pay2 x0 x1 x2 x3 xo := by
  unfold out2_B_4
  rw [View.read_writes_eq_canon _ _ _ (cover2_B_4 c i a1 h1 a2 h2 a3 h3 a4 h4 a5 h5 hc x0 x1 x2 x3 xo)]
  unfold kernelRun2_B
  dsimp only
  rw [View.canon_unit_zero hz]
  simp only [View.readAt_eq_ld, h1.read_unread, h2.read_unread, h3.read_unread, h4.read_unread, h5.read_unread,
    View.ld_unit_zero (S := S5000x128) hz, View.ld_unit_zero (S := S5000x1) hz, View.ld_unit_zero (S := S1x128) hz,
    View.ld_unit_zero (S := S64x128) hz]

/-- The first point: the body clears the block, reads it back, and leaves the zero block plus the contribution. -/
theorem out_A (c : Dev nD) (i : grid2.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x1 .i32) (h4 : a4.IsWhole) (a5 : Memref sig .tc .vmem S64x128 .f32) (h5 : a5.IsWhole) (hc : cond2_0 i)
    (x0 : Vec F S5000x128 .f32) (x1 : Vec F S5000x1 .f32) (x2 : Vec F S1x128 .f32) (x3 : Vec F S5000x1 .i32) :
    out2_A_4 c i a1 h1 a2 h2 a3 h3 a4 h4 a5 h5 hc x0 x1 x2 x3 = k2_pay2 x0 x1 x2 x3 (k2_pay1 (F := F)) := by
  unfold out2_A_4
  rw [View.read_writes_eq_canon _ _ _ (cover2_A_4 c i a1 h1 a2 h2 a3 h3 a4 h4 a5 h5 hc x0 x1 x2 x3)]
  unfold kernelRun2_A
  dsimp only
  sl_unfold_words
  rw [View.canon_cons_unit_zero (S := S64x128) hz, View.readCov_unit_zero (S := S64x128) _ hz]
  simp only [View.readAt_eq_ld, h1.read_unread, h2.read_unread, h3.read_unread, h4.read_unread,
    View.ld_unit_zero (S := S5000x128) hz, View.ld_unit_zero (S := S5000x1) hz, View.ld_unit_zero (S := S1x128) hz]

/-- The output block after point `n`: the first point's contribution over the zero block, then one more contribution
    per point — the fold's closed form. -/
def chain (c : Dev nD) : (n : ℕ) → n < cfg2.N → Vec F S64x128 .f32
  | 0, h => k2_pay2 (iblk2 V c 0 ⟨0, h⟩) (iblk2 V c 1 ⟨0, h⟩) (iblk2 V c 2 ⟨0, h⟩) (iblk2 V c 3 ⟨0, h⟩) (k2_pay1 (F := F))
  | n + 1, h => k2_pay2 (iblk2 V c 0 ⟨n + 1, h⟩) (iblk2 V c 1 ⟨n + 1, h⟩) (iblk2 V c 2 ⟨n + 1, h⟩) (iblk2 V c 3 ⟨n + 1, h⟩)
      (chain c n (Nat.lt_of_succ_lt h))

/-- What the output's staging buffer holds after point `n` is that chain: by induction on the point. -/
theorem outsAt_eq (c : Dev nD) : ∀ (n : ℕ) (h : n < cfg2.N), outsAt2 V c n h = chain V c n h
  | 0, h => (outsAt2_A V c ⟨0, h⟩ rfl).trans (out_A ..)
  | n + 1, h => by
    have hN : cfg2.N = 10 := N_2
    have hB : ¬(⟨n + 1, h⟩ : Fin cfg2.N).val % 10 = 0 := by dsimp only; omega
    rw [outsAt2_B V c ⟨n + 1, h⟩ hB, out_B]
    show k2_pay2 _ _ _ _ (outsAt2 V c n _) = k2_pay2 _ _ _ _ (chain V c n _)
    rw [outsAt_eq c n]

/-- The result: the chain after the last point, as contents of the result array (its one block is the array). -/
abbrev result (c : Dev nD) : Buf (Elt F) ((c : Thread nD τ).loc main_v38) :=
  chain V c 9 (by rw [show cfg2.N = 10 from N_2]; decide)

/-- The one write-back, at the last point, writes it. -/
theorem flushed_eq (c : Dev nD) (t : Fin cfg2.N) (hf : (cfg2.win 4).flush t = true) :
    (dat2 V c).flushed 4 t = ((cfg2.win 4).blk t).view.read (Elt F) (result V c) := by
  have hN : cfg2.N = 10 := N_2
  have h9 : t.val = 9 := by have := (flush2_4 t).mp hf; have := t.isLt; omega
  obtain rfl : t = t2_9 := Fin.ext h9
  show (cfg2.win 4).cut (grid2.coords t2_9) ((dat2 V c).after 4 t2_9) = _
  rw [after2_4, outsAt_eq]
  have hz' : (fun a => win2_4.index t2_9 a * main_v38.ty.shape.size a) = fun _ => 0 := funext fun a => by fin_cases a <;> decide
  exact (Memref.read_access_unit_zero (Elt F) main_v38 hz' (fun a => by rw [congrFun hz' a]; simp) (result V c)).symm

/-- So the result array ends holding the chain after the last point. -/
theorem final_o (c : Dev nD) : (dat2 V c).arrAt 4 cfg2.N = result V c :=
  (dat2 V c).arrAt_eq_of_cover 4 (result V c) (flushed_eq V c) fun i =>
    ⟨t2_9, (flush2_4 t2_9).mpr rfl, by
      show i ∈ ((View.whole main_v38).slice (win2_4.rect t2_9)).set
      rw [View.set_slice_whole, Rect.mem_set_unit]
      intro a
      have h0 : (i 0 : Nat) < 64 := (i 0).isLt
      have h1 : (i 1 : Nat) < 128 := (i 1).isLt
      match a with
      | ⟨0, _⟩ => show win2_4.index t2_9 0 * win2_4.size 0 ≤ (i 0 : Nat) ∧ (i 0 : Nat) < win2_4.index t2_9 0 * win2_4.size 0 + win2_4.xsize (grid2.coords t2_9) 0
                  rw [show win2_4.index t2_9 0 * win2_4.size 0 = 0 from by decide +kernel, show win2_4.xsize (grid2.coords t2_9) 0 = 64 from by decide +kernel]; omega
      | ⟨1, _⟩ => show win2_4.index t2_9 1 * win2_4.size 1 ≤ (i 1 : Nat) ∧ (i 1 : Nat) < win2_4.index t2_9 1 * win2_4.size 1 + win2_4.xsize (grid2.coords t2_9) 1
                  rw [show win2_4.index t2_9 1 * win2_4.size 1 = 0 from by decide +kernel, show win2_4.xsize (grid2.coords t2_9) 1 = 128 from by decide +kernel]; omega⟩

end Cert.KernelIdeal.PoolValue

end
-- ==== Proof.Spec.lean ====
/-
  The mathematics of a two-layer graph convolution with mean pooling, over the extended reals.

  A graph convolution layer sends node features `H` (already multiplied by the layer's weights) to
  `out n = Σ_{e lands at n} norm e · H (src e) + b`, with the symmetric normalisation `norm e = d (src e) · d (dst e)`.
  One program computes it as written (`convR`); the other factors the target's `d n` out of the sum and folds the
  source's `d (src e)` into the features before they are gathered (`convK`). Over the extended reals the two agree
  when `d` and `H` are real numbers: then the factor moves across the finite sum by distributivity, which fails at
  infinities. Mean pooling by a one-hot matrix product, accumulated block by block, is the sum over the nodes of a graph.
-/
import Mathlib.Data.EReal.Basic
import Mathlib.Data.EReal.Operations
import Mathlib.Algebra.BigOperators.Fin
import Mathlib.Algebra.BigOperators.Ring.Finset

noncomputable section

namespace Cert.GcnSpec

open Finset

/-- An extended real that is a real number. -/
def IsReal (v : EReal) : Prop := ∃ r : ℝ, v = (r : EReal)

theorem IsReal.coe (r : ℝ) : IsReal (r : EReal) := ⟨r, rfl⟩
theorem IsReal.zero : IsReal 0 := ⟨0, by simp⟩
theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.max {a b : EReal} (ha : IsReal a) (hb : IsReal b) : IsReal (max a b) := by
  rcases max_cases a b with h | h <;> rw [h.1] <;> assumption
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The coercion of a finite sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {N E C K : ℕ}

/-- A matrix product, entry by entry. -/
def mm (A : Fin N → Fin K → EReal) (B : Fin K → Fin C → EReal) (n : Fin N) (j : Fin C) : EReal := ∑ k, A n k * B k j

theorem mm_isReal (A : Fin N → Fin K → EReal) (B : Fin K → Fin C → EReal) (hA : ∀ n k, IsReal (A n k))
    (hB : ∀ k j, IsReal (B k j)) (n : Fin N) (j : Fin C) : IsReal (mm A B n j) :=
  IsReal.sum _ _ fun k _ => (hA n k).mul (hB k j)

/-- The layer with the target's factor taken out of the sum and the source's factor folded into the gathered
    features. -/
def convK (land : Fin N → Finset (Fin E)) (src : Fin E → Fin N) (d : Fin N → EReal) (H : Fin N → Fin C → EReal)
    (b : Fin C → EReal) (n : Fin N) (j : Fin C) : EReal :=
  (∑ e ∈ land n, H (src e) j * d (src e)) * d n + b j

/-- The layer as written: each message scaled by the product of its two endpoint factors. -/
def convR (land : Fin N → Finset (Fin E)) (src dst : Fin E → Fin N) (d : Fin N → EReal) (H : Fin N → Fin C → EReal)
    (b : Fin C → EReal) (n : Fin N) (j : Fin C) : EReal :=
  (∑ e ∈ land n, (d (src e) * d (dst e)) * H (src e) j) + b j

theorem convK_isReal (land : Fin N → Finset (Fin E)) (src : Fin E → Fin N) (d : Fin N → EReal) (H : Fin N → Fin C → EReal)
    (b : Fin C → EReal) (hd : ∀ n, IsReal (d n)) (hH : ∀ n j, IsReal (H n j)) (hb : ∀ j, IsReal (b j)) (n : Fin N) (j : Fin C) :
    IsReal (convK land src d H b n j) :=
  ((IsReal.sum _ _ fun e _ => (hH (src e) j).mul (hd (src e))).mul (hd n)).add (hb j)

/-- The two forms of the layer agree on real data, when every edge that lands at `n` has target `n`. -/
theorem convK_eq_convR (land : Fin N → Finset (Fin E)) (src dst : Fin E → Fin N) (d : Fin N → EReal)
    (H : Fin N → Fin C → EReal) (b : Fin C → EReal) (hd : ∀ n, IsReal (d n)) (hH : ∀ n j, IsReal (H n j))
    (hdst : ∀ n, ∀ e ∈ land n, dst e = n) (n : Fin N) (j : Fin C) :
    convK land src d H b n j = convR land src dst d H b n j := by
  unfold convK convR
  congr 1
  choose δ hδ using hd
  choose h hh using hH
  have e1 : ∑ e ∈ land n, (d (src e) * d (dst e)) * H (src e) j = ∑ e ∈ land n, (d (src e) * d n) * H (src e) j :=
    Finset.sum_congr rfl fun e he => by rw [hdst n e he]
  rw [e1]
  simp only [hδ, hh, ← EReal.coe_mul, ← coe_sum]
  refine congrArg _ ?_
  rw [Finset.sum_mul]
  exact Finset.sum_congr rfl fun e _ => by ring

/-- Row `r` of block `t`, among ten blocks of 5000 rows. -/
def blk (t : Fin 10) (r : Fin 5000) : Fin 50000 := ⟨5000 * t.val + r.val, by omega⟩

/-- Ten blocks of 5000 rows are the 50000 rows. -/
def blkEquiv : Fin 10 × Fin 5000 ≃ Fin 50000 where
  toFun p := blk p.1 p.2
  invFun n := (⟨n.val / 5000, by have := n.isLt; omega⟩, ⟨n.val % 5000, by omega⟩)
  left_inv p := by
    obtain ⟨t, r⟩ := p
    have ht := t.isLt; have hr := r.isLt
    refine Prod.ext (Fin.ext ?_) (Fin.ext ?_)
    · show (5000 * t.val + r.val) / 5000 = t.val; omega
    · show (5000 * t.val + r.val) % 5000 = r.val; omega
  right_inv n := by
    refine Fin.ext ?_
    show 5000 * (n.val / 5000) + n.val % 5000 = n.val; omega

/-- A sum over the rows as a sum over the blocks of the sums over a block's rows. -/
theorem sum_blk {M : Type*} [AddCommMonoid M] (f : Fin 50000 → M) :
    ∑ n, f n = ∑ t : Fin 10, ∑ r : Fin 5000, f (blk t r) := by
  rw [← Equiv.sum_comp blkEquiv f, Fintype.sum_prod_type]
  rfl

/-- A one-hot weighted sum is the sum over the selected indices. -/
theorem sum_onehot {ι : Type*} (s : Finset ι) (P : ι → Prop) [DecidablePred P] (f : ι → EReal) :
    ∑ i ∈ s, (if P i then (1 : EReal) else 0) * f i = ∑ i ∈ s.filter P, f i := by
  rw [Finset.sum_filter]
  exact Finset.sum_congr rfl fun i _ => by split <;> simp

end Cert.GcnSpec

end
-- ==== Proof.Model.lean ====
/-
  A two-layer graph convolution, mean pooling over graphs and a linear classifier, written twice over the extended
  reals: once with each message scaled by the product of its endpoints' degree factors (`gcnR`), once with the
  target's factor taken out of each node's sum, the source's factor folded into the gathered features, and the
  pooling done by a one-hot matrix product over blocks of nodes (`gcnK`). The two agree when the features, weights
  and biases are real numbers and every node has a self loop (so that no degree is zero): `gcnK_eq_gcnR`.

  Edges are given by two arrays of 32-bit indices. A gather reads an index the way `x[idx]` does: a negative index
  counts from the end, and the result is clamped into the table. A scatter-add reads it signed and drops what falls
  outside. For an edge whose scatter index is node `n` the two readings agree (`node_of_land`).
-/
import proofs.«162227_j16466904612871_2_alg».proof.Proof.Spec
import Idealize.ShloMosaic.PureOps.Ideal
import Idealize.ShloMosaic.PureOps.Ideal.Laws

noncomputable section

namespace Cert.GcnModel

open Idealize.ShloMosaic Cert.GcnSpec Finset

/-- The zero and the one of the programs' float literals. -/
def zf : EReal := Ideal.ofBits .f32 0x00000000#32
def onef : EReal := Ideal.ofBits .f32 0x3F800000#32

theorem zf_eq : zf = 0 := Ideal.ofBits_zero_f32
theorem onef_eq : onef = 1 := by
  unfold onef; simp [Ideal.ofBits, Ideal.ieee, -EReal.coe_mul]; norm_num

/-- An index as a gather's wrap-around reads it: a negative index counts from the end of a table of 50000 rows. -/
def wrap (v : BitVec 32) : BitVec 32 := Scalar.select (IntOp.cmpi .slt v 0#32) (IntOp.addi v 50000#32) v

/-- The row a gather reads for the index `v`: wrapped, read signed, clamped into the table. -/
def node (v : BitVec 32) : Fin 50000 := ⟨min (wrap v).toInt.toNat 49999, by omega⟩

/-- The edges whose scatter index is node `n`. -/
def land (colv : Fin 650000 → BitVec 32) (n : Fin 50000) : Finset (Fin 650000) :=
  univ.filter fun e => (colv e).toInt = (n.val : Int)

/-- The nodes whose graph index is `g`. -/
def graphOf (bat : Fin 50000 → BitVec 32) (g : Fin 64) : Finset (Fin 50000) :=
  univ.filter fun n => (bat n).toInt = (g.val : Int)

/-- An index that a scatter reads as node `n` is read as node `n` by a gather too. -/
theorem node_of_toInt (v : BitVec 32) (n : Fin 50000) (h : v.toInt = (n.val : Int)) : node v = n := by
  have hn := n.isLt
  have hnot : ¬ v.slt 0#32 := by
    rw [BitVec.slt]; simp only [BitVec.toInt_zero, decide_eq_true_eq]; omega
  have hw : wrap v = v := by
    unfold wrap
    have : IntOp.cmpi .slt v 0#32 = 0#1 := by
      simp [IntOp.cmpi, hnot]
    rw [this]; rfl
  apply Fin.ext
  show min (wrap v).toInt.toNat 49999 = n.val
  rw [hw, h]; omega

/-- The inverse square root of a node's degree: the number of edges that land on it. -/
def dinv (colv : Fin 650000 → BitVec 32) (n : Fin 50000) : EReal :=
  Ideal.rsqrt (zf + ∑ _e ∈ land colv n, onef)

/-- One convolution layer, the target's factor outside the sum. -/
def layerK (rowv colv : Fin 650000 → BitVec 32) (X : Fin 50000 → Fin 128 → EReal) (W : Fin 128 → Fin 128 → EReal)
    (b : Fin 128 → EReal) (n : Fin 50000) (j : Fin 128) : EReal :=
  (zf + ∑ e ∈ land colv n, mm X W (node (rowv e)) j * dinv colv (node (rowv e))) * dinv colv n + b j

/-- One convolution layer, each message scaled by both endpoint factors. -/
def layerR (rowv colv : Fin 650000 → BitVec 32) (X : Fin 50000 → Fin 128 → EReal) (W : Fin 128 → Fin 128 → EReal)
    (b : Fin 128 → EReal) (n : Fin 50000) (j : Fin 128) : EReal :=
  (zf + ∑ e ∈ land colv n, (dinv colv (node (rowv e)) * dinv colv (node (colv e))) * mm X W (node (rowv e)) j) + b j

/-- The one-hot entry for node `n` and graph `g`: the comparison of the graph's number with the node's graph index,
    widened and read as a number. -/
def onehot (bat : Fin 50000 → BitVec 32) (n : Fin 50000) (g : Fin 64) : EReal :=
  (((((IntOp.cmpi .eq (BitVec.ofNat 32 g.val) (bat n)).setWidth 32).toInt : ℤ) : ℝ) : EReal)

/-- Per-graph sums by a scatter-add. -/
def poolR (bat : Fin 50000 → BitVec 32) (h : Fin 50000 → Fin 128 → EReal) (g : Fin 64) (j : Fin 128) : EReal :=
  zf + ∑ n ∈ graphOf bat g, h n j

/-- Per-graph sums by a one-hot product over ten blocks of 5000 nodes. -/
def poolK (bat : Fin 50000 → BitVec 32) (h : Fin 50000 → Fin 128 → EReal) (g : Fin 64) (j : Fin 128) : EReal :=
  ∑ t : Fin 10, ∑ r : Fin 5000, onehot bat (blk t r) g * h (blk t r) j

/-- The number of nodes of a graph, and the mean. -/
def cnt (bat : Fin 50000 → BitVec 32) (g : Fin 64) : EReal := zf + ∑ _n ∈ graphOf bat g, onef
def meanOf (bat : Fin 50000 → BitVec 32) (S : Fin 64 → Fin 128 → EReal) (g : Fin 64) (j : Fin 128) : EReal :=
  Ideal.div (S g j) (max (cnt bat g) onef)

/-- The classifier. -/
def logits (P : Fin 64 → Fin 128 → EReal) (WL : Fin 128 → Fin 10 → EReal) (BL : Fin 10 → EReal) (g : Fin 64) (c : Fin 10) :
    EReal := mm P WL g c + BL c

def gcnK (rowv colv : Fin 650000 → BitVec 32) (bat : Fin 50000 → BitVec 32) (X : Fin 50000 → Fin 128 → EReal)
    (W1 : Fin 128 → Fin 128 → EReal) (B1 : Fin 128 → EReal) (W2 : Fin 128 → Fin 128 → EReal) (B2 : Fin 128 → EReal)
    (WL : Fin 128 → Fin 10 → EReal) (BL : Fin 10 → EReal) : Fin 64 → Fin 10 → EReal :=
  logits (meanOf bat (poolK bat (layerK rowv colv (fun n k => max (layerK rowv colv X W1 B1 n k) zf) W2 B2))) WL BL

def gcnR (rowv colv : Fin 650000 → BitVec 32) (bat : Fin 50000 → BitVec 32) (X : Fin 50000 → Fin 128 → EReal)
    (W1 : Fin 128 → Fin 128 → EReal) (B1 : Fin 128 → EReal) (W2 : Fin 128 → Fin 128 → EReal) (B2 : Fin 128 → EReal)
    (WL : Fin 128 → Fin 10 → EReal) (BL : Fin 10 → EReal) : Fin 64 → Fin 10 → EReal :=
  logits (meanOf bat (poolR bat (layerR rowv colv (fun n k => max (layerR rowv colv X W1 B1 n k) zf) W2 B2))) WL BL

/-! ## The two agree -/

/-- With a self loop on every node the degree factor is a real number. -/
theorem dinv_isReal (colv : Fin 650000 → BitVec 32) (hself : ∀ n : Fin 50000, (land colv n).Nonempty) (n : Fin 50000) :
    IsReal (dinv colv n) := by
  unfold dinv
  have hc : 0 < (land colv n).card := Finset.card_pos.mpr (hself n)
  have e : (∑ _e ∈ land colv n, (1 : EReal)) = (((land colv n).card : ℝ) : EReal) := by
    rw [← EReal.coe_one, ← coe_sum, Finset.sum_const, nsmul_eq_mul, mul_one]
  rw [zf_eq, onef_eq, zero_add, e, Ideal.rsqrt_coe]
  have hpos : (0 : ℝ) < ((land colv n).card : ℝ) := by exact_mod_cast hc
  rw [if_neg (not_lt.mpr hpos.le), if_neg hpos.ne']
  exact IsReal.coe _

theorem layerK_eq_layerR (rowv colv : Fin 650000 → BitVec 32) (X : Fin 50000 → Fin 128 → EReal) (W : Fin 128 → Fin 128 → EReal)
    (b : Fin 128 → EReal) (hself : ∀ n : Fin 50000, (land colv n).Nonempty) (hX : ∀ n k, IsReal (X n k))
    (hW : ∀ k j, IsReal (W k j)) (n : Fin 50000) (j : Fin 128) :
    layerK rowv colv X W b n j = layerR rowv colv X W b n j := by
  have h := convK_eq_convR (land colv) (fun e => node (rowv e)) (fun e => node (colv e)) (dinv colv) (mm X W) b
    (dinv_isReal colv hself) (mm_isReal X W hX hW)
    (fun n e he => node_of_toInt (colv e) n (Finset.mem_filter.mp he).2) n j
  unfold convK convR at h
  unfold layerK layerR
  rw [zf_eq, zero_add, zero_add]
  exact h

theorem layerK_isReal (rowv colv : Fin 650000 → BitVec 32) (X : Fin 50000 → Fin 128 → EReal) (W : Fin 128 → Fin 128 → EReal)
    (b : Fin 128 → EReal) (hself : ∀ n : Fin 50000, (land colv n).Nonempty) (hX : ∀ n k, IsReal (X n k))
    (hW : ∀ k j, IsReal (W k j)) (hb : ∀ j, IsReal (b j)) (n : Fin 50000) (j : Fin 128) :
    IsReal (layerK rowv colv X W b n j) := by
  have h := convK_isReal (land colv) (fun e => node (rowv e)) (dinv colv) (mm X W) b
    (dinv_isReal colv hself) (mm_isReal X W hX hW) hb n j
  unfold convK at h
  unfold layerK
  rw [zf_eq, zero_add]
  exact h

/-- The one-hot entry is one on the nodes of the graph and zero elsewhere. -/
theorem onehot_eq (bat : Fin 50000 → BitVec 32) (n : Fin 50000) (g : Fin 64) :
    onehot bat n g = if (bat n).toInt = (g.val : Int) then 1 else 0 := by
  unfold onehot
  have hg := g.isLt
  have hgi : (BitVec.ofNat 32 g.val).toInt = (g.val : Int) := by
    rw [BitVec.toInt_eq_toNat_cond, BitVec.toNat_ofNat]
    split <;> omega
  have hiff : BitVec.ofNat 32 g.val = bat n ↔ (bat n).toInt = (g.val : Int) := by
    constructor
    · intro h; rw [← h]; exact hgi
    · intro h; apply BitVec.eq_of_toInt_eq; rw [h]; exact hgi
  by_cases hc : (bat n).toInt = (g.val : Int)
  · rw [if_pos hc]
    have : IntOp.cmpi .eq (BitVec.ofNat 32 g.val) (bat n) = 1#1 := by simp [IntOp.cmpi, hiff.mpr hc]
    rw [this]; simp
  · rw [if_neg hc]
    have hne : (BitVec.ofNat 32 g.val == bat n) = false := beq_eq_false_iff_ne.mpr fun h => hc (hiff.mp h)
    have : IntOp.cmpi .eq (BitVec.ofNat 32 g.val) (bat n) = 0#1 := by
      simp [IntOp.cmpi, hne]
    rw [this]; simp

theorem poolK_eq_poolR (bat : Fin 50000 → BitVec 32) (h : Fin 50000 → Fin 128 → EReal) (g : Fin 64) (j : Fin 128) :
    poolK bat h g j = poolR bat h g j := by
  unfold poolK poolR
  rw [zf_eq, zero_add]
  rw [← sum_blk (fun n : Fin 50000 => onehot bat n g * h n j)]
  simp only [onehot_eq]
  exact sum_onehot Finset.univ (fun n : Fin 50000 => (bat n).toInt = (g.val : Int)) (fun n => h n j)

theorem gcnK_eq_gcnR (rowv colv : Fin 650000 → BitVec 32) (bat : Fin 50000 → BitVec 32) (X : Fin 50000 → Fin 128 → EReal)
    (W1 : Fin 128 → Fin 128 → EReal) (B1 : Fin 128 → EReal) (W2 : Fin 128 → Fin 128 → EReal) (B2 : Fin 128 → EReal)
    (WL : Fin 128 → Fin 10 → EReal) (BL : Fin 10 → EReal) (hself : ∀ n : Fin 50000, (land colv n).Nonempty)
    (hX : ∀ n k, IsReal (X n k)) (hW1 : ∀ k j, IsReal (W1 k j)) (hB1 : ∀ j, IsReal (B1 j)) (hW2 : ∀ k j, IsReal (W2 k j)) :
    gcnK rowv colv bat X W1 B1 W2 B2 WL BL = gcnR rowv colv bat X W1 B1 W2 B2 WL BL := by
  unfold gcnK gcnR
  have e1 : (fun n k => max (layerK rowv colv X W1 B1 n k) zf) = fun n k => max (layerR rowv colv X W1 B1 n k) zf :=
    funext fun n => funext fun k => by rw [layerK_eq_layerR rowv colv X W1 B1 hself hX hW1]
  have hreal : ∀ n k, IsReal (max (layerK rowv colv X W1 B1 n k) zf) := fun n k =>
    (layerK_isReal rowv colv X W1 B1 hself hX hW1 hB1 n k).max (by rw [zf_eq]; exact IsReal.zero)
  have e2 : layerK rowv colv (fun n k => max (layerK rowv colv X W1 B1 n k) zf) W2 B2
      = layerR rowv colv (fun n k => max (layerR rowv colv X W1 B1 n k) zf) W2 B2 := by
    funext n j
    rw [layerK_eq_layerR rowv colv _ W2 B2 hself hreal hW2, e1]
  rw [e2]
  have e3 : poolK bat (layerR rowv colv (fun n k => max (layerR rowv colv X W1 B1 n k) zf) W2 B2)
      = poolR bat (layerR rowv colv (fun n k => max (layerR rowv colv X W1 B1 n k) zf) W2 B2) :=
    funext fun g => funext fun j => poolK_eq_poolR bat _ g j
  rw [e3]

end Cert.GcnModel

end
-- ==== Proof.LibMatmulPlain.lean ====
/-
  A plain matrix product read at one entry, on the extended reals.

  For dimension numbers that contract the left operand's second axis with the right operand's first
  (an [M, K] array times a [K, N] array), started from a zero accumulator, entry (p, c) of the product is
  the sum over k of lhs (p, k) * rhs (k, c). The four coordinate facts about the record's operand indices
  are taken as hypotheses, so the lemma serves every record of that form whatever the extents.
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

/-- Entry (p, c) of an [M, K] x [K, N] product into a zero accumulator is the sum over the one contracted
    axis of the products of row p of the left operand with column c of the right one. `hr`, `hs`: the record
    contracts one axis, of extent K; `hl0` ... `hr1`: the record's operand indices at an output index and a
    contraction position are (row, position) and (position, column). -/
theorem matmul_zero_apply {M K N : Nat} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (j : (⟨2, ![M, N]⟩ : Shape).Idx) (q : D.contr.Idx), (D.lhsIdx j q (0 : Fin 2)).val = (j 0).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j 1).val)
    (lhs : FVec Ideal ⟨2, ![M, K]⟩ φ₁) (rhs : FVec Ideal ⟨2, ![K, N]⟩ φ₂) (p : Fin M) (c : Fin N) :
    FloatOps.matmul D prec lhs rhs (constant (F := Ideal) ⟨2, ![M, N]⟩ .f32 0x00000000#32) (ix2 p c)
      = ∑ k : Fin K, lhs (ix2 p k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Idealize.ShloMosaic.MatmulPlain

end
-- ==== Proof.LibKeepdims.lean ====
/-
  Keepdims column forms read at an index, at the exact values: a lane sum [a, b] → [a] is the finite sum over the row;
  the cast of the vector of sums [a] → [a, 1] keeps each entry in its row; the broadcast of a column [a, 1] over the
  lanes [a, b] repeats the row's entry on every lane. With the row broadcast [1, b] → [a, b] these are all a row-wise
  normalization needs.
-/
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast over `b` lanes reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array, at row `p`: the sum over the row's `b` entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => by
      match c with
      | ⟨0, _⟩ => exact Fin.ext rfl
      | ⟨1, _⟩ => exact Fin.ext rfl))

end Cert.LibKeepdims
-- ==== Proof.Region2Value.lean ====
/-
  The pooling region's result read at an entry, over the extended reals: entry (g, j) of the result is the zero plus,
  block by block, the sum over the block's rows of the one-hot entry (row's graph index = g) times the row's
  post-processed feature `raw · d + b`.
-/
import proofs.«162227_j16466904612871_2_alg».proof.Proof.Region2
import proofs.«162227_j16466904612871_2_alg».proof.Proof.Model
import proofs.«162227_j16466904612871_2_alg».proof.Proof.LibMatmulPlain
import proofs.«162227_j16466904612871_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.PoolValue

open Cert.KernelIdeal Cert.KernelIdeal.Gen Cert.GcnSpec Cert.GcnModel

abbrev D2 : DotDims S64x5000 S5000x128 S64x128 := dot_S64x5000_S5000x128_S64x128_1_0_0_1_n_n

theorem dl0 (i : S64x128.Idx) (q : D2.contr.Idx) : (D2.lhsIdx i q 0).val = (i 0).val := by
  unfold DotDims.lhsIdx
  rw [dif_neg (show ¬(0 : Fin S64x5000.rank) ∈ dot_S64x5000_S5000x128_S64x128_1_0_0_1_n_n.lhsBatch by decide),
    dif_pos (show (0 : Fin S64x5000.rank) ∈ dot_S64x5000_S5000x128_S64x128_1_0_0_1_n_n.lhsNonContracting by decide)]
  rfl
theorem dl1 (i : S64x128.Idx) (q : D2.contr.Idx) : (D2.lhsIdx i q 1).val = (q ⟨0, by decide⟩).val :=
  dot_S64x5000_S5000x128_S64x128_1_0_0_1_n_n.lhsIdx_val_of_single rfl i q
theorem dr0 (i : S64x128.Idx) (q : D2.contr.Idx) : (D2.rhsIdx i q 0).val = (q ⟨0, by decide⟩).val :=
  dot_S64x5000_S5000x128_S64x128_1_0_0_1_n_n.rhsIdx_val_of_single rfl i q
theorem dr1 (i : S64x128.Idx) (q : D2.contr.Idx) : (D2.rhsIdx i q 1).val = (i 1).val := by
  unfold DotDims.rhsIdx
  rw [dif_neg (show ¬(1 : Fin S5000x128.rank) ∈ dot_S64x5000_S5000x128_S64x128_1_0_0_1_n_n.rhsBatch by decide),
    dif_pos (show (1 : Fin S5000x128.rank) ∈ dot_S64x5000_S5000x128_S64x128_1_0_0_1_n_n.rhsNonContracting by decide)]
  rfl

/-- The one-hot entry of a graph index word `b` against graph `g`. -/
def oh (b : BitVec 32) (g : Fin 64) : EReal :=
  (((((IntOp.cmpi .eq (BitVec.ofNat 32 g.val) b).setWidth 32).toInt : ℤ) : ℝ) : EReal)

/-- A point's payload at entry (g, j): what the block held plus the sum over the block's 5000 rows of the one-hot
    entry times the row's post-processed feature. -/
theorem pay_apply (x0 : Vec Ideal S5000x128 .f32) (x1 : Vec Ideal S5000x1 .f32) (x2 : Vec Ideal S1x128 .f32)
    (x3 : Vec Ideal S5000x1 .i32) (acc : Vec Ideal S64x128 .f32) (g : Fin 64) (j : Fin 128) :
    k2_pay2 x0 x1 x2 x3 acc (ix2 g j)
      = acc (ix2 g j) + ∑ r : Fin 5000, oh (x3 (ix2 r (0 : Fin 1))) g
          * (x0 (ix2 r j) * x1 (ix2 r (0 : Fin 1)) + x2 (ix2 (0 : Fin 1) j)) := by
  unfold k2_pay2
  simp only [shapeCast_self]
  rw [addf_apply]
  congr 1
  refine (Idealize.ShloMosaic.MatmulPlain.matmul_zero_apply D2 none rfl rfl dl0 dl1 dr0 dr1 _ _ g j).trans ?_
  refine Finset.sum_congr rfl fun r _ => ?_
  congr 1
  · rw [transpose_apply [1, 0] _ transposes_S5000x64_p1_0_S64x5000 (ix2 g r) (ix2 r g)
      (fun b => by match b with | ⟨0, _⟩ => rfl | ⟨1, _⟩ => rfl)]
    rw [truncf_apply, sitofp_apply, extui_apply]
    show FloatOps.sitofp .f32 ((IntOp.cmpi .eq (iota .tc S5000x64 32 [1] iota_S5000x64_d1_w32 (ix2 r g))
      (broadcastTo S5000x64 x3 broadcasts_S5000x1_S5000x64 (ix2 r g))).setWidth 32) = _
    rw [iota_single_apply, Cert.LibKeepdims.broadcastTo_a1_ab_apply]
    rfl
  · rw [truncf_apply, addf_apply, mulf_apply, Cert.LibKeepdims.broadcastTo_a1_ab_apply]
    congr 1
    exact broadcastTo_apply x2 broadcasts_S1x128_S5000x128 (ix2 r j) (ix2 (0 : Fin 1) j)
      (fun a => by match a with | ⟨0, _⟩ => rfl | ⟨1, _⟩ => rfl)

/-- The cleared block is zero everywhere. -/
theorem pay1_apply (g : Fin 64) (j : Fin 128) : k2_pay1 (F := Ideal) (ix2 g j) = zf := rfl

variable (V : (c : Dev nD) → (b : Ref sig .tc) → Buf (Elt Ideal) ((c : Thread nD τ).loc b))

/-- Row `r` of block `t` of the scattered features: the array's row 5000·t + r. -/
theorem iblk0_apply (c : Dev nD) (t : Fin cfg2.N) (r : Fin 5000) (j : Fin 128) (n : Fin 50000) (hn : n.val = 5000 * t.val + r.val) :
    iblk2 V c 0 t (ix2 r j) = V c main_v35 (ix2 n j) := by
  have hi : win2_0.index t 0 = t.val ∧ win2_0.index t 1 = 0 :=
    (by decide +kernel : ∀ t : Fin grid2.N, win2_0.index t 0 = t.val ∧ win2_0.index t 1 = 0) t
  unfold iblk2
  rw [View.read_apply]
  show V c main_v35 _ = V c main_v35 _
  refine congrArg _ (funext fun a => Fin.ext ?_)
  match a with
  | ⟨0, _⟩ => show win2_0.index t 0 * 5000 + 1 * r.val = n.val; rw [hi.1, hn]; omega
  | ⟨1, _⟩ => show win2_0.index t 1 * 128 + 1 * j.val = j.val; rw [hi.2]; omega

/-- Row `r` of block `t` of the degree factors. -/
theorem iblk1_apply (c : Dev nD) (t : Fin cfg2.N) (r : Fin 5000) (n : Fin 50000) (hn : n.val = 5000 * t.val + r.val) :
    iblk2 V c 1 t (ix2 r (0 : Fin 1)) = V c main_v12 (ix2 n (0 : Fin 1)) := by
  have hi : win2_1.index t 0 = t.val ∧ win2_1.index t 1 = 0 :=
    (by decide +kernel : ∀ t : Fin grid2.N, win2_1.index t 0 = t.val ∧ win2_1.index t 1 = 0) t
  unfold iblk2
  rw [View.read_apply]
  show V c main_v12 _ = V c main_v12 _
  refine congrArg _ (funext fun a => Fin.ext ?_)
  match a with
  | ⟨0, _⟩ => show win2_1.index t 0 * 5000 + 1 * r.val = n.val; rw [hi.1, hn]; omega
  | ⟨1, _⟩ => show win2_1.index t 1 * 1 + 1 * 0 = 0; rw [hi.2]

/-- The bias row is the whole array at every point. -/
theorem iblk2_apply (c : Dev nD) (t : Fin cfg2.N) (j : Fin 128) :
    iblk2 V c 2 t (ix2 (0 : Fin 1) j) = V c main_v36 (ix2 (0 : Fin 1) j) := by
  have hi : win2_2.index t 0 = 0 ∧ win2_2.index t 1 = 0 :=
    (by decide +kernel : ∀ t : Fin grid2.N, win2_2.index t 0 = 0 ∧ win2_2.index t 1 = 0) t
  unfold iblk2
  rw [View.read_apply]
  show V c main_v36 _ = V c main_v36 _
  refine congrArg _ (funext fun a => Fin.ext ?_)
  match a with
  | ⟨0, _⟩ => show win2_2.index t 0 * 1 + 1 * 0 = 0; rw [hi.1]
  | ⟨1, _⟩ => show win2_2.index t 1 * 128 + 1 * j.val = j.val; rw [hi.2]; omega

/-- Row `r` of block `t` of the graph indices. -/
theorem iblk3_apply (c : Dev nD) (t : Fin cfg2.N) (r : Fin 5000) (n : Fin 50000) (hn : n.val = 5000 * t.val + r.val) :
    iblk2 V c 3 t (ix2 r (0 : Fin 1)) = V c main_v37 (ix2 n (0 : Fin 1)) := by
  have hi : win2_3.index t 0 = t.val ∧ win2_3.index t 1 = 0 :=
    (by decide +kernel : ∀ t : Fin grid2.N, win2_3.index t 0 = t.val ∧ win2_3.index t 1 = 0) t
  unfold iblk2
  rw [View.read_apply]
  show V c main_v37 _ = V c main_v37 _
  refine congrArg _ (funext fun a => Fin.ext ?_)
  match a with
  | ⟨0, _⟩ => show win2_3.index t 0 * 5000 + 1 * r.val = n.val; rw [hi.1, hn]; omega
  | ⟨1, _⟩ => show win2_3.index t 1 * 1 + 1 * 0 = 0; rw [hi.2]

/-- The region's four input arrays as it finds them, as extended-real (or index-word) arrays. -/
abbrev rawA (c : Dev nD) : S50000x128.Idx → EReal := V c main_v35
abbrev dcolA (c : Dev nD) : S50000x1.Idx → EReal := V c main_v12
abbrev biasA (c : Dev nD) : S1x128.Idx → EReal := V c main_v36
abbrev batA (c : Dev nD) : S50000x1.Idx → BitVec 32 := V c main_v37

/-- One block's contribution to entry (g, j): over the block's rows, the one-hot entry times the post-processed
    feature. -/
def contrib (c : Dev nD) (g : Fin 64) (j : Fin 128) (s : ℕ) : EReal :=
  if h : s < 10 then ∑ r : Fin 5000, onehot (fun n => batA V c (ix2 n (0 : Fin 1))) (blk ⟨s, h⟩ r) g
      * (rawA V c (ix2 (blk ⟨s, h⟩ r) j) * dcolA V c (ix2 (blk ⟨s, h⟩ r) (0 : Fin 1)) + biasA V c (ix2 (0 : Fin 1) j))
  else 0

/-- The payload when its four input blocks are rows 5000·t … 5000·t + 4999 of four arrays (the bias row whole). -/
theorem pay_rows (x0 : Vec Ideal S5000x128 .f32) (x1 : Vec Ideal S5000x1 .f32) (x2 : Vec Ideal S1x128 .f32)
    (x3 : Vec Ideal S5000x1 .i32) (acc : Vec Ideal S64x128 .f32)
    (a0 : S50000x128.Idx → EReal) (a1 : S50000x1.Idx → EReal) (a2 : S1x128.Idx → EReal) (a3 : S50000x1.Idx → BitVec 32)
    (t : Fin 10)
    (h0 : ∀ (r : Fin 5000) (j : Fin 128), x0 (ix2 r j) = a0 (ix2 (blk t r) j))
    (h1 : ∀ r : Fin 5000, x1 (ix2 r (0 : Fin 1)) = a1 (ix2 (blk t r) (0 : Fin 1)))
    (h2 : ∀ j : Fin 128, x2 (ix2 (0 : Fin 1) j) = a2 (ix2 (0 : Fin 1) j))
    (h3 : ∀ r : Fin 5000, x3 (ix2 r (0 : Fin 1)) = a3 (ix2 (blk t r) (0 : Fin 1)))
    (g : Fin 64) (j : Fin 128) :
    k2_pay2 x0 x1 x2 x3 acc (ix2 g j)
      = acc (ix2 g j) + ∑ r : Fin 5000, onehot (fun n => a3 (ix2 n (0 : Fin 1))) (blk t r) g
          * (a0 (ix2 (blk t r) j) * a1 (ix2 (blk t r) (0 : Fin 1)) + a2 (ix2 (0 : Fin 1) j)) := by
  rw [pay_apply]
  refine congrArg (acc (ix2 g j) + ·) (Finset.sum_congr rfl fun r _ => ?_)
  rw [h0 r j, h1 r, h2 j, h3 r]
  rfl

/-- A point's payload over the window blocks at that point: what the block held plus the point's contribution. -/
theorem point_apply (c : Dev nD) (n : ℕ) (h : n < cfg2.N) (acc : Vec Ideal S64x128 .f32) (g : Fin 64) (j : Fin 128) :
    k2_pay2 (iblk2 V c 0 ⟨n, h⟩) (iblk2 V c 1 ⟨n, h⟩) (iblk2 V c 2 ⟨n, h⟩) (iblk2 V c 3 ⟨n, h⟩) acc (ix2 g j)
      = acc (ix2 g j) + contrib V c g j n := by
  have hN : cfg2.N = 10 := N_2
  have h10 : n < 10 := hN ▸ h
  unfold contrib
  rw [dif_pos h10]
  exact pay_rows (iblk2 V c 0 ⟨n, h⟩) (iblk2 V c 1 ⟨n, h⟩) (iblk2 V c 2 ⟨n, h⟩) (iblk2 V c 3 ⟨n, h⟩) acc
    (rawA V c) (dcolA V c) (biasA V c) (batA V c) ⟨n, h10⟩
    (fun r j => iblk0_apply V c ⟨n, h⟩ r j (blk ⟨n, h10⟩ r) rfl)
    (fun r => iblk1_apply V c ⟨n, h⟩ r (blk ⟨n, h10⟩ r) rfl)
    (fun j => iblk2_apply V c ⟨n, h⟩ j)
    (fun r => iblk3_apply V c ⟨n, h⟩ r (blk ⟨n, h10⟩ r) rfl) g j

/-- The block after point `n` at entry (g, j): the zero plus the contributions of points 0 … n. -/
theorem chain_apply (c : Dev nD) (g : Fin 64) (j : Fin 128) : ∀ (n : ℕ) (h : n < cfg2.N),
    chain V c n h (ix2 g j) = zf + ∑ s ∈ Finset.range (n + 1), contrib V c g j s
  | 0, h => by
    show k2_pay2 (F := Ideal) _ _ _ _ (k2_pay1 (F := Ideal)) (ix2 g j) = _
    rw [point_apply V c 0 h (k2_pay1 (F := Ideal)) g j, pay1_apply, Finset.sum_range_one]
  | n + 1, h => by
    show k2_pay2 (F := Ideal) _ _ _ _ (chain V c n _) (ix2 g j) = _
    rw [point_apply V c (n + 1) h _ g j, chain_apply c g j n, Finset.sum_range_succ _ (n + 1), add_assoc]

/-- THE POOLING REGION'S RESULT at entry (g, j): the zero plus the one-hot product over the ten blocks. -/
theorem pool_value (c : Dev nD) (g : Fin 64) (j : Fin 128) :
    (dat2 (F := Ideal) V c).arrAt 4 cfg2.N (ix2 g j)
      = zf + poolK (fun n => batA V c (ix2 n (0 : Fin 1)))
          (fun n j => rawA V c (ix2 n j) * dcolA V c (ix2 n (0 : Fin 1)) + biasA V c (ix2 (0 : Fin 1) j)) g j := by
  rw [final_o V c]
  show chain V c 9 _ (ix2 g j) = _
  rw [chain_apply V c g j 9]
  refine congrArg (zf + ·) ?_
  unfold poolK
  rw [← Fin.sum_univ_eq_sum_range (fun s => contrib V c g j s) 10]
  refine Finset.sum_congr rfl fun t _ => ?_
  unfold contrib
  rw [dif_pos t.isLt]

end Cert.KernelIdeal.PoolValue

end
-- ==== Proof.RegionsA.lean ====
/-
  The three matrix-product regions of the idealized kernel as whole-array functions of the buffers they read.

  Each of these regions multiplies a row-tiled activation array by a weight matrix that every grid point sees whole:
  the first scales each product row by that row's normalizing factor; the second first scales the rows of its input,
  adds a bias row, clamps below at zero, multiplies, and scales the rows again; the last multiplies the pooled rows by
  the classifier's weights and adds its bias row. A block of the row-tiled arrays at grid point t is rows
  5000 t … 5000 t + 4999, so entry (n, j) of the result depends only on row n of the tiled operands, on column j of
  the weights, and on the bias entry of column j: what a point writes back is its block of one function of the
  whole arrays, and the blocks cover the result.
-/
import proofs.«162227_j16466904612871_2_alg».proof.Proof.Gen.KernelIdeal.Frame
import proofs.«162227_j16466904612871_2_alg».proof.Proof.LibMatmulPlain
import proofs.«162227_j16466904612871_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.RegionValue

open Cert.KernelIdeal Cert.KernelIdeal.Gen
open Idealize.ShloMosaic Idealize.ShloMosaic.TcCoe Idealize.ShloMosaic.ValueIdx
open Idealize.SL.Sem
open Idealize.ShloMosaic.Pipeline (Dat)

/-! ## The three results, entry by entry, as functions of plain arrays -/

/-- Row `n` of `X` against column `j` of `W`, scaled by the row's factor `D n`. -/
def linScale (X : S50000x128.Idx → EReal) (W : S128x128.Idx → EReal) (D : S50000x1.Idx → EReal) (n : Fin 50000) (j : Fin 128) : EReal :=
  (∑ k : Fin 128, X (ix2 n k) * W (ix2 k j)) * D (ix2 n (0 : Fin 1))

/-- Row `n` of `H` scaled by `D n`, shifted by the bias row `B` and clamped below at zero, against column `j` of `W`,
    scaled by `D n` again. -/
def reluLinScale (H : S50000x128.Idx → EReal) (D : S50000x1.Idx → EReal) (B : S1x128.Idx → EReal) (W : S128x128.Idx → EReal)
    (n : Fin 50000) (j : Fin 128) : EReal :=
  (∑ k : Fin 128, max (H (ix2 n k) * D (ix2 n (0 : Fin 1)) + B (ix2 (0 : Fin 1) k)) (Ideal.ofBits .f32 0x00000000#32) * W (ix2 k j))
    * D (ix2 n (0 : Fin 1))

/-- Row `g` of `P` against column `q` of `W`, plus the bias row `B` at `q`. -/
def linBias (P : S64x128.Idx → EReal) (W : S128x10.Idx → EReal) (B : S1x10.Idx → EReal) (g : Fin 64) (q : Fin 10) : EReal :=
  (∑ k : Fin 128, P (ix2 g k) * W (ix2 k q)) + B (ix2 (0 : Fin 1) q)

/-! ## The arrays the three regions read, each named once with its plain array type -/

section Arrays
variable (V : (c : Dev nD) → (b : Ref sig .tc) → Buf (Elt Ideal) ((c : Thread nD τ).loc b))

/-- The node features. -/
abbrev a_arg0 (c : Dev nD) : S50000x128.Idx → EReal := V c main_arg0
/-- The first layer's weights. -/
abbrev a_arg1 (c : Dev nD) : S128x128.Idx → EReal := V c main_arg1
/-- The column of per-node factors. -/
abbrev a_v12 (c : Dev nD) : S50000x1.Idx → EReal := V c main_v12
/-- The first layer's aggregated rows. -/
abbrev a_v23 (c : Dev nD) : S50000x128.Idx → EReal := V c main_v23
/-- The first layer's bias, as a row. -/
abbrev a_v24 (c : Dev nD) : S1x128.Idx → EReal := V c main_v24
/-- The second layer's weights. -/
abbrev a_arg3 (c : Dev nD) : S128x128.Idx → EReal := V c main_arg3
/-- The pooled rows. -/
abbrev a_v47 (c : Dev nD) : S64x128.Idx → EReal := V c main_v47
/-- The classifier's weights. -/
abbrev a_arg5 (c : Dev nD) : S128x10.Idx → EReal := V c main_arg5
/-- The classifier's bias, as a row. -/
abbrev a_v48 (c : Dev nD) : S1x10.Idx → EReal := V c main_v48

end Arrays

theorem hz : (![0, 0] : Fin 2 → Nat) = fun _ => 0 := funext fun a => by fin_cases a <;> rfl

/-! ## The contraction records: operand indices at an output index and a contraction position -/

theorem dotS_l0 (i : S64x10.Idx) (q : dot_S64x128_S128x10_S64x10_1_0_0_1_n_n.contr.Idx) :
    (dot_S64x128_S128x10_S64x10_1_0_0_1_n_n.lhsIdx i q 0).val = (i 0).val := by
  unfold DotDims.lhsIdx
  rw [dif_neg (show ¬(0 : Fin S64x128.rank) ∈ dot_S64x128_S128x10_S64x10_1_0_0_1_n_n.lhsBatch by decide), dif_pos (show (0 : Fin S64x128.rank) ∈ dot_S64x128_S128x10_S64x10_1_0_0_1_n_n.lhsNonContracting by decide)]
  rfl
theorem dotS_l1 (i : S64x10.Idx) (q : dot_S64x128_S128x10_S64x10_1_0_0_1_n_n.contr.Idx) :
    (dot_S64x128_S128x10_S64x10_1_0_0_1_n_n.lhsIdx i q 1).val = (q ⟨0, by decide⟩).val :=
  dot_S64x128_S128x10_S64x10_1_0_0_1_n_n.lhsIdx_val_of_single rfl i q
theorem dotS_r0 (i : S64x10.Idx) (q : dot_S64x128_S128x10_S64x10_1_0_0_1_n_n.contr.Idx) :
    (dot_S64x128_S128x10_S64x10_1_0_0_1_n_n.rhsIdx i q 0).val = (q ⟨0, by decide⟩).val :=
  dot_S64x128_S128x10_S64x10_1_0_0_1_n_n.rhsIdx_val_of_single rfl i q
theorem dotS_r1 (i : S64x10.Idx) (q : dot_S64x128_S128x10_S64x10_1_0_0_1_n_n.contr.Idx) :
    (dot_S64x128_S128x10_S64x10_1_0_0_1_n_n.rhsIdx i q 1).val = (i 1).val := by
  unfold DotDims.rhsIdx
  rw [dif_neg (show ¬(1 : Fin S128x10.rank) ∈ dot_S64x128_S128x10_S64x10_1_0_0_1_n_n.rhsBatch by decide), dif_pos (show (1 : Fin S128x10.rank) ∈ dot_S64x128_S128x10_S64x10_1_0_0_1_n_n.rhsNonContracting by decide)]
  rfl

/-! ## Region 3: pooled rows times the classifier's weights, plus its bias row -/

/-- The body's stored value at (p, q): row p of the first operand against column q of the second, plus the
    one-row third operand at q. -/
theorem pay3 (x0 : Vec Ideal S64x128 .f32) (x1 : Vec Ideal S128x10 .f32) (x2 : Vec Ideal S1x10 .f32) (p : Fin 64) (q : Fin 10) :
    k3_pay1 x0 x1 x2 (ix2 p q) = (∑ k : Fin 128, x0 (ix2 p k) * x1 (ix2 k q)) + x2 (ix2 (0 : Fin 1) q) := by
  unfold k3_pay1
  refine (addf_apply _ _ _).trans ?_
  refine congrArg₂ (· + ·) ?_ ?_
  · refine (MatmulPlain.matmul_zero_apply dot_S64x128_S128x10_S64x10_1_0_0_1_n_n none rfl rfl dotS_l0 dotS_l1 dotS_r0 dotS_r1 _ _ p q).trans ?_
    refine Finset.sum_congr rfl fun k _ => ?_
    rw [shapeCast_self]
    rfl
  · refine (broadcastTo_1b_ab_apply _ _ p q).trans ?_
    rw [shapeCast_self]

section Region3

variable (V : (c : Dev nD) → (b : Ref sig .tc) → Buf (Elt Ideal) ((c : Thread nD τ).loc b))

/-- Entry (g, q) of the region's result as a function of the arrays it reads. -/
def g3 (c : Dev nD) (g : Fin 64) (q : Fin 10) : EReal :=
  linBias (V c main_v47) (V c main_arg5) (V c main_v48) g q

/-- The same as one array. -/
def G3 (c : Dev nD) : S64x10.Idx → EReal := fun i => g3 V c (i 0) (i 1)

/-- The one grid point's block indices are all zero: every window's block is its whole array. -/
theorem idx3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The first operand's block is the pooled array. -/
theorem blk3_0 (c : Dev nD) (t : Fin cfg3.N) (p : Fin 64) (k : Fin 128) :
    (iblk3 V c 0 t : Vec Ideal S64x128 .f32) (ix2 p k) = (V c main_v47 (ix2 p k) : EReal) := by
  obtain ⟨e0, e1, -⟩ := idx3 t
  show V c main_v47 (((cfg3.win 0).blk t).view.emb (ix2 p k)) = V c main_v47 _
  refine congrArg (V c main_v47) (funext fun a => Fin.ext ?_)
  match a with
  | ⟨0, _⟩ => show win3_0.index t (0 : Fin 2) * 64 + 1 * p.val = p.val; omega
  | ⟨1, _⟩ => show win3_0.index t (1 : Fin 2) * 128 + 1 * k.val = k.val; omega

/-- The second operand's block is the weight matrix. -/
theorem blk3_1 (c : Dev nD) (t : Fin cfg3.N) (k : Fin 128) (q : Fin 10) :
    (iblk3 V c 1 t : Vec Ideal S128x10 .f32) (ix2 k q) = (V c main_arg5 (ix2 k q) : EReal) := by
  obtain ⟨-, -, e0, e1, -⟩ := idx3 t
  show V c main_arg5 (((cfg3.win 1).blk t).view.emb (ix2 k q)) = V c main_arg5 _
  refine congrArg (V c main_arg5) (funext fun a => Fin.ext ?_)
  match a with
  | ⟨0, _⟩ => show win3_1.index t (0 : Fin 2) * 128 + 1 * k.val = k.val; omega
  | ⟨1, _⟩ => show win3_1.index t (1 : Fin 2) * 10 + 1 * q.val = q.val; omega

/-- The third operand's block is the bias row. -/
theorem blk3_2 (c : Dev nD) (t : Fin cfg3.N) (u : Fin 1) (q : Fin 10) :
    (iblk3 V c 2 t : Vec Ideal S1x10 .f32) (ix2 u q) = (V c main_v48 (ix2 u q) : EReal) := by
  obtain ⟨-, -, -, -, e0, e1, -⟩ := idx3 t
  show V c main_v48 (((cfg3.win 2).blk t).view.emb (ix2 u q)) = V c main_v48 _
  refine congrArg (V c main_v48) (funext fun a => Fin.ext ?_)
  match a with
  | ⟨0, _⟩ => show win3_2.index t (0 : Fin 2) * 1 + 1 * u.val = u.val; omega
  | ⟨1, _⟩ => show win3_2.index t (1 : Fin 2) * 10 + 1 * q.val = q.val; omega

/-- What the one point writes back is its block of `G3`. -/
theorem flushed3_eq (c : Dev nD) (t : Fin cfg3.N) :
    (dat3 V c).flushed 3 t = ((cfg3.win 3).blk t).view.read (Elt Ideal) (G3 V c) := by
  show (cfg3.win 3).cut (grid3.coords t) ((dat3 V c).after 3 t) = _
  rw [after3_3]
  unfold out3_3
  rw [View.canon_unit_zero hz]
  simp only [View.ld_unit_zero (S := S64x128) hz, View.ld_unit_zero (S := S128x10) hz, View.ld_unit_zero (S := S1x10) hz]
  obtain ⟨-, -, -, -, -, -, e0, e1⟩ := idx3 t
  funext j
  have h0 : (j 0).val < 64 := (j 0).isLt
  have h1 : (j 1).val < 10 := (j 1).isLt
  have hx : (win3_3.xinj (grid3.coords t) j : S64x10.Idx) = ix2 (⟨(j 0).val, h0⟩ : Fin 64) (⟨(j 1).val, h1⟩ : Fin 10) :=
    funext fun a => by match a with | ⟨0, _⟩ => rfl | ⟨1, _⟩ => rfl
  have he : (((cfg3.win 3).blk t).view.emb j : S64x10.Idx) = ix2 (⟨(j 0).val, h0⟩ : Fin 64) (⟨(j 1).val, h1⟩ : Fin 10) := by
    funext a; apply Fin.ext
    match a with
    | ⟨0, _⟩ => show win3_3.index t (0 : Fin 2) * 64 + 1 * (j 0).val = (j 0).val; omega
    | ⟨1, _⟩ => show win3_3.index t (1 : Fin 2) * 10 + 1 * (j 1).val = (j 1).val; omega
  show k3_pay1 (F := Ideal) (iblk3 V c 0 t) (iblk3 V c 1 t) (iblk3 V c 2 t) (win3_3.xinj (grid3.coords t) j)
    = G3 V c (((cfg3.win 3).blk t).view.emb j)
  refine (congrArg (k3_pay1 (F := Ideal) (iblk3 V c 0 t) (iblk3 V c 1 t) (iblk3 V c 2 t)) hx).trans ?_
  refine Eq.trans ?_ (congrArg (G3 V c) he.symm)
  refine (pay3 (iblk3 V c 0 t) (iblk3 V c 1 t) (iblk3 V c 2 t) ⟨(j 0).val, h0⟩ ⟨(j 1).val, h1⟩).trans ?_
  show _ = linBias (V c main_v47) (V c main_arg5) (V c main_v48) ⟨(j 0).val, h0⟩ ⟨(j 1).val, h1⟩
  unfold linBias
  exact congrArg₂ (fun a b : EReal => a + b)
    (Finset.sum_congr rfl fun k _ => congrArg₂ (fun a b : EReal => a * b) (blk3_0 V c t _ k) (blk3_1 V c t k _))
    (blk3_2 V c t 0 _)

/-- An index of the result is in the point's block iff each coordinate is in the block's range on its axis. -/
theorem mem_blk3 (t : Fin cfg3.N) (i : S64x10.Idx) :
    i ∈ ((cfg3.win 3).blk t).view.set ↔ ∀ a : Fin 2, win3_3.index t a * S64x10.size a ≤ (i a).val ∧ (i a).val < win3_3.index t a * S64x10.size a + S64x10.size a := by
  show i ∈ ((View.whole main_v49).slice (win3_3.rect t)).set ↔ _
  rw [View.set_slice_whole, Rect.mem_set_unit]
  exact Iff.rfl

/-- The one point's block is the whole result. -/
theorem cover3 (i : S64x10.Idx) : ∃ t : Fin cfg3.N, (cfg3.win 3).flush t = true ∧ i ∈ ((cfg3.win 3).blk t).view.set := by
  refine ⟨t3_0, flush3_3 t3_0, ?_⟩
  rw [mem_blk3]
  obtain ⟨-, -, -, -, -, -, e0, e1⟩ := idx3 t3_0
  have h0 : (i 0).val < 64 := (i 0).isLt
  have h1 : (i 1).val < 10 := (i 1).isLt
  intro a
  match a with
  | ⟨0, _⟩ => show win3_3.index t3_0 (0 : Fin 2) * 64 ≤ (i 0).val ∧ (i 0).val < win3_3.index t3_0 (0 : Fin 2) * 64 + 64; omega
  | ⟨1, _⟩ => show win3_3.index t3_0 (1 : Fin 2) * 10 ≤ (i 1).val ∧ (i 1).val < win3_3.index t3_0 (1 : Fin 2) * 10 + 10; omega

/-- The result array after the region is `G3`. -/
theorem final3 (c : Dev nD) : (dat3 V c).arrAt 3 cfg3.N = G3 V c :=
  (dat3 V c).arrAt_eq_of_cover 3 (G3 V c) (fun t _ => flushed3_eq V c t) cover3

/-- The result array after the region: entry (g, q) is row g of the pooled array against column q of the classifier's
    weights, plus the bias at q. -/
theorem arr3 (c : Dev nD) (g : Fin 64) (q : Fin 10) :
    (dat3 V c).arrAt 3 cfg3.N (ix2 g q)
      = (∑ k : Fin 128, a_v47 V c (ix2 g k) * a_arg5 V c (ix2 k q)) + a_v48 V c (ix2 (0 : Fin 1) q) :=
  congrFun (final3 V c) (ix2 g q)

end Region3

/-! ## Region 0: node features times the first layer's weights, each row scaled by the node's factor -/

theorem dotL_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dotL_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dotL_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dotL_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at (p, q): row p of the first operand against column q of the second, times the
    one-column third operand at p. -/
theorem pay0 (x0 : Vec Ideal S5000x128 .f32) (x1 : Vec Ideal S128x128 .f32) (x2 : Vec Ideal S5000x1 .f32) (p : Fin 5000) (q : Fin 128) :
    k0_pay1 x0 x1 x2 (ix2 p q) = (∑ k : Fin 128, x0 (ix2 p k) * x1 (ix2 k q)) * x2 (ix2 p (0 : Fin 1)) := by
  unfold k0_pay1
  refine (mulf_apply _ _ _).trans ?_
  refine congrArg₂ (fun a b : EReal => a * b) ?_ ?_
  · refine (MatmulPlain.matmul_zero_apply dot_S5000x128_S128x128_S5000x128_1_0_0_1_n_n none rfl rfl dotL_l0 dotL_l1 dotL_r0 dotL_r1 _ _ p q).trans ?_
    exact Finset.sum_congr rfl fun k _ => rfl
  · refine (Cert.LibKeepdims.broadcastTo_a1_ab_apply _ _ p q).trans ?_
    rw [shapeCast_self]

section Region0

variable (V : (c : Dev nD) → (b : Ref sig .tc) → Buf (Elt Ideal) ((c : Thread nD τ).loc b))

/-- The region's result as one array of the arrays it reads. -/
def G0 (c : Dev nD) : S50000x128.Idx → EReal := fun i => linScale (V c main_arg0) (V c main_arg1) (V c main_v12) (i 0) (i 1)

/-- At grid point t the row-tiled windows are at block t, the weights at their one block. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The features' block at point t is rows 5000 t … 5000 t + 4999. -/
theorem blk0_0 (c : Dev nD) (t : Fin cfg0.N) (p : Fin 5000) (k : Fin 128) (n : Fin 50000) (hn : n.val = t.val * 5000 + p.val) :
    (iblk0 V c 0 t : Vec Ideal S5000x128 .f32) (ix2 p k) = V c main_arg0 (ix2 n k) := by
  obtain ⟨e0, e1, -⟩ := idx0 t
  show V c main_arg0 (((cfg0.win 0).blk t).view.emb (ix2 p k)) = V c main_arg0 _
  refine congrArg (V c main_arg0) (funext fun a => Fin.ext ?_)
  match a with
  | ⟨0, _⟩ => show win0_0.index t (0 : Fin 2) * 5000 + 1 * p.val = n.val; omega
  | ⟨1, _⟩ => show win0_0.index t (1 : Fin 2) * 128 + 1 * k.val = k.val; omega

/-- The weights' block is the weight matrix. -/
theorem blk0_1 (c : Dev nD) (t : Fin cfg0.N) (k : Fin 128) (q : Fin 128) :
    (iblk0 V c 1 t : Vec Ideal S128x128 .f32) (ix2 k q) = V c main_arg1 (ix2 k q) := by
  obtain ⟨-, -, e0, e1, -⟩ := idx0 t
  show V c main_arg1 (((cfg0.win 1).blk t).view.emb (ix2 k q)) = V c main_arg1 _
  refine congrArg (V c main_arg1) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The factor column's block at point t is rows 5000 t … 5000 t + 4999. -/
theorem blk0_2 (c : Dev nD) (t : Fin cfg0.N) (p : Fin 5000) (u : Fin 1) (n : Fin 50000) (hn : n.val = t.val * 5000 + p.val) :
    (iblk0 V c 2 t : Vec Ideal S5000x1 .f32) (ix2 p u) = V c main_v12 (ix2 n u) := by
  obtain ⟨-, -, -, -, e0, e1, -⟩ := idx0 t
  show V c main_v12 (((cfg0.win 2).blk t).view.emb (ix2 p u)) = V c main_v12 _
  refine congrArg (V c main_v12) (funext fun a => Fin.ext ?_)
  match a with
  | ⟨0, _⟩ => show win0_2.index t (0 : Fin 2) * 5000 + 1 * p.val = n.val; omega
  | ⟨1, _⟩ => show win0_2.index t (1 : Fin 2) * 1 + 1 * u.val = u.val; omega

/-- What point t writes back is its block of `G0`. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨-, -, -, -, -, -, e0, e1⟩ := idx0 t
  have hN : cfg0.N = 10 := N_0
  have ht : t.val < cfg0.N := t.isLt
  funext j
  have h0 : (j 0).val < 5000 := (j 0).isLt
  have h1 : (j 1).val < 128 := (j 1).isLt
  have hx : (win0_3.xinj (grid0.coords t) j : S5000x128.Idx) = ix2 (⟨(j 0).val, h0⟩ : Fin 5000) (⟨(j 1).val, h1⟩ : Fin 128) :=
    funext fun a => by match a with | ⟨0, _⟩ => rfl | ⟨1, _⟩ => rfl
  have hn : t.val * 5000 + (j 0).val < 50000 := by omega
  have he : (((cfg0.win 3).blk t).view.emb j : S50000x128.Idx) = ix2 (⟨t.val * 5000 + (j 0).val, hn⟩ : Fin 50000) (⟨(j 1).val, h1⟩ : Fin 128) := by
    funext a; apply Fin.ext
    match a with
    | ⟨0, _⟩ => show win0_3.index t (0 : Fin 2) * 5000 + 1 * (j 0).val = t.val * 5000 + (j 0).val; omega
    | ⟨1, _⟩ => show win0_3.index t (1 : Fin 2) * 128 + 1 * (j 1).val = (j 1).val; omega
  show k0_pay1 (F := Ideal) (iblk0 V c 0 t) (iblk0 V c 1 t) (iblk0 V c 2 t) (win0_3.xinj (grid0.coords t) j)
    = G0 V c (((cfg0.win 3).blk t).view.emb j)
  refine (congrArg (k0_pay1 (F := Ideal) (iblk0 V c 0 t) (iblk0 V c 1 t) (iblk0 V c 2 t)) hx).trans ?_
  refine Eq.trans ?_ (congrArg (G0 V c) he.symm)
  refine (pay0 (iblk0 V c 0 t) (iblk0 V c 1 t) (iblk0 V c 2 t) ⟨(j 0).val, h0⟩ ⟨(j 1).val, h1⟩).trans ?_
  show _ = linScale (V c main_arg0) (V c main_arg1) (V c main_v12) ⟨t.val * 5000 + (j 0).val, hn⟩ ⟨(j 1).val, h1⟩
  unfold linScale
  exact congrArg₂ (fun a b : EReal => a * b)
    (Finset.sum_congr rfl fun k _ => congrArg₂ (fun a b : EReal => a * b) (blk0_0 V c t _ k _ rfl) (blk0_1 V c t k _))
    (blk0_2 V c t _ 0 _ rfl)

/-- An index of the result is in point t's block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v13).slice (win0_3.rect t)).set ↔ _
  rw [View.set_slice_whole, Rect.mem_set_unit]
  exact Iff.rfl

/-- Row r of the result is in the block of point r / 5000. -/
theorem cover0 (i : S50000x128.Idx) : ∃ t : Fin cfg0.N, (cfg0.win 3).flush t = true ∧ i ∈ ((cfg0.win 3).blk t).view.set := by
  have hN : cfg0.N = 10 := N_0
  have h0 : (i 0).val < 50000 := (i 0).isLt
  have h1 : (i 1).val < 128 := (i 1).isLt
  obtain ⟨t, ht⟩ : ∃ t : Fin cfg0.N, t.val = (i 0).val / 5000 := ⟨⟨(i 0).val / 5000, by omega⟩, rfl⟩
  refine ⟨t, flush0_3 t, ?_⟩
  rw [mem_blk0]
  obtain ⟨-, -, -, -, -, -, e0, e1⟩ := idx0 t
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The result array after the region is `G0`. -/
theorem final0 (c : Dev nD) : (dat0 V c).arrAt 3 cfg0.N = G0 V c :=
  (dat0 V c).arrAt_eq_of_cover 3 (G0 V c) (fun t _ => flushed0_eq V c t) cover0

/-- The result array after the region: entry (n, j) is row n of the features against column j of the weights,
    times node n's factor. -/
theorem arr0 (c : Dev nD) (n : Fin 50000) (j : Fin 128) :
    (dat0 V c).arrAt 3 cfg0.N (ix2 n j)
      = (∑ k : Fin 128, a_arg0 V c (ix2 n k) * a_arg1 V c (ix2 k j)) * a_v12 V c (ix2 n (0 : Fin 1)) :=
  congrFun (final0 V c) (ix2 n j)

end Region0

/-! ## Region 1: the first layer's rows scaled, shifted and clamped, times the second layer's weights, scaled again -/

/-- The body's stored value at (p, q): row p of the first operand times the second's entry p, plus the one-row third
    operand, clamped below at zero, against column q of the fourth, times the fifth's entry p. -/
theorem pay1 (x0 : Vec Ideal S5000x128 .f32) (x1 : Vec Ideal S5000x1 .f32) (x2 : Vec Ideal S1x128 .f32) (x3 : Vec Ideal S128x128 .f32)
    (x4 : Vec Ideal S5000x1 .f32) (p : Fin 5000) (q : Fin 128) :
    k1_pay1 x0 x1 x2 x3 x4 (ix2 p q)
      = (∑ k : Fin 128, max (x0 (ix2 p k) * x1 (ix2 p (0 : Fin 1)) + x2 (ix2 (0 : Fin 1) k)) (Ideal.ofBits .f32 0x00000000#32) * x3 (ix2 k q))
        * x4 (ix2 p (0 : Fin 1)) := by
  unfold k1_pay1
  refine (mulf_apply _ _ _).trans ?_
  refine congrArg₂ (fun a b : EReal => a * b) ?_ ?_
  · refine (MatmulPlain.matmul_zero_apply dot_S5000x128_S128x128_S5000x128_1_0_0_1_n_n none rfl rfl dotL_l0 dotL_l1 dotL_r0 dotL_r1 _ _ p q).trans ?_
    refine Finset.sum_congr rfl fun k _ => ?_
    refine congrArg₂ (fun a b : EReal => a * b) ?_ rfl
    refine (truncf_apply (ψ := .bf16) _ bitsLt_bf16_f32 _).trans ?_
    refine (maximumf_apply _ _ _).trans ?_
    refine congrArg₂ (fun a b : EReal => max a b) ?_ rfl
    refine (addf_apply _ _ _).trans ?_
    refine congrArg₂ (fun a b : EReal => a + b) ?_ ?_
    · refine (mulf_apply _ _ _).trans ?_
      refine congrArg₂ (fun a b : EReal => a * b) ?_ ?_
      · rw [shapeCast_self]
      · refine (Cert.LibKeepdims.broadcastTo_a1_ab_apply _ _ p k).trans ?_
        rw [shapeCast_self]
    · refine (broadcastTo_1b_ab_apply _ _ p k).trans ?_
      rw [shapeCast_self]
  · refine (Cert.LibKeepdims.broadcastTo_a1_ab_apply _ _ p q).trans ?_
    rw [shapeCast_self]

section Region1

variable (V : (c : Dev nD) → (b : Ref sig .tc) → Buf (Elt Ideal) ((c : Thread nD τ).loc b))

/-- The region's result as one array of the arrays it reads. -/
def G1 (c : Dev nD) : S50000x128.Idx → EReal :=
  fun i => reluLinScale (V c main_v23) (V c main_v12) (V c main_v24) (V c main_arg3) (i 0) (i 1)

/-- At grid point t the row-tiled windows are at block t, the bias row and the weights at their one block. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregated rows' block at point t is rows 5000 t … 5000 t + 4999. -/
theorem blk1_0 (c : Dev nD) (t : Fin cfg1.N) (p : Fin 5000) (k : Fin 128) (n : Fin 50000) (hn : n.val = t.val * 5000 + p.val) :
    (iblk1 V c 0 t : Vec Ideal S5000x128 .f32) (ix2 p k) = V c main_v23 (ix2 n k) := by
  obtain ⟨e0, e1, -⟩ := idx1 t
  show V c main_v23 (((cfg1.win 0).blk t).view.emb (ix2 p k)) = V c main_v23 _
  refine congrArg (V c main_v23) (funext fun a => Fin.ext ?_)
  match a with
  | ⟨0, _⟩ => show win1_0.index t (0 : Fin 2) * 5000 + 1 * p.val = n.val; omega
  | ⟨1, _⟩ => show win1_0.index t (1 : Fin 2) * 128 + 1 * k.val = k.val; omega

/-- The factor column's block at point t is rows 5000 t … 5000 t + 4999. -/
theorem blk1_1 (c : Dev nD) (t : Fin cfg1.N) (p : Fin 5000) (u : Fin 1) (n : Fin 50000) (hn : n.val = t.val * 5000 + p.val) :
    (iblk1 V c 1 t : Vec Ideal S5000x1 .f32) (ix2 p u) = V c main_v12 (ix2 n u) := by
  obtain ⟨-, -, e0, e1, -⟩ := idx1 t
  show V c main_v12 (((cfg1.win 1).blk t).view.emb (ix2 p u)) = V c main_v12 _
  refine congrArg (V c main_v12) (funext fun a => Fin.ext ?_)
  match a with
  | ⟨0, _⟩ => show win1_1.index t (0 : Fin 2) * 5000 + 1 * p.val = n.val; omega
  | ⟨1, _⟩ => show win1_1.index t (1 : Fin 2) * 1 + 1 * u.val = u.val; omega

/-- The bias row's block is the bias row. -/
theorem blk1_2 (c : Dev nD) (t : Fin cfg1.N) (u : Fin 1) (k : Fin 128) :
    (iblk1 V c 2 t : Vec Ideal S1x128 .f32) (ix2 u k) = V c main_v24 (ix2 u k) := by
  obtain ⟨-, -, -, -, e0, e1, -⟩ := idx1 t
  show V c main_v24 (((cfg1.win 2).blk t).view.emb (ix2 u k)) = V c main_v24 _
  refine congrArg (V c main_v24) (funext fun a => Fin.ext ?_)
  match a with
  | ⟨0, _⟩ => show win1_2.index t (0 : Fin 2) * 1 + 1 * u.val = u.val; omega
  | ⟨1, _⟩ => show win1_2.index t (1 : Fin 2) * 128 + 1 * k.val = k.val; omega

/-- The weights' block is the weight matrix. -/
theorem blk1_3 (c : Dev nD) (t : Fin cfg1.N) (k : Fin 128) (q : Fin 128) :
    (iblk1 V c 3 t : Vec Ideal S128x128 .f32) (ix2 k q) = V c main_arg3 (ix2 k q) := by
  obtain ⟨-, -, -, -, -, -, e0, e1, -⟩ := idx1 t
  show V c main_arg3 (((cfg1.win 3).blk t).view.emb (ix2 k q)) = V c main_arg3 _
  refine congrArg (V c main_arg3) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- What point t writes back is its block of `G1`. -/
theorem flushed1_eq (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz,
    View.ld_unit_zero (S := S128x128) hz]
  obtain ⟨-, -, -, -, -, -, -, -, e0, e1⟩ := idx1 t
  have hN : cfg1.N = 10 := N_1
  have ht : t.val < cfg1.N := t.isLt
  funext j
  have h0 : (j 0).val < 5000 := (j 0).isLt
  have h1 : (j 1).val < 128 := (j 1).isLt
  have hx : (win1_4.xinj (grid1.coords t) j : S5000x128.Idx) = ix2 (⟨(j 0).val, h0⟩ : Fin 5000) (⟨(j 1).val, h1⟩ : Fin 128) :=
    funext fun a => by match a with | ⟨0, _⟩ => rfl | ⟨1, _⟩ => rfl
  have hn : t.val * 5000 + (j 0).val < 50000 := by omega
  have he : (((cfg1.win 4).blk t).view.emb j : S50000x128.Idx) = ix2 (⟨t.val * 5000 + (j 0).val, hn⟩ : Fin 50000) (⟨(j 1).val, h1⟩ : Fin 128) := by
    funext a; apply Fin.ext
    match a with
    | ⟨0, _⟩ => show win1_4.index t (0 : Fin 2) * 5000 + 1 * (j 0).val = t.val * 5000 + (j 0).val; omega
    | ⟨1, _⟩ => show win1_4.index t (1 : Fin 2) * 128 + 1 * (j 1).val = (j 1).val; omega
  show k1_pay1 (F := Ideal) (iblk1 V c 0 t) (iblk1 V c 1 t) (iblk1 V c 2 t) (iblk1 V c 3 t) (iblk1 V c 1 t) (win1_4.xinj (grid1.coords t) j)
    = G1 V c (((cfg1.win 4).blk t).view.emb j)
  refine (congrArg (k1_pay1 (F := Ideal) (iblk1 V c 0 t) (iblk1 V c 1 t) (iblk1 V c 2 t) (iblk1 V c 3 t) (iblk1 V c 1 t)) hx).trans ?_
  refine Eq.trans ?_ (congrArg (G1 V c) he.symm)
  refine (pay1 (iblk1 V c 0 t) (iblk1 V c 1 t) (iblk1 V c 2 t) (iblk1 V c 3 t) (iblk1 V c 1 t) ⟨(j 0).val, h0⟩ ⟨(j 1).val, h1⟩).trans ?_
  show _ = reluLinScale (V c main_v23) (V c main_v12) (V c main_v24) (V c main_arg3) ⟨t.val * 5000 + (j 0).val, hn⟩ ⟨(j 1).val, h1⟩
  unfold reluLinScale
  exact congrArg₂ (fun a b : EReal => a * b)
    (Finset.sum_congr rfl fun k _ => congrArg₂ (fun a b : EReal => a * b)
      (congrArg₂ (fun a b : EReal => max a b)
        (congrArg₂ (fun a b : EReal => a + b)
          (congrArg₂ (fun a b : EReal => a * b) (blk1_0 V c t _ k _ rfl) (blk1_1 V c t _ 0 _ rfl))
          (blk1_2 V c t 0 k))
        rfl)
      (blk1_3 V c t k _))
    (blk1_1 V c t _ 0 _ rfl)

/-- An index of the result is in point t's block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v25).slice (win1_4.rect t)).set ↔ _
  rw [View.set_slice_whole, Rect.mem_set_unit]
  exact Iff.rfl

/-- Row r of the result is in the block of point r / 5000. -/
theorem cover1 (i : S50000x128.Idx) : ∃ t : Fin cfg1.N, (cfg1.win 4).flush t = true ∧ i ∈ ((cfg1.win 4).blk t).view.set := by
  have hN : cfg1.N = 10 := N_1
  have h0 : (i 0).val < 50000 := (i 0).isLt
  have h1 : (i 1).val < 128 := (i 1).isLt
  obtain ⟨t, ht⟩ : ∃ t : Fin cfg1.N, t.val = (i 0).val / 5000 := ⟨⟨(i 0).val / 5000, by omega⟩, rfl⟩
  refine ⟨t, flush1_4 t, ?_⟩
  rw [mem_blk1]
  obtain ⟨-, -, -, -, -, -, -, -, e0, e1⟩ := idx1 t
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The result array after the region is `G1`. -/
theorem final1 (c : Dev nD) : (dat1 V c).arrAt 4 cfg1.N = G1 V c :=
  (dat1 V c).arrAt_eq_of_cover 4 (G1 V c) (fun t _ => flushed1_eq V c t) cover1

/-- The result array after the region: entry (n, j) is row n of the aggregated rows, scaled by node n's factor, shifted
    by the bias row and clamped below at zero, against column j of the weights, times node n's factor. -/
theorem arr1 (c : Dev nD) (n : Fin 50000) (j : Fin 128) :
    (dat1 V c).arrAt 4 cfg1.N (ix2 n j)
      = (∑ k : Fin 128, max (a_v23 V c (ix2 n k) * a_v12 V c (ix2 n (0 : Fin 1)) + a_v24 V c (ix2 (0 : Fin 1) k)) (Ideal.ofBits .f32 0x00000000#32)
          * a_arg3 V c (ix2 k j)) * a_v12 V c (ix2 n (0 : Fin 1)) :=
  congrFun (final1 V c) (ix2 n j)

end Region1

end Cert.KernelIdeal.RegionValue

end
-- ==== Proof.LibScatterRows.lean ====
/-
  A host scatter whose body returns the update (`x.at[idx].set(v)`), read at an index.

  The scatter is a left fold over the update positions in row-major order: a position whose index lands inside the
  operand overwrites that element, a position whose index lands outside is dropped. Read at one operand index `i`
  there are two cases. Either no update position lands at `i`, and the element is the operand's; or some update
  position lands at `i`, and the element is THAT position's update. (Which one, when several land at `i`, is the
  last in row-major order; a user whose colliding updates are equal never needs to know.)

  The second half specialises this to a ROW scatter: operand `[N, C]`, one scalar row index per update row
  (`[K, 1]`), updates `[K, C]`. Update `(k, c)` lands at `(idx[k], c)` when `0 ≤ idx[k] < N` (the index read
  signed, not clamped) and is dropped otherwise, so row `r` of the result is hit exactly by the `k` with `idx[k] = r`.
-/
import Idealize.ShloMosaic.PureOps.ShapeOps
import Idealize.ShloMosaic.PureOps.Dims
import Idealize.ShloMosaic.Lib.ValueIdx

namespace Cert.LibScatterRows

open Idealize.ShloMosaic Idealize.ShloMosaic.ValueIdx

variable {α : Type}

/-- A fold of "overwrite-or-drop" steps read at `i`: the start value if no listed position lands at `i`, else the
    value of some listed position that lands at `i`. -/
theorem foldl_set_cases {β ι : Type} [DecidableEq β] (hit : ι → Option β) (val : ι → α) (stepf : (β → α) → ι → (β → α))
    (hnone : ∀ r n, hit n = none → stepf r n = r)
    (hsome : ∀ r n i, hit n = some i → stepf r n = fun i' => if i' = i then val n else r i')
    (L : List ι) : ∀ (r : β → α) (i : β),
      (L.foldl stepf r i = r i ∧ ∀ n ∈ L, hit n ≠ some i) ∨ ∃ n ∈ L, hit n = some i ∧ L.foldl stepf r i = val n := by
  induction L with
  | nil => intro r i; exact Or.inl ⟨rfl, fun _ h => absurd h List.not_mem_nil⟩
  | cons a L ih =>
    intro r i
    rw [List.foldl_cons]
    rcases ih (stepf r a) i with ⟨hv, hno⟩ | ⟨n, hn, hh, hv⟩
    · cases ha : hit a with
      | none =>
        rw [hnone r a ha] at hv ⊢
        refine Or.inl ⟨hv, fun n hn => ?_⟩
        rcases List.mem_cons.mp hn with rfl | hn
        · rw [ha]; exact fun h => nomatch h
        · exact hno n hn
      | some i0 =>
        by_cases hi : i = i0
        · refine Or.inr ⟨a, List.mem_cons_self, by rw [ha, hi], ?_⟩
          rw [hv, hsome r a i0 ha]
          exact if_pos hi
        · refine Or.inl ⟨?_, fun n hn => ?_⟩
          · rw [hv, hsome r a i0 ha]
            exact if_neg hi
          · rcases List.mem_cons.mp hn with rfl | hn
            · rw [ha]; exact fun h => hi (Option.some.inj h).symm
            · exact hno n hn
    · exact Or.inr ⟨n, List.mem_cons_of_mem _ hn, hh, hv⟩

variable {w : Nat} {s si u : Shape}

/-- One step of the scatter's fold: update position `n` overwrites the element its index lands at, or is dropped. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem step_none (d : ScatterDims s si u) (idx : IVec si w) (upd : u.Idx → α) (r : s.Idx → α) (n : Fin u.numel)
    (h : d.resultIdx? (u.rowMajor.symm n) idx = none) : step d idx upd r n = r := by
  unfold step; rw [h]

theorem step_some (d : ScatterDims s si u) (idx : IVec si w) (upd : u.Idx → α) (r : s.Idx → α) (n : Fin u.numel) (i : s.Idx)
    (h : d.resultIdx? (u.rowMajor.symm n) idx = some i) :
    step d idx upd r n = fun i' => if i' = i then upd (u.rowMajor.symm n) else r i' := by
  unfold step; rw [h]

/-- A `set` scatter is the fold of that step over the update positions in row-major order. -/
theorem scatter_eq_foldl (d : ScatterDims s si u) (x : s.Idx → α) (idx : IVec si w) (upd : u.Idx → α) :
    Host.scatter d (fun _ b => b) x idx upd = (List.finRange u.numel).foldl (step d idx upd) x := by
  unfold Host.scatter
  refine congrArg (fun f => List.foldl f x (List.finRange u.numel)) (funext fun r => funext fun n => ?_)
  unfold step
  cases d.resultIdx? (u.rowMajor.symm n) idx <;> rfl

/-- A `set` scatter read at `i`: the operand's element if no update index lands at `i`, else the update at some
    update index that lands at `i`. -/
theorem scatter_set_cases (d : ScatterDims s si u) (x : s.Idx → α) (idx : IVec si w) (upd : u.Idx → α) (i : s.Idx) :
    (Host.scatter d (fun _ b => b) x idx upd i = x i ∧ ∀ j : u.Idx, d.resultIdx? j idx ≠ some i)
      ∨ ∃ j : u.Idx, d.resultIdx? j idx = some i ∧ Host.scatter d (fun _ b => b) x idx upd i = upd j := by
  rw [scatter_eq_foldl]
  rcases foldl_set_cases (hit := fun n : Fin u.numel => d.resultIdx? (u.rowMajor.symm n) idx)
      (val := fun n => upd (u.rowMajor.symm n)) (step d idx upd)
      (step_none d idx upd) (step_some d idx upd) (List.finRange u.numel) x i with ⟨hv, hno⟩ | ⟨n, _, hh, hv⟩
  · refine Or.inl ⟨hv, fun j => ?_⟩
    have := hno (u.rowMajor j) (List.mem_finRange _)
    simpa only [Equiv.symm_apply_apply] using this
  · exact Or.inr ⟨u.rowMajor.symm n, hh, hv⟩

/-! ## A row scatter: operand `[N, C]`, one row index per update row -/

variable {N C K : ℕ}

/-- Update `(k, c)` lands at `(r, c')` exactly when row `k`'s index, read signed, is `r`, and `c = c'`. The four
    hypotheses say what the dimension numbers of such a scatter compute: the window starts at the row the index names
    and at column 0, and the window coordinate is the update's column. -/
theorem resultIdx_rows (d : ScatterDims (⟨2, ![N, C]⟩ : Shape) ⟨2, ![K, 1]⟩ ⟨2, ![K, C]⟩) (idx : IVec (⟨2, ![K, 1]⟩ : Shape) w)
    (hs0 : ∀ (k : Fin K) (c : Fin C), d.start (ix2 k c) idx 0 = (idx (ix2 k (0 : Fin 1))).toInt)
    (hs1 : ∀ (k : Fin K) (c : Fin C), d.start (ix2 k c) idx 1 = 0)
    (hw0 : ∀ (k : Fin K) (c : Fin C), d.window (ix2 k c) 0 = 0)
    (hw1 : ∀ (k : Fin K) (c : Fin C), d.window (ix2 k c) 1 = c.val)
    (k : Fin K) (c : Fin C) (r : Fin N) (c' : Fin C) :
    d.resultIdx? (ix2 k c) idx = some (ix2 r c') ↔ (idx (ix2 k (0 : Fin 1))).toInt = (r.val : Int) ∧ c = c' := by
  have e0 : d.start (ix2 k c) idx 0 + (d.window (ix2 k c) 0 : Int) = (idx (ix2 k (0 : Fin 1))).toInt := by
    rw [hs0, hw0]; simp
  have e1 : d.start (ix2 k c) idx 1 + (d.window (ix2 k c) 1 : Int) = (c.val : Int) := by
    rw [hs1, hw1]; simp
  unfold ScatterDims.resultIdx?
  constructor
  · intro h
    split at h
    · rename_i hb
      have h' := Option.some.inj h
      have h0 : (d.start (ix2 k c) idx 0 + (d.window (ix2 k c) 0 : Int)).toNat = r.val := congrArg (fun f => (f 0).val) h'
      have h1 : (d.start (ix2 k c) idx 1 + (d.window (ix2 k c) 1 : Int)).toNat = c'.val := congrArg (fun f => (f 1).val) h'
      have hb0 := (hb 0).1
      rw [e0] at h0 hb0
      rw [e1] at h1
      exact ⟨by omega, Fin.ext (by omega)⟩
    · exact nomatch h
  · rintro ⟨hr, rfl⟩
    have hb : ∀ a, 0 ≤ d.start (ix2 k c) idx a + (d.window (ix2 k c) a : Int)
        ∧ d.start (ix2 k c) idx a + (d.window (ix2 k c) a : Int) < ((⟨2, ![N, C]⟩ : Shape).size a : Int) := fun a => by
      match a with
      | ⟨0, _⟩ =>
        show 0 ≤ d.start (ix2 k c) idx 0 + (d.window (ix2 k c) 0 : Int)
          ∧ d.start (ix2 k c) idx 0 + (d.window (ix2 k c) 0 : Int) < (N : Int)
        rw [e0, hr]
        exact ⟨Int.natCast_nonneg _, by exact_mod_cast r.isLt⟩
      | ⟨1, _⟩ =>
        show 0 ≤ d.start (ix2 k c) idx 1 + (d.window (ix2 k c) 1 : Int)
          ∧ d.start (ix2 k c) idx 1 + (d.window (ix2 k c) 1 : Int) < (C : Int)
        rw [e1]
        exact ⟨Int.natCast_nonneg _, by exact_mod_cast c.isLt⟩
    rw [dif_pos hb]
    refine congrArg some (funext fun a => Fin.ext ?_)
    match a with
    | ⟨0, _⟩ =>
      show (d.start (ix2 k c) idx 0 + (d.window (ix2 k c) 0 : Int)).toNat = r.val
      rw [e0, hr, Int.toNat_natCast]
    | ⟨1, _⟩ =>
      show (d.start (ix2 k c) idx 1 + (d.window (ix2 k c) 1 : Int)).toNat = c.val
      rw [e1, Int.toNat_natCast]

/-- A row `set` scatter read at `(r, c)`: the operand's element if no row index is `r`; else the update's element
    `(k, c)` for some update row `k` whose index is `r`. -/
theorem scatter_rows_cases (d : ScatterDims (⟨2, ![N, C]⟩ : Shape) ⟨2, ![K, 1]⟩ ⟨2, ![K, C]⟩) (idx : IVec (⟨2, ![K, 1]⟩ : Shape) w)
    (hs0 : ∀ (k : Fin K) (c : Fin C), d.start (ix2 k c) idx 0 = (idx (ix2 k (0 : Fin 1))).toInt)
    (hs1 : ∀ (k : Fin K) (c : Fin C), d.start (ix2 k c) idx 1 = 0)
    (hw0 : ∀ (k : Fin K) (c : Fin C), d.window (ix2 k c) 0 = 0)
    (hw1 : ∀ (k : Fin K) (c : Fin C), d.window (ix2 k c) 1 = c.val)
    (x : (⟨2, ![N, C]⟩ : Shape).Idx → α) (upd : (⟨2, ![K, C]⟩ : Shape).Idx → α) (r : Fin N) (c : Fin C) :
    (Host.scatter d (fun _ b => b) x idx upd (ix2 r c) = x (ix2 r c)
        ∧ ∀ k : Fin K, (idx (ix2 k (0 : Fin 1))).toInt ≠ (r.val : Int))
      ∨ ∃ k : Fin K, (idx (ix2 k (0 : Fin 1))).toInt = (r.val : Int)
        ∧ Host.scatter d (fun _ b => b) x idx upd (ix2 r c) = upd (ix2 k c) := by
  rcases scatter_set_cases d x idx upd (ix2 r c) with ⟨hv, hno⟩ | ⟨j, hh, hv⟩
  · exact Or.inl ⟨hv, fun k hk => hno (ix2 k c) ((resultIdx_rows d idx hs0 hs1 hw0 hw1 k c r c).mpr ⟨hk, rfl⟩)⟩
  · rw [eq_ix2 j] at hh hv
    obtain ⟨hk, hc⟩ := (resultIdx_rows d idx hs0 hs1 hw0 hw1 (j 0) (j 1) r c).mp hh
    exact Or.inr ⟨j 0, hk, hv.trans (congrArg (fun q => upd (ix2 (j 0) q)) hc)⟩

end Cert.LibScatterRows
-- ==== Proof.LibScatterAddRows.lean ====
/-
  An accumulating host scatter (`x.at[idx].add(v)`, a segment sum) read at an index.

  At the extended reals the accumulating scatter is, at each operand index, the operand's element plus the sum of the
  update elements whose index lands there. This file evaluates that sum for the two layouts a segment sum lowers to.

  A ROW scatter: operand `[N, C]`, one scalar row index per update row (`[K, 1]`), updates `[K, C]`. Update `(k, c')`
  lands at `(idx[k], c')` when `0 ≤ idx[k] < N` (the index read signed, not clamped) and is dropped otherwise, so
  element `(r, c)` of the result is the operand's plus the sum of `upd (k, c)` over the rows `k` with `idx[k] = r`.

  A VECTOR scatter: operand `[N]`, indices `[K, 1]`, updates `[K]`. Update `k` lands at `idx[k]` when that is
  inside the operand, so element `r` of the result is the operand's plus the sum of `upd k` over the `k` with
  `idx[k] = r`.
-/
import Idealize.ShloMosaic.PureOps.Ideal
import Idealize.ShloMosaic.Lib.ValueIdx
import proofs.«162227_j16466904612871_2_alg».proof.Proof.LibScatterRows

namespace Cert.LibScatterAddRows

open Idealize.ShloMosaic Idealize.ShloMosaic.ValueIdx

variable {w : ℕ}

/-! ## A row scatter: operand `[N, C]`, one row index per update row -/

/-- An accumulating row scatter read at `(r, c)`: the operand's element plus the sum, over the update rows `k`
    whose index (read signed) is `r`, of the update's element `(k, c)`. The four hypotheses say what the dimension
    numbers of such a scatter compute: the window starts at the row the index names and at column 0, and the window
    coordinate is the update's column. -/
theorem scatterAdd_rows {N C K : ℕ} (d : ScatterDims (⟨2, ![N, C]⟩ : Shape) ⟨2, ![K, 1]⟩ ⟨2, ![K, C]⟩)
    (idx : IVec (⟨2, ![K, 1]⟩ : Shape) w)
    (hs0 : ∀ (k : Fin K) (c : Fin C), d.start (ix2 k c) idx 0 = (idx (ix2 k (0 : Fin 1))).toInt)
    (hs1 : ∀ (k : Fin K) (c : Fin C), d.start (ix2 k c) idx 1 = 0)
    (hw0 : ∀ (k : Fin K) (c : Fin C), d.window (ix2 k c) 0 = 0)
    (hw1 : ∀ (k : Fin K) (c : Fin C), d.window (ix2 k c) 1 = c.val)
    (x : (⟨2, ![N, C]⟩ : Shape).Idx → EReal) (upd : (⟨2, ![K, C]⟩ : Shape).Idx → EReal) (r : Fin N) (c : Fin C) :
    Ideal.hostScatterAdd d x idx upd (ix2 r c)
      = x (ix2 r c) + ∑ k ∈ Finset.univ.filter (fun k : Fin K => (idx (ix2 k (0 : Fin 1))).toInt = (r.val : Int)),
          upd (ix2 k c) := by
  unfold Ideal.hostScatterAdd
  congr 1
  rw [Finset.sum_filter, Finset.sum_filter]
  refine (sum_idx2 _).trans (Finset.sum_congr rfl fun k _ => ?_)
  -- the inner sum over the update's columns keeps the one column `c`, when row `k`'s index is `r`
  have hcol : ∀ c' : Fin C,
      (if d.resultIdx? (ix2 k c') idx = some (ix2 r c) then upd (ix2 k c') else 0)
        = if (idx (ix2 k (0 : Fin 1))).toInt = (r.val : Int) ∧ c' = c then upd (ix2 k c') else 0 := fun c' =>
    if_congr (Cert.LibScatterRows.resultIdx_rows d idx hs0 hs1 hw0 hw1 k c' r c) rfl rfl
  rw [Finset.sum_congr rfl fun c' _ => hcol c']
  by_cases h : (idx (ix2 k (0 : Fin 1))).toInt = (r.val : Int)
  · simp [h]
  · simp [h]

/-! ## A vector scatter: operand `[N]`, one index per update element -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Update `k` lands at `r` exactly when its index, read signed, is `r`. The two hypotheses say what the dimension
    numbers of such a scatter compute: the window starts at the element the index names, and there is no window
    coordinate (the one operand axis is an inserted one). -/
theorem resultIdx_vec {N K : ℕ} (d : ScatterDims (⟨1, ![N]⟩ : Shape) ⟨2, ![K, 1]⟩ ⟨1, ![K]⟩)
    (idx : IVec (⟨2, ![K, 1]⟩ : Shape) w)
    (hs : ∀ k : Fin K, d.start (ix1 k) idx 0 = (idx (ix2 k (0 : Fin 1))).toInt)
    (hw : ∀ k : Fin K, d.window (ix1 k) 0 = 0) (k : Fin K) (r : Fin N) :
    d.resultIdx? (ix1 k) idx = some (ix1 r) ↔ (idx (ix2 k (0 : Fin 1))).toInt = (r.val : Int) := by
  have e0 : d.start (ix1 k) idx 0 + (d.window (ix1 k) 0 : Int) = (idx (ix2 k (0 : Fin 1))).toInt := by
    rw [hs, hw]; simp
  unfold ScatterDims.resultIdx?
  constructor
  · intro h
    split at h
    · rename_i hb
      have h' := Option.some.inj h
      have h0 : (d.start (ix1 k) idx 0 + (d.window (ix1 k) 0 : Int)).toNat = r.val := congrArg (fun f => (f 0).val) h'
      have hb0 := (hb 0).1
      rw [e0] at h0 hb0
      omega
    · exact nomatch h
  · intro hr
    have hb : ∀ a, 0 ≤ d.start (ix1 k) idx a + (d.window (ix1 k) a : Int)
        ∧ d.start (ix1 k) idx a + (d.window (ix1 k) a : Int) < ((⟨1, ![N]⟩ : Shape).size a : Int) := fun a => by
      match a with
      | ⟨0, _⟩ =>
        show 0 ≤ d.start (ix1 k) idx 0 + (d.window (ix1 k) 0 : Int)
          ∧ d.start (ix1 k) idx 0 + (d.window (ix1 k) 0 : Int) < (N : Int)
        rw [e0, hr]
        exact ⟨Int.natCast_nonneg _, by exact_mod_cast r.isLt⟩
    rw [dif_pos hb]
    refine congrArg some (funext fun a => Fin.ext ?_)
    match a with
    | ⟨0, _⟩ =>
      show (d.start (ix1 k) idx 0 + (d.window (ix1 k) 0 : Int)).toNat = r.val
      rw [e0, hr, Int.toNat_natCast]

/-- An accumulating vector scatter read at `r`: the operand's element plus the sum, over the update positions `k`
    whose index (read signed) is `r`, of the update's element `k`. -/
theorem scatterAdd_vec {N K : ℕ} (d : ScatterDims (⟨1, ![N]⟩ : Shape) ⟨2, ![K, 1]⟩ ⟨1, ![K]⟩)
    (idx : IVec (⟨2, ![K, 1]⟩ : Shape) w)
    (hs : ∀ k : Fin K, d.start (ix1 k) idx 0 = (idx (ix2 k (0 : Fin 1))).toInt)
    (hw : ∀ k : Fin K, d.window (ix1 k) 0 = 0)
    (x : (⟨1, ![N]⟩ : Shape).Idx → EReal) (upd : (⟨1, ![K]⟩ : Shape).Idx → EReal) (r : Fin N) :
    Ideal.hostScatterAdd d x idx upd (ix1 r)
      = x (ix1 r) + ∑ k ∈ Finset.univ.filter (fun k : Fin K => (idx (ix2 k (0 : Fin 1))).toInt = (r.val : Int)),
          upd (ix1 k) := by
  unfold Ideal.hostScatterAdd
  congr 1
  rw [Finset.sum_filter, Finset.sum_filter]
  exact (sum_idx1 _).trans (Finset.sum_congr rfl fun k _ => if_congr (resultIdx_vec d idx hs hw k r) rfl rfl)

end Cert.LibScatterAddRows
-- ==== Proof.LibGatherRows.lean ====
/-
  A host gather of rows read at an index.

  `x[idx]` of a table `x : [N, C]` at one scalar row index per result row (`idx : [K, 1]`) gives `[K, C]`: result
  element `(k, c)` is the table's element `(r, c)`, where `r` is the row index `idx[k]` read as a signed integer and
  clamped into `[0, N − 1]`. The same for a vector table `x : [N]`: result element `k` is `x r`.
  What the dimension numbers compute (the operand index of a result index, axis by axis) is taken as hypotheses, so
  the lemmas serve every record of these forms whatever the extents.
-/
import Idealize.ShloMosaic.PureOps.ShapeOps
import Idealize.ShloMosaic.PureOps.Dims
import Idealize.ShloMosaic.Lib.ValueIdx

namespace Cert.LibGatherRows

open Idealize.ShloMosaic Idealize.ShloMosaic.ValueIdx

variable {α : Type} {w : ℕ}

/-- The row a gather reads for the index word `v` in a table of `N` rows: read signed, clamped. -/
def clampRow (N : ℕ) (hN : 0 < N) (v : BitVec w) : Fin N := ⟨min v.toInt.toNat (N - 1), by omega⟩

/-- A row gather read at `(k, c)`: the table at the clamped row, same column. -/
theorem gather_rows {N C K : ℕ} (hN : 0 < N) (d : GatherDims (⟨2, ![N, C]⟩ : Shape) ⟨2, ![K, 1]⟩ ⟨2, ![K, C]⟩)
    (idx : IVec (⟨2, ![K, 1]⟩ : Shape) w)
    (h0 : ∀ (k : Fin K) (c : Fin C), (d.operandIdx (ix2 k c) idx 0).val = min (idx (ix2 k (0 : Fin 1))).toInt.toNat (N - 1))
    (h1 : ∀ (k : Fin K) (c : Fin C), (d.operandIdx (ix2 k c) idx 1).val = c.val)
    (x : (⟨2, ![N, C]⟩ : Shape).Idx → α) (k : Fin K) (c : Fin C) :
    Host.gather d x idx (ix2 k c) = x (ix2 (clampRow N hN (idx (ix2 k (0 : Fin 1)))) c) := by
  unfold Host.gather
  refine congrArg x (funext fun a => Fin.ext ?_)
  match a with
  | ⟨0, _⟩ => exact h0 k c
  | ⟨1, _⟩ => exact h1 k c

/-- A vector gather read at `k`: the table at the clamped index. -/
theorem gather_vec {N K : ℕ} (hN : 0 < N) (d : GatherDims (⟨1, ![N]⟩ : Shape) ⟨2, ![K, 1]⟩ ⟨1, ![K]⟩)
    (idx : IVec (⟨2, ![K, 1]⟩ : Shape) w)
    (h0 : ∀ k : Fin K, (d.operandIdx (ix1 k) idx 0).val = min (idx (ix2 k (0 : Fin 1))).toInt.toNat (N - 1))
    (x : (⟨1, ![N]⟩ : Shape).Idx → α) (k : Fin K) :
    Host.gather d x idx (ix1 k) = x (ix1 (clampRow N hN (idx (ix2 k (0 : Fin 1))))) := by
  unfold Host.gather
  refine congrArg x (funext fun a => Fin.ext ?_)
  match a with
  | ⟨0, _⟩ => exact h0 k

end Cert.LibGatherRows
-- ==== Proof.HostChains.lean ====
/-
  The host operations between the kernel program's regions, read at an index over the extended reals.

  A layer's aggregation gathers, for every edge, the source node's row of the transformed features and adds it into
  the target node's row: entry (n, j) of the result is zero plus the sum, over the edges landing on n, of entry j of
  the source's row. The source index is read the way a gather reads it (a negative index counts from the end, the
  result is clamped into the table), the target index the way an accumulating scatter reads it (signed, dropped when
  outside). A node's degree factor is the inverse square root of the number of edges landing on it, kept as a column.
  The mean divides a graph's sum by its node count, at least one. A bias or index vector recast as a one-row or
  one-column matrix keeps its entries. The kernel program builds its two edge-index arrays by the same four
  operations as the reference program.
-/
import proofs.«162227_j16466904612871_2_alg».proof.Proof.Gen.KernelIdeal
import proofs.«162227_j16466904612871_2_alg».proof.Proof.Gen.ReferenceIdeal.Read
import proofs.«162227_j16466904612871_2_alg».proof.Proof.Model
import proofs.«162227_j16466904612871_2_alg».proof.Proof.LibScatterAddRows
import proofs.«162227_j16466904612871_2_alg».proof.Proof.LibGatherRows
import proofs.«162227_j16466904612871_2_alg».proof.Proof.LibKeepdims
import Idealize.ShloMosaic.Lib.ValueIdx
import Idealize.ShloMosaic.Lib.Pipeline.Value
import Idealize.ShloMosaic.PureOps.Ideal.Laws

noncomputable section

namespace Cert.KernelIdeal.HostChains

open Cert.KernelIdeal Cert.KernelIdeal.Gen Cert.GcnModel Cert.GcnSpec Idealize.ShloMosaic Idealize.ShloMosaic.ValueIdx

/-! ## Pieces: constants, a vector as a column, and what the dimension numbers compute -/

/-- An array filled with the zero literal reads `zf` everywhere. -/
theorem zeros_apply {s : Shape} (hb : S_.BroadcastsInDim s (![] : Fin 0 → Fin s.rank)) (i : s.Idx) :
    broadcastInDim s ![] hb (constant (F := Ideal) S_ .f32 0x00000000#32) i = zf :=
  (broadcastInDim_apply (s := S_) (t := s) ![] hb _ i (fun a => a.elim0) (fun a => a.elim0)).trans (constant_apply _ _)

/-- An array filled with the literal one reads `onef` everywhere. -/
theorem ones_apply {s : Shape} (hb : S_.BroadcastsInDim s (![] : Fin 0 → Fin s.rank)) (i : s.Idx) :
    broadcastInDim s ![] hb (constant (F := Ideal) S_ .f32 0x3F800000#32) i = onef :=
  (broadcastInDim_apply (s := S_) (t := s) ![] hb _ i (fun a => a.elim0) (fun a => a.elim0)).trans (constant_apply _ _)

/-- Over the extended reals the accumulating scatter is the exact one. -/
theorem scatterAdd_eq {s si u : Shape} {w : ℕ} (d : ScatterDims s si u) (x : FVec Ideal s .f32) (idx : IVec si w)
    (upd : FVec Ideal u .f32) : Host.scatterAdd d x idx upd = Ideal.hostScatterAdd d x idx upd := rfl

/-- A vector `[K]` laid out as the column `[K, 1]` reads, at `(k, 0)`, the vector's entry `k`. -/
theorem col_apply {α : Type} {K : ℕ} (hK : ¬ K = 1)
    (hb : (⟨1, ![K]⟩ : Shape).BroadcastsInDim ⟨2, ![K, 1]⟩ (![0] : Fin 1 → Fin 2))
    (v : (⟨1, ![K]⟩ : Shape).Idx → α) (k : Fin K) :
    broadcastInDim (⟨2, ![K, 1]⟩ : Shape) ![0] hb v (ix2 k (0 : Fin 1)) = v (ix1 k) :=
  broadcastInDim_apply _ hb v (ix2 k (0 : Fin 1)) (ix1 k) (fun a => match a with
    | ⟨0, _⟩ => by show k.val = if K = 1 then 0 else k.val; rw [if_neg hK])

/-- The edges that land on a node, and the nodes of a graph, spelt as filters. -/
theorem land_eq (colv : Fin 650000 → BitVec 32) (n : Fin 50000) :
    land colv n = Finset.univ.filter (fun e => (colv e).toInt = (n.val : Int)) := rfl
theorem graphOf_eq (bat : Fin 50000 → BitVec 32) (g : Fin 64) :
    graphOf bat g = Finset.univ.filter (fun n => (bat n).toInt = (g.val : Int)) := rfl

/-- The aggregation's scatter: update row `e` goes to the row its index names (read signed), column for column. -/
theorem aggr_scatter_facts {w : ℕ} (idx : IVec S650000x1 w) (k : Fin 650000) (c : Fin 128) :
    scatter_S50000x128_S650000x1_S650000x128_1_0_0_1.start (ix2 k c) idx 0 = (idx (ix2 k (0 : Fin 1))).toInt
      ∧ scatter_S50000x128_S650000x1_S650000x128_1_0_0_1.start (ix2 k c) idx 1 = 0
      ∧ scatter_S50000x128_S650000x1_S650000x128_1_0_0_1.window (ix2 k c) 0 = 0
      ∧ scatter_S50000x128_S650000x1_S650000x128_1_0_0_1.window (ix2 k c) 1 = c.val := by
  refine ⟨?_, ?_, ?_, ?_⟩
  · unfold ScatterDims.start
    rw [dif_pos (by decide)]
    refine congrArg (fun i => (idx i).toInt) (funext fun b => Fin.ext ?_)
    match b with
    | ⟨0, _⟩ => rfl
    | ⟨1, _⟩ => rfl
  · unfold ScatterDims.start
    rw [dif_neg (by decide)]
  · unfold ScatterDims.window
    rw [dif_neg (by decide)]
  · unfold ScatterDims.window
    rw [dif_pos (by decide)]
    rfl

/-- The aggregation's gather: result row `e` is the table's row at the index of `e`, read signed and clamped,
    column for column. -/
theorem aggr_gather_facts {w : ℕ} (idx : IVec S650000x1 w) (k : Fin 650000) (c : Fin 128) :
    (gather_S50000x128_S650000x1_S650000x128_1_0_n_n_0_1_1128.operandIdx (ix2 k c) idx 0).val
        = min (idx (ix2 k (0 : Fin 1))).toInt.toNat (50000 - 1)
      ∧ (gather_S50000x128_S650000x1_S650000x128_1_0_n_n_0_1_1128.operandIdx (ix2 k c) idx 1).val = c.val := by
  refine ⟨?_, ?_⟩
  · show gather_S50000x128_S650000x1_S650000x128_1_0_n_n_0_1_1128.start (ix2 k c) idx 0
      + gather_S50000x128_S650000x1_S650000x128_1_0_n_n_0_1_1128.batchCoord (ix2 k c) 0
      + gather_S50000x128_S650000x1_S650000x128_1_0_n_n_0_1_1128.offCoord (ix2 k c) 0 = _
    rw [GatherDims.batchCoord_eq_zero _ _ _ (by decide), GatherDims.offCoord_eq_zero _ _ _ (by decide)]
    unfold GatherDims.start
    rw [dif_pos (by decide)]
    have hsi : gather_S50000x128_S650000x1_S650000x128_1_0_n_n_0_1_1128.siIdx (ix2 k c)
        ⟨List.idxOf (0 : Fin 2) gather_S50000x128_S650000x1_S650000x128_1_0_n_n_0_1_1128.startIndexMap,
          List.idxOf_lt_length_iff.2 (by decide)⟩ = ix2 k (0 : Fin 1) := by
      funext b
      refine Fin.ext ?_
      match b with
      | ⟨0, _⟩ => rfl
      | ⟨1, _⟩ => rfl
    rw [hsi]
    rfl
  · show gather_S50000x128_S650000x1_S650000x128_1_0_n_n_0_1_1128.start (ix2 k c) idx 1
      + gather_S50000x128_S650000x1_S650000x128_1_0_n_n_0_1_1128.batchCoord (ix2 k c) 1
      + gather_S50000x128_S650000x1_S650000x128_1_0_n_n_0_1_1128.offCoord (ix2 k c) 1 = _
    rw [GatherDims.batchCoord_eq_zero _ _ _ (by decide)]
    unfold GatherDims.start GatherDims.offCoord
    rw [dif_neg (by decide), dif_pos (by decide)]
    simp only [Nat.zero_add, Nat.add_zero]
    rfl

/-- The row a gather reads for an index that is first wrapped is the model's `node`. -/
theorem clampRow_wrap (v : BitVec 32) : Cert.LibGatherRows.clampRow 50000 (by decide) (wrap v) = node v := Fin.ext rfl

/-- The aggregation's scatter read at `(n, j)`: the operand's entry plus the sum, over the update rows whose index
    (read signed) is `n`, of the update's entry in column `j`. -/
theorem aggr_scatter_read {w : ℕ} (x : S50000x128.Idx → EReal) (idx : IVec S650000x1 w) (upd : S650000x128.Idx → EReal)
    (n : Fin 50000) (j : Fin 128) :
    Ideal.hostScatterAdd scatter_S50000x128_S650000x1_S650000x128_1_0_0_1 x idx upd (ix2 n j)
      = x (ix2 n j) + ∑ k ∈ Finset.univ.filter (fun k : Fin 650000 => (idx (ix2 k (0 : Fin 1))).toInt = (n.val : Int)),
          upd (ix2 k j) :=
  Cert.LibScatterAddRows.scatterAdd_rows scatter_S50000x128_S650000x1_S650000x128_1_0_0_1 idx
    (fun k c => (aggr_scatter_facts idx k c).1) (fun k c => (aggr_scatter_facts idx k c).2.1)
    (fun k c => (aggr_scatter_facts idx k c).2.2.1) (fun k c => (aggr_scatter_facts idx k c).2.2.2) x upd n j

/-- The aggregation's gather read at `(e, j)`: the table's entry in column `j` of the row the index of `e` names,
    read signed and clamped. -/
theorem aggr_gather_read {α : Type} {w : ℕ} (x : S50000x128.Idx → α) (idx : IVec S650000x1 w) (e : Fin 650000) (j : Fin 128) :
    Host.gather gather_S50000x128_S650000x1_S650000x128_1_0_n_n_0_1_1128 x idx (ix2 e j)
      = x (ix2 (Cert.LibGatherRows.clampRow 50000 (by decide) (idx (ix2 e (0 : Fin 1)))) j) :=
  Cert.LibGatherRows.gather_rows (by decide) gather_S50000x128_S650000x1_S650000x128_1_0_n_n_0_1_1128 idx
    (fun k c => (aggr_gather_facts idx k c).1) (fun k c => (aggr_gather_facts idx k c).2) x e j

/-! ## A layer's aggregation -/

theorem aggr_apply (h : FVec Ideal S50000x128 .f32) (v3 v6 : IVec S650000 32) (n : Fin 50000) (j : Fin 128) :
    Host.scatterAdd scatter_S50000x128_S650000x1_S650000x128_1_0_0_1
      (broadcastInDim S50000x128 ![] bcast_S_S50000x128 (constant (F := Ideal) S_ .f32 0x00000000#32))
      (broadcastInDim S650000x1 ![0] bcast_S650000_S650000x1_0 v6)
      (Host.gather gather_S50000x128_S650000x1_S650000x128_1_0_n_n_0_1_1128 h
        (broadcastInDim S650000x1 ![0] bcast_S650000_S650000x1_0
          (select (cmpi .slt v3 (broadcastInDim S650000 ![] bcast_S_S650000 (constantI S_ 32 0#32)))
            (addi v3 (broadcastInDim S650000 ![] bcast_S_S650000 (constantI S_ 32 50000#32))) v3))) (ix2 n j)
      = zf + ∑ e ∈ land (fun e => v6 (ix1 e)) n, h (ix2 (node (v3 (ix1 e))) j) := by
  rw [scatterAdd_eq, aggr_scatter_read, zeros_apply, land_eq]
  have hcol : ∀ k : Fin 650000,
      broadcastInDim S650000x1 ![0] bcast_S650000_S650000x1_0 v6 (ix2 k (0 : Fin 1)) = v6 (ix1 k) :=
    fun k => col_apply (by decide) bcast_S650000_S650000x1_0 v6 k
  simp only [hcol]
  refine congrArg (zf + ·) (Finset.sum_congr rfl fun e _ => ?_)
  rw [aggr_gather_read, col_apply (by decide) bcast_S650000_S650000x1_0 _ e]
  exact congrArg (fun r => h (ix2 r j)) (clampRow_wrap (v3 (ix1 e)))

/-! ## The degree factor, as a column -/

/-- The degree count's scatter: update `e` goes to the entry its index names (read signed). -/
theorem deg_scatter_facts {w : ℕ} (idx : IVec S650000x1 w) (k : Fin 650000) :
    scatter_S50000_S650000x1_S650000_n_0_0_1.start (ix1 k) idx 0 = (idx (ix2 k (0 : Fin 1))).toInt
      ∧ scatter_S50000_S650000x1_S650000_n_0_0_1.window (ix1 k) 0 = 0 := by
  refine ⟨?_, ?_⟩
  · unfold ScatterDims.start
    rw [dif_pos (by decide)]
    refine congrArg (fun i => (idx i).toInt) (funext fun b => Fin.ext ?_)
    match b with
    | ⟨0, _⟩ => rfl
    | ⟨1, _⟩ => rfl
  · unfold ScatterDims.window
    rw [dif_neg (by decide)]

/-- The degree count's scatter read at `n`: the operand's entry plus the sum of the updates whose index is `n`. -/
theorem deg_scatter_read {w : ℕ} (x : S50000.Idx → EReal) (idx : IVec S650000x1 w) (upd : S650000.Idx → EReal)
    (n : Fin 50000) :
    Ideal.hostScatterAdd scatter_S50000_S650000x1_S650000_n_0_0_1 x idx upd (ix1 n)
      = x (ix1 n) + ∑ k ∈ Finset.univ.filter (fun k : Fin 650000 => (idx (ix2 k (0 : Fin 1))).toInt = (n.val : Int)),
          upd (ix1 k) :=
  Cert.LibScatterAddRows.scatterAdd_vec scatter_S50000_S650000x1_S650000_n_0_0_1 idx
    (fun k => (deg_scatter_facts idx k).1) (fun k => (deg_scatter_facts idx k).2) x upd n

/-- The host's inverse square root of an array, entry by entry. -/
theorem rsqrt_apply {s : Shape} (x : FVec Ideal s .f32) (i : s.Idx) : Host.rsqrt x i = Ideal.rsqrt (x i) := rfl

theorem dinvcol_apply (v6 : IVec S650000 32) (n : Fin 50000) :
    shapeCast S50000x1 (Host.rsqrt (Host.scatterAdd scatter_S50000_S650000x1_S650000_n_0_0_1
        (broadcastInDim S50000 ![] bcast_S_S50000 (constant (F := Ideal) S_ .f32 0x00000000#32))
        (broadcastInDim S650000x1 ![0] bcast_S650000_S650000x1_0 v6)
        (broadcastInDim S650000 ![] bcast_S_S650000 (constant (F := Ideal) S_ .f32 0x3F800000#32)))) shapeCasts_S50000_S50000x1 (ix2 n (0 : Fin 1))
      = dinv (fun e => v6 (ix1 e)) n := by
  rw [Cert.LibKeepdims.shapeCast_a_a1_apply, rsqrt_apply, scatterAdd_eq, deg_scatter_read, zeros_apply]
  have hcol : ∀ k : Fin 650000,
      broadcastInDim S650000x1 ![0] bcast_S650000_S650000x1_0 v6 (ix2 k (0 : Fin 1)) = v6 (ix1 k) :=
    fun k => col_apply (by decide) bcast_S650000_S650000x1_0 v6 k
  simp only [hcol]
  unfold dinv
  rw [land_eq]
  exact congrArg (fun t => Ideal.rsqrt (zf + t)) (Finset.sum_congr rfl fun k _ => ones_apply _ _)

/-! ## The mean over a graph's nodes -/

/-- The node count's scatter: update `n` goes to the entry its index names (read signed). -/
theorem cnt_scatter_facts {w : ℕ} (idx : IVec S50000x1 w) (k : Fin 50000) :
    scatter_S64_S50000x1_S50000_n_0_0_1.start (ix1 k) idx 0 = (idx (ix2 k (0 : Fin 1))).toInt
      ∧ scatter_S64_S50000x1_S50000_n_0_0_1.window (ix1 k) 0 = 0 := by
  refine ⟨?_, ?_⟩
  · unfold ScatterDims.start
    rw [dif_pos (by decide)]
    refine congrArg (fun i => (idx i).toInt) (funext fun b => Fin.ext ?_)
    match b with
    | ⟨0, _⟩ => rfl
    | ⟨1, _⟩ => rfl
  · unfold ScatterDims.window
    rw [dif_neg (by decide)]

/-- The node count's scatter read at `g`: the operand's entry plus the sum of the updates whose index is `g`. -/
theorem cnt_scatter_read {w : ℕ} (x : S64.Idx → EReal) (idx : IVec S50000x1 w) (upd : S50000.Idx → EReal) (g : Fin 64) :
    Ideal.hostScatterAdd scatter_S64_S50000x1_S50000_n_0_0_1 x idx upd (ix1 g)
      = x (ix1 g) + ∑ k ∈ Finset.univ.filter (fun k : Fin 50000 => (idx (ix2 k (0 : Fin 1))).toInt = (g.val : Int)),
          upd (ix1 k) :=
  Cert.LibScatterAddRows.scatterAdd_vec scatter_S64_S50000x1_S50000_n_0_0_1 idx
    (fun k => (cnt_scatter_facts idx k).1) (fun k => (cnt_scatter_facts idx k).2) x upd g

/-- The host's division and the maximum of two arrays, entry by entry. -/
theorem divf_apply {s : Shape} (x y : FVec Ideal s .f32) (i : s.Idx) : Host.divf x y i = Ideal.div (x i) (y i) := rfl
theorem maximumf_apply {s : Shape} (x y : FVec Ideal s .f32) (i : s.Idx) : maximumf x y i = max (x i) (y i) := rfl

theorem mean_apply (S : FVec Ideal S64x128 .f32) (a8 : IVec S50000 32) (g : Fin 64) (j : Fin 128) :
    Host.divf S (broadcastInDim S64x128 ![0, 1] bcast_S64x1_S64x128_0_1 (broadcastInDim S64x1 ![0] bcast_S64_S64x1_0
      (maximumf (Host.scatterAdd scatter_S64_S50000x1_S50000_n_0_0_1
          (broadcastInDim S64 ![] bcast_S_S64 (constant (F := Ideal) S_ .f32 0x00000000#32))
          (broadcastInDim S50000x1 ![0] bcast_S50000_S50000x1_0 a8)
          (broadcastInDim S50000 ![] bcast_S_S50000 (constant (F := Ideal) S_ .f32 0x3F800000#32)))
        (broadcastInDim S64 ![] bcast_S_S64 (constant (F := Ideal) S_ .f32 0x3F800000#32))))) (ix2 g j)
      = meanOf (fun n => a8 (ix1 n)) (fun g j => S (ix2 g j)) g j := by
  rw [divf_apply, broadcastInDim_apply ![0, 1] bcast_S64x1_S64x128_0_1 _ (ix2 g j) (ix2 g (0 : Fin 1)) (fun a => match a with
      | ⟨0, _⟩ => by show g.val = if (64 : ℕ) = 1 then 0 else g.val; rw [if_neg (by decide)]
      | ⟨1, _⟩ => by show (0 : ℕ) = if (1 : ℕ) = 1 then 0 else j.val; rw [if_pos rfl]),
    col_apply (by decide) bcast_S64_S64x1_0 _ g, maximumf_apply, ones_apply, scatterAdd_eq, cnt_scatter_read, zeros_apply]
  have hcol : ∀ k : Fin 50000,
      broadcastInDim S50000x1 ![0] bcast_S50000_S50000x1_0 a8 (ix2 k (0 : Fin 1)) = a8 (ix1 k) :=
    fun k => col_apply (by decide) bcast_S50000_S50000x1_0 a8 k
  simp only [hcol]
  unfold meanOf cnt
  rw [graphOf_eq]
  exact congrArg (fun t => Ideal.div (S (ix2 g j)) (max (zf + t) onef)) (Finset.sum_congr rfl fun k _ => ones_apply _ _)

/-! ## The edge-index arrays -/

/-- The kernel program's source-index array is built by the reference program's four operations. -/
theorem srcIdx_eq (a7 : IVec S2x600000 32) :
    concatenate S650000 0 [⟨S600000, shapeCast S600000 (extractStridedSlice S1x600000 ![0, 0] a7 slices_S2x600000_S1x600000_0_0) shapeCasts_S1x600000_S600000⟩,
        ⟨S50000, iotaInDim S50000 32 0⟩] concatenates_S600000_S50000_S650000_d0
      = Cert.ReferenceIdeal.Read.val_main_v3 (F := Ideal) a7 := rfl

/-- So is its target-index array. -/
theorem dstIdx_eq (a7 : IVec S2x600000 32) :
    concatenate S650000 0 [⟨S600000, shapeCast S600000 (extractStridedSlice S1x600000 ![1, 0] a7 slices_S2x600000_S1x600000_1_0) shapeCasts_S1x600000_S600000⟩,
        ⟨S50000, iotaInDim S50000 32 0⟩] concatenates_S600000_S50000_S650000_d0
      = Cert.ReferenceIdeal.Read.val_main_v6 (F := Ideal) a7 := rfl

/-! ## Vectors recast as one-row and one-column matrices -/

/-- A vector `[a]` recast as the row `[1, a]` reads, at `(0, q)`, the vector's entry `q`. -/
theorem row_apply {α : Type} {a : ℕ} (x : (⟨1, ![a]⟩ : Shape).Idx → α) (h : (⟨1, ![a]⟩ : Shape).ShapeCasts ⟨2, ![1, a]⟩)
    (u : Fin 1) (q : Fin a) : shapeCast ⟨2, ![1, a]⟩ x h (ix2 u q) = x (ix1 q) :=
  shapeCast_apply x h _ _ (by
    have hu : u.val = 0 := by omega
    rw [Shape.rowMajor_val_two, Shape.rowMajor_val_one]
    show q.val = u.val * a + q.val
    rw [hu, Nat.zero_mul, Nat.zero_add])

theorem bias128_row_apply (b2 : FVec Ideal S128 .f32) (j : Fin 128) :
    shapeCast S1x128 b2 shapeCasts_S128_S1x128 (ix2 (0 : Fin 1) j) = b2 (ix1 j) := row_apply b2 _ 0 j

theorem bias10_row_apply (b6 : FVec Ideal S10 .f32) (q : Fin 10) :
    shapeCast S1x10 b6 shapeCasts_S10_S1x10 (ix2 (0 : Fin 1) q) = b6 (ix1 q) := row_apply b6 _ 0 q

theorem batch_col_apply (a8 : IVec S50000 32) (n : Fin 50000) :
    shapeCast S50000x1 a8 shapeCasts_S50000_S50000x1 (ix2 n (0 : Fin 1)) = a8 (ix1 n) :=
  Cert.LibKeepdims.shapeCast_a_a1_apply a8 _ n 0

end Cert.KernelIdeal.HostChains

end
-- ==== Proof.KernelValue.lean ====
/-
  The idealized kernel's result as a function of its arguments: the contents the run leaves in the result's buffer,
  followed back through the four pallas regions and the host operations between them, is the graph network `gcnK` of
  the model — degree factors by a scatter-add of ones and an inverse square root; per layer a matrix product scaled by
  the source's factor, a gather by source and a scatter-add by target, the target's factor and the bias (and a
  rectifier after the first layer); a one-hot pooling product accumulated over ten blocks; the mean; the classifier.
-/
import proofs.«162227_j16466904612871_2_alg».proof.Proof.Gen.KernelIdeal.Frame
import proofs.«162227_j16466904612871_2_alg».proof.Proof.Gen.ReferenceIdeal.Read
import proofs.«162227_j16466904612871_2_alg».proof.Proof.KernelWalk
import proofs.«162227_j16466904612871_2_alg».proof.Proof.Region2Value
import proofs.«162227_j16466904612871_2_alg».proof.Proof.Model
import proofs.«162227_j16466904612871_2_alg».proof.Proof.RegionsA
import proofs.«162227_j16466904612871_2_alg».proof.Proof.HostChains
import Idealize.ShloMosaic.Lib.StableHlo.Run
import Idealize.ShloMosaic.Lib.Tactic
import Idealize.ShloMosaic.Lib.ValueIdx

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.KernelValue

open Cert.KernelIdeal Cert.KernelIdeal.Gen Cert.KernelIdeal.Walk Cert.KernelIdeal.RegionValue Cert.KernelIdeal.HostChains
open Cert.KernelIdeal.PoolValue Cert.GcnModel Cert.GcnSpec

variable (m : (ℓ : Loc nD τ sig) → Buf (Elt Ideal) ℓ) (ρ : Dev nD → PrngReg) (c : Dev nD)

/-- The arguments as arrays. -/
abbrev aX : S50000x128.Idx → EReal := m ((c : Thread nD τ).loc main_arg0)
abbrev aW1 : S128x128.Idx → EReal := m ((c : Thread nD τ).loc main_arg1)
abbrev aB1 : S128.Idx → EReal := m ((c : Thread nD τ).loc main_arg2)
abbrev aW2 : S128x128.Idx → EReal := m ((c : Thread nD τ).loc main_arg3)
abbrev aB2 : S128.Idx → EReal := m ((c : Thread nD τ).loc main_arg4)
abbrev aWL : S128x10.Idx → EReal := m ((c : Thread nD τ).loc main_arg5)
abbrev aBL : S10.Idx → EReal := m ((c : Thread nD τ).loc main_arg6)
abbrev aE : IVec S2x600000 32 := m ((c : Thread nD τ).loc main_arg7)
abbrev aBat : IVec S50000 32 := m ((c : Thread nD τ).loc main_arg8)

/-- The model's data: each edge's source and target index word, the features, weights and biases entry by entry. -/
abbrev rowv (e : Fin 650000) : BitVec 32 := Cert.ReferenceIdeal.Read.val_main_v3 (F := Ideal) (aE m c) (ix1 e)
abbrev colv (e : Fin 650000) : BitVec 32 := Cert.ReferenceIdeal.Read.val_main_v6 (F := Ideal) (aE m c) (ix1 e)
abbrev fX (n : Fin 50000) (k : Fin 128) : EReal := aX m c (ix2 n k)
abbrev fW1 (k j : Fin 128) : EReal := aW1 m c (ix2 k j)
abbrev fB1 (j : Fin 128) : EReal := aB1 m c (ix1 j)
abbrev fW2 (k j : Fin 128) : EReal := aW2 m c (ix2 k j)
abbrev fB2 (j : Fin 128) : EReal := aB2 m c (ix1 j)
abbrev fWL (k : Fin 128) (q : Fin 10) : EReal := aWL m c (ix2 k q)
abbrev fBL (q : Fin 10) : EReal := aBL m c (ix1 q)
abbrev fBat (n : Fin 50000) : BitVec 32 := aBat m c (ix1 n)

/-- The first layer's output after the rectifier, in the kernel's arrangement. -/
abbrev hid (n : Fin 50000) (k : Fin 128) : EReal :=
  max (layerK (rowv m c) (colv m c) (fX m c) (fW1 m c) (fB1 m c) n k) zf

/-! ## The first stretch of host operations: the edge arrays and the degree factors -/

theorem v3_W1 : W1 m ρ c (Proc.devRef .tc main_v3) = Cert.ReferenceIdeal.Read.val_main_v3 (F := Ideal) (aE m c) := by
  show StableHlo.after hostOps0 (W0 m ρ c) (Proc.devRef .tc main_v3) = _
  after_results
  exact srcIdx_eq _

theorem v6_W1 : W1 m ρ c (Proc.devRef .tc main_v6) = Cert.ReferenceIdeal.Read.val_main_v6 (F := Ideal) (aE m c) := by
  show StableHlo.after hostOps0 (W0 m ρ c) (Proc.devRef .tc main_v6) = _
  after_results
  exact dstIdx_eq _

theorem v12_W1 (n : Fin 50000) : a_v12 (V1 m ρ) c (ix2 n (0 : Fin 1)) = dinv (colv m c) n := by
  have e : a_v12 (V1 m ρ) c = shapeCast S50000x1 (Host.rsqrt (Host.scatterAdd scatter_S50000_S650000x1_S650000_n_0_0_1
        (broadcastInDim S50000 ![] bcast_S_S50000 (constant (F := Ideal) S_ .f32 0x00000000#32))
        (broadcastInDim S650000x1 ![0] bcast_S650000_S650000x1_0 (Cert.ReferenceIdeal.Read.val_main_v6 (F := Ideal) (aE m c)))
        (broadcastInDim S650000 ![] bcast_S_S650000 (constant (F := Ideal) S_ .f32 0x3F800000#32)))) shapeCasts_S50000_S50000x1 := by
    show StableHlo.after hostOps0 (W0 m ρ c) (Proc.devRef .tc main_v12) = _
    after_results
    rw [← dstIdx_eq]
    rfl
  rw [e, dinvcol_apply]

/-! ## Layer 1 -/

theorem v13_W2 (n : Fin 50000) (j : Fin 128) :
    (W2 m ρ c (Proc.devRef .tc main_v13) : S50000x128.Idx → EReal) (ix2 n j)
      = mm (fX m c) (fW1 m c) n j * dinv (colv m c) n := by
  have e : (W2 m ρ c (Proc.devRef .tc main_v13) : S50000x128.Idx → EReal) = (dat0 (V1 m ρ) c).arrAt 3 cfg0.N := W2_arr m ρ c 3
  rw [e, arr0 (V1 m ρ) c n j, v12_W1 m ρ c n]
  have e0 : a_arg0 (V1 m ρ) c = aX m c := W1_arg0 m ρ c
  have e1 : a_arg1 (V1 m ρ) c = aW1 m c := W1_arg1 m ρ c
  rw [e0, e1]
  rfl

theorem v23_V3 (n : Fin 50000) (j : Fin 128) :
    a_v23 (V3 m ρ) c (ix2 n j)
      = zf + ∑ e ∈ land (colv m c) n, mm (fX m c) (fW1 m c) (node (rowv m c e)) j * dinv (colv m c) (node (rowv m c e)) := by
  have e : a_v23 (V3 m ρ) c = Host.scatterAdd scatter_S50000x128_S650000x1_S650000x128_1_0_0_1
      (broadcastInDim S50000x128 ![] bcast_S_S50000x128 (constant (F := Ideal) S_ .f32 0x00000000#32))
      (broadcastInDim S650000x1 ![0] bcast_S650000_S650000x1_0 (Cert.ReferenceIdeal.Read.val_main_v6 (F := Ideal) (aE m c)))
      (Host.gather gather_S50000x128_S650000x1_S650000x128_1_0_n_n_0_1_1128 (W2 m ρ c (Proc.devRef .tc main_v13) : S50000x128.Idx → EReal)
        (broadcastInDim S650000x1 ![0] bcast_S650000_S650000x1_0
          (select (cmpi .slt (Cert.ReferenceIdeal.Read.val_main_v3 (F := Ideal) (aE m c)) (broadcastInDim S650000 ![] bcast_S_S650000 (constantI S_ 32 0#32)))
            (addi (Cert.ReferenceIdeal.Read.val_main_v3 (F := Ideal) (aE m c)) (broadcastInDim S650000 ![] bcast_S_S650000 (constantI S_ 32 50000#32))) (Cert.ReferenceIdeal.Read.val_main_v3 (F := Ideal) (aE m c))))) := by
    show StableHlo.after hostOps1 (W2 m ρ c) (Proc.devRef .tc main_v23) = _
    after_results
    rw [W2_v6 m ρ c, W2_v3 m ρ c, v6_W1 m ρ c, v3_W1 m ρ c]
  rw [e, aggr_apply]
  exact congrArg (zf + ·) (Finset.sum_congr rfl fun e _ => v13_W2 m ρ c _ j)

theorem v12_V3 (n : Fin 50000) : a_v12 (V3 m ρ) c (ix2 n (0 : Fin 1)) = dinv (colv m c) n := by
  have e : a_v12 (V3 m ρ) c = a_v12 (V1 m ρ) c := W3_v12 m ρ c
  rw [e]; exact v12_W1 m ρ c n

theorem v24_V3 (k : Fin 128) : a_v24 (V3 m ρ) c (ix2 (0 : Fin 1) k) = fB1 m c k := by
  have e : a_v24 (V3 m ρ) c = shapeCast S1x128 (aB1 m c) shapeCasts_S128_S1x128 := by
    show StableHlo.after hostOps1 (W2 m ρ c) (Proc.devRef .tc main_v24) = _
    after_results
    rw [W2_arg2 m ρ c]
    rfl
  rw [e, bias128_row_apply]

theorem v25_W4 (n : Fin 50000) (j : Fin 128) :
    (W4 m ρ c (Proc.devRef .tc main_v25) : S50000x128.Idx → EReal) (ix2 n j)
      = mm (hid m c) (fW2 m c) n j * dinv (colv m c) n := by
  have e : (W4 m ρ c (Proc.devRef .tc main_v25) : S50000x128.Idx → EReal) = (dat1 (V3 m ρ) c).arrAt 4 cfg1.N := W4_arr m ρ c 4
  rw [e, arr1 (V3 m ρ) c n j]
  have e3 : a_arg3 (V3 m ρ) c = aW2 m c := W3_arg3 m ρ c
  simp only [v12_V3 m ρ c, v24_V3 m ρ c, v23_V3 m ρ c, e3]
  rfl

/-! ## Layer 2 -/

theorem v35_V5 (n : Fin 50000) (j : Fin 128) :
    rawA (V5 m ρ) c (ix2 n j)
      = zf + ∑ e ∈ land (colv m c) n, mm (hid m c) (fW2 m c) (node (rowv m c e)) j * dinv (colv m c) (node (rowv m c e)) := by
  have e : rawA (V5 m ρ) c = Host.scatterAdd scatter_S50000x128_S650000x1_S650000x128_1_0_0_1
      (broadcastInDim S50000x128 ![] bcast_S_S50000x128 (constant (F := Ideal) S_ .f32 0x00000000#32))
      (broadcastInDim S650000x1 ![0] bcast_S650000_S650000x1_0 (Cert.ReferenceIdeal.Read.val_main_v6 (F := Ideal) (aE m c)))
      (Host.gather gather_S50000x128_S650000x1_S650000x128_1_0_n_n_0_1_1128 (W4 m ρ c (Proc.devRef .tc main_v25) : S50000x128.Idx → EReal)
        (broadcastInDim S650000x1 ![0] bcast_S650000_S650000x1_0
          (select (cmpi .slt (Cert.ReferenceIdeal.Read.val_main_v3 (F := Ideal) (aE m c)) (broadcastInDim S650000 ![] bcast_S_S650000 (constantI S_ 32 0#32)))
            (addi (Cert.ReferenceIdeal.Read.val_main_v3 (F := Ideal) (aE m c)) (broadcastInDim S650000 ![] bcast_S_S650000 (constantI S_ 32 50000#32))) (Cert.ReferenceIdeal.Read.val_main_v3 (F := Ideal) (aE m c))))) := by
    show StableHlo.after hostOps2 (W4 m ρ c) (Proc.devRef .tc main_v35) = _
    after_results
    rw [W4_v6 m ρ c, W4_v3 m ρ c, v6_W1 m ρ c, v3_W1 m ρ c]
  rw [e, aggr_apply]
  exact congrArg (zf + ·) (Finset.sum_congr rfl fun e _ => v25_W4 m ρ c _ j)

theorem v12_V5 (n : Fin 50000) : dcolA (V5 m ρ) c (ix2 n (0 : Fin 1)) = dinv (colv m c) n := by
  have e : dcolA (V5 m ρ) c = a_v12 (V1 m ρ) c := W5_v12 m ρ c
  rw [e]; exact v12_W1 m ρ c n

theorem v36_V5 (j : Fin 128) : biasA (V5 m ρ) c (ix2 (0 : Fin 1) j) = fB2 m c j := by
  have e : biasA (V5 m ρ) c = shapeCast S1x128 (aB2 m c) shapeCasts_S128_S1x128 := by
    show StableHlo.after hostOps2 (W4 m ρ c) (Proc.devRef .tc main_v36) = _
    after_results
    rw [W4_arg4 m ρ c]
    rfl
  rw [e, bias128_row_apply]

theorem v37_V5 (n : Fin 50000) : batA (V5 m ρ) c (ix2 n (0 : Fin 1)) = fBat m c n := by
  have e : batA (V5 m ρ) c = shapeCast S50000x1 (aBat m c) shapeCasts_S50000_S50000x1 := by
    show StableHlo.after hostOps2 (W4 m ρ c) (Proc.devRef .tc main_v37) = _
    after_results
    rw [W4_arg8 m ρ c]
    rfl
  rw [e, batch_col_apply]

/-! ## Pooling, the mean and the classifier -/

theorem zf_add (x : EReal) : zf + x = x := by rw [zf_eq, zero_add]

theorem v38_W6 (g : Fin 64) (j : Fin 128) :
    (W6 m ρ c (Proc.devRef .tc main_v38) : S64x128.Idx → EReal) (ix2 g j)
      = poolK (fBat m c) (layerK (rowv m c) (colv m c) (hid m c) (fW2 m c) (fB2 m c)) g j := by
  have e : (W6 m ρ c (Proc.devRef .tc main_v38) : S64x128.Idx → EReal) = (dat2 (V5 m ρ) c).arrAt 4 cfg2.N := W6_arr m ρ c 4
  rw [e, pool_value (V5 m ρ) c g j, zf_add]
  simp only [v35_V5 m ρ c, v12_V5 m ρ c, v36_V5 m ρ c, v37_V5 m ρ c]
  rfl

theorem v47_V7 (g : Fin 64) (j : Fin 128) :
    a_v47 (V7 m ρ) c (ix2 g j)
      = meanOf (fBat m c) (poolK (fBat m c) (layerK (rowv m c) (colv m c) (hid m c) (fW2 m c) (fB2 m c))) g j := by
  have e : a_v47 (V7 m ρ) c = Host.divf (W6 m ρ c (Proc.devRef .tc main_v38) : S64x128.Idx → EReal) (broadcastInDim S64x128 ![0, 1] bcast_S64x1_S64x128_0_1 (broadcastInDim S64x1 ![0] bcast_S64_S64x1_0
      (maximumf (Host.scatterAdd scatter_S64_S50000x1_S50000_n_0_0_1
          (broadcastInDim S64 ![] bcast_S_S64 (constant (F := Ideal) S_ .f32 0x00000000#32))
          (broadcastInDim S50000x1 ![0] bcast_S50000_S50000x1_0 (aBat m c))
          (broadcastInDim S50000 ![] bcast_S_S50000 (constant (F := Ideal) S_ .f32 0x3F800000#32)))
        (broadcastInDim S64 ![] bcast_S_S64 (constant (F := Ideal) S_ .f32 0x3F800000#32))))) := by
    show StableHlo.after hostOps3 (W6 m ρ c) (Proc.devRef .tc main_v47) = _
    after_results
    rw [W6_arg8 m ρ c]
  rw [e, mean_apply]
  have es : (fun (g : Fin 64) (j : Fin 128) => (W6 m ρ c (Proc.devRef .tc main_v38) : S64x128.Idx → EReal) (ix2 g j))
      = poolK (fBat m c) (layerK (rowv m c) (colv m c) (hid m c) (fW2 m c) (fB2 m c)) :=
    funext fun g => funext fun j => v38_W6 m ρ c g j
  rw [es]

theorem v48_V7 (q : Fin 10) : a_v48 (V7 m ρ) c (ix2 (0 : Fin 1) q) = fBL m c q := by
  have e : a_v48 (V7 m ρ) c = shapeCast S1x10 (aBL m c) shapeCasts_S10_S1x10 := by
    show StableHlo.after hostOps3 (W6 m ρ c) (Proc.devRef .tc main_v48) = _
    after_results
    rw [W6_arg6 m ρ c]
    rfl
  rw [e, bias10_row_apply]

/-- THE KERNEL'S RESULT, entry by entry: the model's network in the kernel's arrangement. -/
theorem kernel_value (g : Fin 64) (q : Fin 10) :
    (W8 m ρ c (Proc.devRef .tc main_v49) : S64x10.Idx → EReal) (ix2 g q)
      = gcnK (rowv m c) (colv m c) (fBat m c) (fX m c) (fW1 m c) (fB1 m c) (fW2 m c) (fB2 m c) (fWL m c) (fBL m c) g q := by
  have e : (W8 m ρ c (Proc.devRef .tc main_v49) : S64x10.Idx → EReal) = (dat3 (V7 m ρ) c).arrAt 3 cfg3.N := W8_arr m ρ c 3
  rw [e, arr3 (V7 m ρ) c g q]
  have e5 : a_arg5 (V7 m ρ) c = aWL m c := W7_arg5 m ρ c
  simp only [v47_V7 m ρ c, v48_V7 m ρ c, e5]
  rfl

end Cert.KernelIdeal.KernelValue

end
-- ==== Proof.RefValue.lean ====
/-
  The reference program's first graph-convolution layer read as the model's reference form, index by index.

  The reference's index-dependent operations are gathers (row `idx[e]` of a table, the index read signed, wrapped
  and clamped) and accumulating scatters (the sum of the updates whose index, read signed, names the element). This
  file reads those operations at an index, then follows the program stage by stage: the degree of a node is the
  number of edges that land on it, its factor is the inverse square root of the degree, the coefficient of an edge is
  the product of its two endpoint factors, a message is that coefficient times the source's transformed features, and
  the layer sums the messages that land on a node, adds the bias and takes the positive part.
-/
import proofs.«162227_j16466904612871_2_alg».proof.Proof.Gen.ReferenceIdeal.Read
import proofs.«162227_j16466904612871_2_alg».proof.Proof.Model
import proofs.«162227_j16466904612871_2_alg».proof.Proof.LibScatterAddRows
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.GcnModel Cert.GcnSpec
  Idealize.ShloMosaic Idealize.ShloMosaic.ValueIdx

/-! ## Scatters and gathers with one scalar index per row, read at an index -/

/-- An axis is kept exactly when it is not listed. -/
theorem mem_kept {s : Shape} (l : List (Fin s.rank)) (a : Fin s.rank) : a ∈ s.kept l ↔ a ∉ l := by
  simp [Shape.kept, List.mem_filter, List.mem_finRange]

/-- What the dimension numbers of a row scatter compute: the window of update row `k` starts at the row its index
    names (read signed) and at column 0, and the window coordinate is the update's column. -/
theorem scatter_rows_facts {N C K w : ℕ} (d : ScatterDims (⟨2, ![N, C]⟩ : Shape) ⟨2, ![K, 1]⟩ ⟨2, ![K, C]⟩)
    (h1 : d.updateWindowDims = [1]) (h2 : d.insertedWindowDims = [0]) (h3 : d.scatterDimsToOperandDims = [0])
    (h4 : d.indexVectorDim = 1) (idx : IVec (⟨2, ![K, 1]⟩ : Shape) w) (k : Fin K) (c : Fin C) :
    d.start (ix2 k c) idx 0 = (idx (ix2 k (0 : Fin 1))).toInt ∧ d.start (ix2 k c) idx 1 = 0
      ∧ d.window (ix2 k c) 0 = 0 ∧ d.window (ix2 k c) 1 = c.val := by
  obtain ⟨uw, iw, sd, iv, wf⟩ := d
  dsimp only at h1 h2 h3 h4
  subst h1 h2 h3 h4
  refine ⟨?_, ?_, ?_, ?_⟩
  · unfold ScatterDims.start
    rw [dif_pos (List.mem_singleton.mpr rfl)]
    refine congrArg (fun i => (idx i).toInt) ?_
    funext b
    refine Fin.ext ?_
    match b with
    | ⟨0, _⟩ => rfl
    | ⟨1, _⟩ => rfl
  · unfold ScatterDims.start
    rw [dif_neg (fun h => absurd (congrArg Fin.val (List.mem_singleton.mp h)) (show (1 : ℕ) ≠ 0 by decide))]
  · unfold ScatterDims.window
    rw [dif_neg (fun h => (mem_kept _ _).mp h (List.mem_singleton.mpr rfl))]
  · unfold ScatterDims.window
    rw [dif_pos ((mem_kept _ _).mpr
      (fun h => absurd (congrArg Fin.val (List.mem_singleton.mp h)) (show (1 : ℕ) ≠ 0 by decide)))]
    rfl

/-- An accumulating row scatter read at `(r, c)`, the row indices given as a function of the update row. -/
theorem scatterAdd_rows_read {N C K w : ℕ} (d : ScatterDims (⟨2, ![N, C]⟩ : Shape) ⟨2, ![K, 1]⟩ ⟨2, ![K, C]⟩)
    (h1 : d.updateWindowDims = [1]) (h2 : d.insertedWindowDims = [0]) (h3 : d.scatterDimsToOperandDims = [0])
    (h4 : d.indexVectorDim = 1) (x : (⟨2, ![N, C]⟩ : Shape).Idx → EReal) (idx : IVec (⟨2, ![K, 1]⟩ : Shape) w)
    (upd : (⟨2, ![K, C]⟩ : Shape).Idx → EReal) (f : Fin K → BitVec w) (hf : ∀ k, idx (ix2 k (0 : Fin 1)) = f k)
    (r : Fin N) (c : Fin C) :
    Ideal.hostScatterAdd d x idx upd (ix2 r c)
      = x (ix2 r c) + ∑ k ∈ Finset.univ.filter (fun k : Fin K => (f k).toInt = (r.val : Int)), upd (ix2 k c) := by
  rw [Cert.LibScatterAddRows.scatterAdd_rows d idx
    (fun k c => (scatter_rows_facts d h1 h2 h3 h4 idx k c).1) (fun k c => (scatter_rows_facts d h1 h2 h3 h4 idx k c).2.1)
    (fun k c => (scatter_rows_facts d h1 h2 h3 h4 idx k c).2.2.1) (fun k c => (scatter_rows_facts d h1 h2 h3 h4 idx k c).2.2.2)]
  simp only [hf]

/-- What the dimension numbers of a vector scatter compute: update `k` goes to the element its index names. -/
theorem scatter_vec_facts {N K w : ℕ} (d : ScatterDims (⟨1, ![N]⟩ : Shape) ⟨2, ![K, 1]⟩ ⟨1, ![K]⟩)
    (h1 : d.updateWindowDims = []) (h2 : d.insertedWindowDims = [0]) (h3 : d.scatterDimsToOperandDims = [0])
    (h4 : d.indexVectorDim = 1) (idx : IVec (⟨2, ![K, 1]⟩ : Shape) w) (k : Fin K) :
    d.start (ix1 k) idx 0 = (idx (ix2 k (0 : Fin 1))).toInt ∧ d.window (ix1 k) 0 = 0 := by
  obtain ⟨uw, iw, sd, iv, wf⟩ := d
  dsimp only at h1 h2 h3 h4
  subst h1 h2 h3 h4
  refine ⟨?_, ?_⟩
  · unfold ScatterDims.start
    rw [dif_pos (List.mem_singleton.mpr rfl)]
    refine congrArg (fun i => (idx i).toInt) ?_
    funext b
    refine Fin.ext ?_
    match b with
    | ⟨0, _⟩ => rfl
    | ⟨1, _⟩ => rfl
  · unfold ScatterDims.window
    rw [dif_neg (fun h => (mem_kept _ _).mp h (List.mem_singleton.mpr rfl))]

/-- An accumulating vector scatter read at `r`, the indices given as a function of the update position. -/
theorem scatterAdd_vec_read {N K w : ℕ} (d : ScatterDims (⟨1, ![N]⟩ : Shape) ⟨2, ![K, 1]⟩ ⟨1, ![K]⟩)
    (h1 : d.updateWindowDims = []) (h2 : d.insertedWindowDims = [0]) (h3 : d.scatterDimsToOperandDims = [0])
    (h4 : d.indexVectorDim = 1) (x : (⟨1, ![N]⟩ : Shape).Idx → EReal) (idx : IVec (⟨2, ![K, 1]⟩ : Shape) w)
    (upd : (⟨1, ![K]⟩ : Shape).Idx → EReal) (f : Fin K → BitVec w) (hf : ∀ k, idx (ix2 k (0 : Fin 1)) = f k)
    (r : Fin N) :
    Ideal.hostScatterAdd d x idx upd (ix1 r)
      = x (ix1 r) + ∑ k ∈ Finset.univ.filter (fun k : Fin K => (f k).toInt = (r.val : Int)), upd (ix1 k) := by
  rw [Cert.LibScatterAddRows.scatterAdd_vec d idx
    (fun k => (scatter_vec_facts d h1 h2 h3 h4 idx k).1) (fun k => (scatter_vec_facts d h1 h2 h3 h4 idx k).2)]
  simp only [hf]

/-- The row a gather reads for an index already wrapped: read signed, clamped into the table of 50000 rows. -/
def clampRow (v : BitVec 32) : Fin 50000 := ⟨min v.toInt.toNat 49999, by omega⟩

theorem node_eq (v : BitVec 32) : node v = clampRow (wrap v) := rfl

/-- A gather of whole rows of a `[50000, 128]` table, one scalar row index per result row, read at `(e, j)`. -/
theorem gather_rows_apply {α : Type} (x : S50000x128.Idx → α) (idx : IVec S650000x1 32) (e : Fin 650000) (j : Fin 128) :
    Host.gather gather_S50000x128_S650000x1_S650000x128_1_0_n_n_0_1_1128 x idx (ix2 e j)
      = x (ix2 (clampRow (idx (ix2 e (0 : Fin 1)))) j) := by
  unfold Host.gather
  congr 1
  funext a
  refine Fin.ext ?_
  have hsi : ∀ c, gather_S50000x128_S650000x1_S650000x128_1_0_n_n_0_1_1128.siIdx (ix2 e j) c = ix2 e (0 : Fin 1) := by
    intro c
    funext b
    refine Fin.ext ?_
    match b with
    | ⟨0, _⟩ => rfl
    | ⟨1, _⟩ => have hc : c.val < 1 := c.isLt; show c.val = 0; omega
  match a with
  | ⟨0, _⟩ =>
    show gather_S50000x128_S650000x1_S650000x128_1_0_n_n_0_1_1128.start (ix2 e j) idx 0
      + gather_S50000x128_S650000x1_S650000x128_1_0_n_n_0_1_1128.batchCoord (ix2 e j) 0
      + gather_S50000x128_S650000x1_S650000x128_1_0_n_n_0_1_1128.offCoord (ix2 e j) 0 = _
    rw [GatherDims.batchCoord_eq_zero _ _ _ (by decide), GatherDims.offCoord_eq_zero _ _ _ (by decide)]
    unfold GatherDims.start
    rw [dif_pos (by decide), hsi]
    rfl
  | ⟨1, _⟩ =>
    show gather_S50000x128_S650000x1_S650000x128_1_0_n_n_0_1_1128.start (ix2 e j) idx 1
      + gather_S50000x128_S650000x1_S650000x128_1_0_n_n_0_1_1128.batchCoord (ix2 e j) 1
      + gather_S50000x128_S650000x1_S650000x128_1_0_n_n_0_1_1128.offCoord (ix2 e j) 1 = _
    rw [GatherDims.batchCoord_eq_zero _ _ _ (by decide)]
    unfold GatherDims.start GatherDims.offCoord
    rw [dif_neg (by decide), dif_pos (by decide)]
    simp only [Nat.zero_add]
    rfl

/-- A gather of single elements of a table of 50000, one scalar index per result element, read at `e`. -/
theorem gather_vec_apply {α : Type} (x : S50000.Idx → α) (idx : IVec S650000x1 32) (e : Fin 650000) :
    Host.gather gather_S50000_S650000x1_S650000_n_0_n_n_0_1_1 x idx (ix1 e)
      = x (ix1 (clampRow (idx (ix2 e (0 : Fin 1))))) := by
  unfold Host.gather
  congr 1
  funext a
  refine Fin.ext ?_
  have hsi : ∀ c, gather_S50000_S650000x1_S650000_n_0_n_n_0_1_1.siIdx (ix1 e) c = ix2 e (0 : Fin 1) := by
    intro c
    funext b
    refine Fin.ext ?_
    match b with
    | ⟨0, _⟩ => rfl
    | ⟨1, _⟩ => have hc : c.val < 1 := c.isLt; show c.val = 0; omega
  match a with
  | ⟨0, _⟩ =>
    show gather_S50000_S650000x1_S650000_n_0_n_n_0_1_1.start (ix1 e) idx 0
      + gather_S50000_S650000x1_S650000_n_0_n_n_0_1_1.batchCoord (ix1 e) 0
      + gather_S50000_S650000x1_S650000_n_0_n_n_0_1_1.offCoord (ix1 e) 0 = _
    rw [GatherDims.batchCoord_eq_zero _ _ _ (by decide), GatherDims.offCoord_eq_zero _ _ _ (by decide)]
    unfold GatherDims.start
    rw [dif_pos (by decide), hsi]
    rfl

/-! ## The program's stages -/

local macro "idx_one" : tactic => `(tactic| (funext a; refine Fin.ext ?_; match a with | ⟨0, _⟩ => rfl))
local macro "idx_two" : tactic => `(tactic| (funext a; refine Fin.ext ?_; match a with | ⟨0, _⟩ => rfl | ⟨1, _⟩ => rfl))

variable (x0 : (⟨S50000x128, .f32⟩ : BufTy).Contents (Elt Ideal)) (x1 : (⟨S128x128, .f32⟩ : BufTy).Contents (Elt Ideal))
  (x2 : (⟨S128, .f32⟩ : BufTy).Contents (Elt Ideal)) (x7 : (⟨S2x600000, .i32⟩ : BufTy).Contents (Elt Ideal))

/-- The source index of edge `e` (the given edges, then one self loop per node). -/
abbrev src : Fin 650000 → BitVec 32 := fun e => val_main_v3 (F := Ideal) x7 (ix1 e)
/-- The target index of edge `e`. -/
abbrev dst : Fin 650000 → BitVec 32 := fun e => val_main_v6 (F := Ideal) x7 (ix1 e)
/-- The input features and the first layer's parameters by coordinates. -/
abbrev X : Fin 50000 → Fin 128 → EReal := fun n k => x0 (ix2 n k)
abbrev W1 : Fin 128 → Fin 128 → EReal := fun k j => x1 (ix2 k j)
abbrev B1 : Fin 128 → EReal := fun j => x2 (ix1 j)

/-! ### Degrees and their factors -/

theorem v7_at (k : Fin 650000) : val_main_v7 (F := Ideal) (ix1 k) = onef := by
  rw [val_main_v7_apply, val_main_cst_apply, Ideal.ofBits_def, onef]

theorem v8_at (n : Fin 50000) : val_main_v8 (F := Ideal) (ix1 n) = zf := by
  rw [val_main_v8_apply, val_main_cst_0_apply, Ideal.ofBits_def, zf]

theorem v9_at (k : Fin 650000) : val_main_v9 (F := Ideal) x7 (ix2 k (0 : Fin 1)) = dst x7 k := by
  rw [val_main_v9_apply]
  exact congrArg (val_main_v6 (F := Ideal) x7) (by idx_one)

/-- The degree of node `n`: zero plus one for each edge that lands on it. -/
theorem v10_at (n : Fin 50000) :
    val_main_v10 (F := Ideal) x7 (ix1 n) = zf + ∑ _e ∈ land (dst x7) n, onef := by
  rw [val_main_v10, Host.scatterAdd, Ideal.hostScatterAdd_def,
    scatterAdd_vec_read _ rfl rfl rfl rfl _ _ _ (dst x7) (v9_at x7), v8_at, land]
  exact congrArg (fun t => zf + t) (Finset.sum_congr rfl fun k _ => v7_at k)

/-- The factor of node `n`. -/
theorem v11_at (n : Fin 50000) : val_main_v11 (F := Ideal) x7 (ix1 n) = dinv (dst x7) n := by
  rw [val_main_v11_apply, v10_at, Ideal.hostUnary_rsqrt_def, dinv]

/-! ### The indices as a gather reads them: a negative index counts from the end -/

theorem v16_at (e : Fin 650000) : val_main_v16 (F := Ideal) x7 (ix1 e) = wrap (src x7 e) := by
  rw [val_main_v16_apply, val_main_v13_apply, val_main_v15_apply, val_main_v12_apply, val_main_v14_apply,
    val_main_c_apply, val_main_c_1_apply, wrap]

theorem v23_at (e : Fin 650000) : val_main_v23 (F := Ideal) x7 (ix1 e) = wrap (dst x7 e) := by
  rw [val_main_v23_apply, val_main_v20_apply, val_main_v22_apply, val_main_v19_apply, val_main_v21_apply,
    val_main_c_2_apply, val_main_c_3_apply, wrap]

theorem v33_at (e : Fin 650000) : val_main_v33 (F := Ideal) x7 (ix1 e) = wrap (src x7 e) := by
  rw [val_main_v33_apply, val_main_v30_apply, val_main_v32_apply, val_main_v29_apply, val_main_v31_apply,
    val_main_c_4_apply, val_main_c_5_apply, wrap]

/-! ### The message coefficients: the product of the two endpoint factors -/

theorem v18_at (e : Fin 650000) :
    val_main_v18 (F := Ideal) x7 (ix1 e) = dinv (dst x7) (node (src x7 e)) := by
  rw [val_main_v18, gather_vec_apply, val_main_v17_apply,
    show idx_main_v17 (ix2 e (0 : Fin 1)) = ix1 e from by idx_one, v16_at, v11_at, node_eq]

theorem v25_at (e : Fin 650000) :
    val_main_v25 (F := Ideal) x7 (ix1 e) = dinv (dst x7) (node (dst x7 e)) := by
  rw [val_main_v25, gather_vec_apply, val_main_v24_apply,
    show idx_main_v24 (ix2 e (0 : Fin 1)) = ix1 e from by idx_one, v23_at, v11_at, node_eq]

/-- The coefficient of edge `e`: its source's factor times its target's. -/
theorem v26_at (e : Fin 650000) :
    val_main_v26 (F := Ideal) x7 (ix1 e) = dinv (dst x7) (node (src x7 e)) * dinv (dst x7) (node (dst x7 e)) := by
  rw [val_main_v26_apply, v18_at, v25_at, Ideal.mulf_def]

/-! ### The first layer -/

/-- The features times the weights. -/
theorem v27_at (n : Fin 50000) (j : Fin 128) :
    val_main_v27 (F := Ideal) x0 x1 (ix2 n j) = mm (X x0) (W1 x1) n j := by
  rw [val_main_v27_apply, mm]
  refine Finset.sum_congr rfl fun k _ => ?_
  rw [show lidx_main_v27 (ix2 n j) k = ix2 n k from by idx_two,
    show ridx_main_v27 (ix2 n j) k = ix2 k j from by idx_two]

/-- Row `e` of the gathered features is the row of the edge's source. -/
theorem v35_at (e : Fin 650000) (j : Fin 128) :
    val_main_v35 (F := Ideal) x0 x1 x7 (ix2 e j) = mm (X x0) (W1 x1) (node (src x7 e)) j := by
  rw [val_main_v35, gather_rows_apply, val_main_v34_apply,
    show idx_main_v34 (ix2 e (0 : Fin 1)) = ix1 e from by idx_one, v33_at, v27_at, node_eq]

theorem v36_at (e : Fin 650000) (j : Fin 128) :
    val_main_v36 (F := Ideal) x7 (ix2 e j) = val_main_v26 (F := Ideal) x7 (ix1 e) := by
  rw [val_main_v36_apply, val_main_v28_apply]
  exact congrArg (val_main_v26 (F := Ideal) x7) (by idx_one)

/-- The message of edge `e`. -/
theorem v37_at (e : Fin 650000) (j : Fin 128) :
    val_main_v37 (F := Ideal) x0 x1 x7 (ix2 e j)
      = (dinv (dst x7) (node (src x7 e)) * dinv (dst x7) (node (dst x7 e))) * mm (X x0) (W1 x1) (node (src x7 e)) j := by
  rw [val_main_v37_apply, v36_at, v26_at, v35_at, Ideal.mulf_def]

theorem v38_at (n : Fin 50000) (j : Fin 128) : val_main_v38 (F := Ideal) (ix2 n j) = zf := by
  rw [val_main_v38_apply, val_main_cst_6_apply, Ideal.ofBits_def, zf]

theorem v39_at (k : Fin 650000) : val_main_v39 (F := Ideal) x7 (ix2 k (0 : Fin 1)) = dst x7 k := by
  rw [val_main_v39_apply]
  exact congrArg (val_main_v6 (F := Ideal) x7) (by idx_one)

/-- The messages that land on node `n`, summed. -/
theorem v40_at (n : Fin 50000) (j : Fin 128) :
    val_main_v40 (F := Ideal) x0 x1 x7 (ix2 n j)
      = zf + ∑ e ∈ land (dst x7) n,
          (dinv (dst x7) (node (src x7 e)) * dinv (dst x7) (node (dst x7 e))) * mm (X x0) (W1 x1) (node (src x7 e)) j := by
  rw [val_main_v40, Host.scatterAdd, Ideal.hostScatterAdd_def,
    scatterAdd_rows_read _ rfl rfl rfl rfl _ _ _ (dst x7) (v39_at x7), v38_at, land]
  exact congrArg (fun t => zf + t) (Finset.sum_congr rfl fun e _ => v37_at x0 x1 x7 e j)

theorem v42_at (n : Fin 50000) (j : Fin 128) : val_main_v42 (F := Ideal) x2 (ix2 n j) = B1 x2 j := by
  rw [val_main_v42_apply, val_main_v41_apply]
  exact congrArg x2 (by idx_one)

/-- The first layer before the rectifier. -/
theorem v43_at (n : Fin 50000) (j : Fin 128) :
    val_main_v43 (F := Ideal) x0 x1 x2 x7 (ix2 n j) = layerR (src x7) (dst x7) (X x0) (W1 x1) (B1 x2) n j := by
  rw [val_main_v43_apply, v40_at, v42_at, Ideal.addf_def, layerR]

theorem call0_v0_at (n : Fin 50000) (j : Fin 128) : val_main_call0_v0 (F := Ideal) (ix2 n j) = zf := by
  rw [val_main_call0_v0_apply, val_main_call0_cst_apply, Ideal.ofBits_def, zf]

/-- The first layer. -/
theorem v44_abbr (n : Fin 50000) (k : Fin 128) :
    val_main_v44 (F := Ideal) x0 x1 x2 x7 (ix2 n k)
      = max (layerR (src x7) (dst x7) (X x0) (W1 x1) (B1 x2) n k) zf := by
  rw [val_main_v44_apply, v43_at, call0_v0_at, Ideal.maximumf_def]

/-- The first layer, the features and parameters spelt by coordinates. -/
theorem v44_at (n : Fin 50000) (k : Fin 128) :
    val_main_v44 (F := Ideal) x0 x1 x2 x7 (ix2 n k)
      = max (layerR (src x7) (dst x7) (fun n k => x0 (ix2 n k)) (fun k j => x1 (ix2 k j)) (fun j => x2 (ix1 j)) n k) zf :=
  v44_abbr x0 x1 x2 x7 n k

end Cert.ReferenceIdeal.RefValue

end
-- ==== Proof.RefLayer2.lean ====
/-
  The reference program's second convolution layer, read at an index over the extended reals.

  The layer multiplies the first layer's output by the second weight matrix, gathers for every edge the source
  node's row of that product, scales it by the edge's normalisation, adds the scaled rows into their target nodes'
  rows, and adds the bias. With the first layer's output and the edge normalisation given, entry (n, j) of the result
  is zero plus the sum, over the edges landing on n, of the edge's two degree factors times entry j of the source's
  transformed row, plus the bias's entry j. The source index is read the way a gather reads it (a negative index
  counts from the end, the result is clamped into the table); the target index the way an accumulating scatter
  reads it (signed, dropped when outside).
-/
import proofs.«162227_j16466904612871_2_alg».proof.Proof.Gen.ReferenceIdeal.Read
import proofs.«162227_j16466904612871_2_alg».proof.Proof.Model
import proofs.«162227_j16466904612871_2_alg».proof.Proof.LibScatterAddRows
import proofs.«162227_j16466904612871_2_alg».proof.Proof.LibGatherRows
import proofs.«162227_j16466904612871_2_alg».proof.Proof.LibKeepdims
import Idealize.ShloMosaic.Lib.ValueIdx
import Idealize.ShloMosaic.Lib.Pipeline.Value
import Idealize.ShloMosaic.PureOps.Ideal.Laws

noncomputable section

namespace Cert.ReferenceIdeal.RefLayer2

open Cert.ReferenceIdeal Cert.ReferenceIdeal.Read Cert.GcnModel Cert.GcnSpec Idealize.ShloMosaic Idealize.ShloMosaic.ValueIdx

/-! ## What the dimension numbers of the layer's gather and scatter compute -/

/-- The scatter: update row `e` goes to the row its index names (read signed), column for column. -/
theorem scatter_facts {w : ℕ} (idx : IVec S650000x1 w) (k : Fin 650000) (c : Fin 128) :
    scatter_S50000x128_S650000x1_S650000x128_1_0_0_1.start (ix2 k c) idx 0 = (idx (ix2 k (0 : Fin 1))).toInt
      ∧ scatter_S50000x128_S650000x1_S650000x128_1_0_0_1.start (ix2 k c) idx 1 = 0
      ∧ scatter_S50000x128_S650000x1_S650000x128_1_0_0_1.window (ix2 k c) 0 = 0
      ∧ scatter_S50000x128_S650000x1_S650000x128_1_0_0_1.window (ix2 k c) 1 = c.val := by
  refine ⟨?_, ?_, ?_, ?_⟩
  · unfold ScatterDims.start
    rw [dif_pos (by decide)]
    refine congrArg (fun i => (idx i).toInt) (funext fun b => Fin.ext ?_)
    match b with
    | ⟨0, _⟩ => rfl
    | ⟨1, _⟩ => rfl
  · unfold ScatterDims.start
    rw [dif_neg (by decide)]
  · unfold ScatterDims.window
    rw [dif_neg (by decide)]
  · unfold ScatterDims.window
    rw [dif_pos (by decide)]
    rfl

/-- The gather: result row `e` is the table's row at the index of `e`, read signed and clamped, column for column. -/
theorem gather_facts {w : ℕ} (idx : IVec S650000x1 w) (k : Fin 650000) (c : Fin 128) :
    (gather_S50000x128_S650000x1_S650000x128_1_0_n_n_0_1_1128.operandIdx (ix2 k c) idx 0).val
        = min (idx (ix2 k (0 : Fin 1))).toInt.toNat (50000 - 1)
      ∧ (gather_S50000x128_S650000x1_S650000x128_1_0_n_n_0_1_1128.operandIdx (ix2 k c) idx 1).val = c.val := by
  refine ⟨?_, ?_⟩
  · show gather_S50000x128_S650000x1_S650000x128_1_0_n_n_0_1_1128.start (ix2 k c) idx 0
      + gather_S50000x128_S650000x1_S650000x128_1_0_n_n_0_1_1128.batchCoord (ix2 k c) 0
      + gather_S50000x128_S650000x1_S650000x128_1_0_n_n_0_1_1128.offCoord (ix2 k c) 0 = _
    rw [GatherDims.batchCoord_eq_zero _ _ _ (by decide), GatherDims.offCoord_eq_zero _ _ _ (by decide)]
    unfold GatherDims.start
    rw [dif_pos (by decide)]
    have hsi : gather_S50000x128_S650000x1_S650000x128_1_0_n_n_0_1_1128.siIdx (ix2 k c)
        ⟨List.idxOf (0 : Fin 2) gather_S50000x128_S650000x1_S650000x128_1_0_n_n_0_1_1128.startIndexMap,
          List.idxOf_lt_length_iff.2 (by decide)⟩ = ix2 k (0 : Fin 1) := by
      funext b
      refine Fin.ext ?_
      match b with
      | ⟨0, _⟩ => rfl
      | ⟨1, _⟩ => rfl
    rw [hsi]
    rfl
  · show gather_S50000x128_S650000x1_S650000x128_1_0_n_n_0_1_1128.start (ix2 k c) idx 1
      + gather_S50000x128_S650000x1_S650000x128_1_0_n_n_0_1_1128.batchCoord (ix2 k c) 1
      + gather_S50000x128_S650000x1_S650000x128_1_0_n_n_0_1_1128.offCoord (ix2 k c) 1 = _
    rw [GatherDims.batchCoord_eq_zero _ _ _ (by decide)]
    unfold GatherDims.start GatherDims.offCoord
    rw [dif_neg (by decide), dif_pos (by decide)]
    simp only [Nat.zero_add, Nat.add_zero]
    rfl

/-- The scatter read at `(n, j)`: the operand's entry plus the sum, over the update rows whose index (read signed) is
    `n`, of the update's entry in column `j`. -/
theorem scatter_read {w : ℕ} (x : S50000x128.Idx → EReal) (idx : IVec S650000x1 w) (upd : S650000x128.Idx → EReal)
    (n : Fin 50000) (j : Fin 128) :
    Ideal.hostScatterAdd scatter_S50000x128_S650000x1_S650000x128_1_0_0_1 x idx upd (ix2 n j)
      = x (ix2 n j) + ∑ k ∈ Finset.univ.filter (fun k : Fin 650000 => (idx (ix2 k (0 : Fin 1))).toInt = (n.val : Int)),
          upd (ix2 k j) :=
  Cert.LibScatterAddRows.scatterAdd_rows scatter_S50000x128_S650000x1_S650000x128_1_0_0_1 idx
    (fun k c => (scatter_facts idx k c).1) (fun k c => (scatter_facts idx k c).2.1)
    (fun k c => (scatter_facts idx k c).2.2.1) (fun k c => (scatter_facts idx k c).2.2.2) x upd n j

/-- The gather read at `(e, j)`: the table's entry in column `j` of the row the index of `e` names, read signed
    and clamped. -/
theorem gather_read {α : Type} {w : ℕ} (x : S50000x128.Idx → α) (idx : IVec S650000x1 w) (e : Fin 650000) (j : Fin 128) :
    Host.gather gather_S50000x128_S650000x1_S650000x128_1_0_n_n_0_1_1128 x idx (ix2 e j)
      = x (ix2 (Cert.LibGatherRows.clampRow 50000 (by decide) (idx (ix2 e (0 : Fin 1)))) j) :=
  Cert.LibGatherRows.gather_rows (by decide) gather_S50000x128_S650000x1_S650000x128_1_0_n_n_0_1_1128 idx
    (fun k c => (gather_facts idx k c).1) (fun k c => (gather_facts idx k c).2) x e j

/-- The row a gather reads for an index that is first wrapped is the model's `node`. -/
theorem clampRow_wrap (v : BitVec 32) : Cert.LibGatherRows.clampRow 50000 (by decide) (wrap v) = node v := Fin.ext rfl

/-- Over the extended reals the accumulating scatter is the exact one. -/
theorem scatterAdd_eq {s si u : Shape} {w : ℕ} (d : ScatterDims s si u) (x : FVec Ideal s .f32) (idx : IVec si w)
    (upd : FVec Ideal u .f32) : Host.scatterAdd d x idx upd = Ideal.hostScatterAdd d x idx upd := rfl

/-- The edges that land on a node, spelt as a filter. -/
theorem land_eq (colv : Fin 650000 → BitVec 32) (n : Fin 50000) :
    land colv n = Finset.univ.filter (fun e => (colv e).toInt = (n.val : Int)) := rfl

/-! ## The layer's arrays, one at a time -/

section
variable (x0 : (⟨S50000x128, .f32⟩ : BufTy).Contents (Elt Ideal)) (x1 : (⟨S128x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x7 : (⟨S2x600000, .i32⟩ : BufTy).Contents (Elt Ideal))

/-- The transformed features: the first layer's output times the second weight matrix. -/
theorem v45_at (H1 : Fin 50000 → Fin 128 → EReal)
    (hH1 : ∀ (n : Fin 50000) (k : Fin 128), val_main_v44 (F := Ideal) x0 x1 x2 x7 (ix2 n k) = H1 n k)
    (n : Fin 50000) (j : Fin 128) :
    val_main_v45 (F := Ideal) x0 x1 x2 x3 x7 (ix2 n j) = mm H1 (fun k j => x3 (ix2 k j)) n j := by
  rw [val_main_v45_apply]
  unfold mm
  refine Finset.sum_congr rfl fun k _ => ?_
  have el : lidx_main_v45 (ix2 n j) k = ix2 n k := funext fun a => Fin.ext (by
    match a with
    | ⟨0, _⟩ => rfl
    | ⟨1, _⟩ => rfl)
  have er : ridx_main_v45 (ix2 n j) k = ix2 k j := funext fun a => Fin.ext (by
    match a with
    | ⟨0, _⟩ => rfl
    | ⟨1, _⟩ => rfl)
  rw [el, er, hH1]

/-- The source index as the gather is given it: wrapped, as a column. -/
theorem v52_at (e : Fin 650000) :
    val_main_v52 (F := Ideal) x7 (ix2 e (0 : Fin 1)) = wrap (val_main_v3 (F := Ideal) x7 (ix1 e)) := by
  have ei : idx_main_v52 (ix2 e (0 : Fin 1)) = ix1 e := funext fun a => Fin.ext (by
    match a with
    | ⟨0, _⟩ => rfl)
  rw [val_main_v52_apply, ei, val_main_v51_apply, val_main_v48_apply, val_main_v50_apply, val_main_v47_apply,
    val_main_v49_apply, val_main_c_7_apply, val_main_c_8_apply]
  rfl

/-- The gathered rows: for edge `e`, the source node's row of the transformed features. -/
theorem v53_at (e : Fin 650000) (j : Fin 128) :
    val_main_v53 (F := Ideal) x0 x1 x2 x3 x7 (ix2 e j)
      = val_main_v45 (F := Ideal) x0 x1 x2 x3 x7 (ix2 (node (val_main_v3 (F := Ideal) x7 (ix1 e))) j) := by
  unfold val_main_v53
  generalize val_main_v45 (F := Ideal) x0 x1 x2 x3 x7 = T
  rw [gather_read, v52_at, clampRow_wrap]

/-- The edge normalisation spread over the 128 lanes. -/
theorem v54_at (e : Fin 650000) (j : Fin 128) :
    val_main_v54 (F := Ideal) x7 (ix2 e j) = val_main_v26 (F := Ideal) x7 (ix1 e) := by
  have ei : idx_main_v46 (idx_main_v54 (ix2 e j)) = ix1 e := funext fun a => Fin.ext (by
    match a with
    | ⟨0, _⟩ => rfl)
  rw [val_main_v54_apply, val_main_v46_apply, ei]

/-- The message of edge `e`: its normalisation times the source's transformed row. -/
theorem v55_at (e : Fin 650000) (j : Fin 128) :
    val_main_v55 (F := Ideal) x0 x1 x2 x3 x7 (ix2 e j)
      = val_main_v26 (F := Ideal) x7 (ix1 e)
        * val_main_v45 (F := Ideal) x0 x1 x2 x3 x7 (ix2 (node (val_main_v3 (F := Ideal) x7 (ix1 e))) j) := by
  rw [val_main_v55_apply, v54_at, v53_at]
  rfl

/-- The scatter's operand is zero everywhere. -/
theorem v56_at (i : S50000x128.Idx) : val_main_v56 (F := Ideal) i = zf :=
  (val_main_v56_apply i).trans (constant_apply _ _)

/-- The target index as the scatter is given it: as a column. -/
theorem v57_at (e : Fin 650000) :
    val_main_v57 (F := Ideal) x7 (ix2 e (0 : Fin 1)) = val_main_v6 (F := Ideal) x7 (ix1 e) := by
  have ei : idx_main_v57 (ix2 e (0 : Fin 1)) = ix1 e := funext fun a => Fin.ext (by
    match a with
    | ⟨0, _⟩ => rfl)
  rw [val_main_v57_apply, ei]

/-- The aggregated messages: zero plus the sum, over the edges landing on `n`, of the edge's message. -/
theorem v58_at (n : Fin 50000) (j : Fin 128) :
    val_main_v58 (F := Ideal) x0 x1 x2 x3 x7 (ix2 n j)
      = zf + ∑ e ∈ land (fun e => val_main_v6 (F := Ideal) x7 (ix1 e)) n,
          val_main_v26 (F := Ideal) x7 (ix1 e)
            * val_main_v45 (F := Ideal) x0 x1 x2 x3 x7 (ix2 (node (val_main_v3 (F := Ideal) x7 (ix1 e))) j) := by
  unfold val_main_v58
  rw [scatterAdd_eq, scatter_read, v56_at, land_eq]
  simp only [v57_at]
  exact congrArg (zf + ·) (Finset.sum_congr rfl fun e _ => v55_at x0 x1 x2 x3 x7 e j)

/-- The bias, repeated on every row. -/
theorem v60_at (n : Fin 50000) (j : Fin 128) : val_main_v60 (F := Ideal) x4 (ix2 n j) = x4 (ix1 j) := by
  have ei : idx_main_v59 (idx_main_v60 (ix2 n j)) = ix1 j := funext fun a => Fin.ext (by
    match a with
    | ⟨0, _⟩ => rfl)
  rw [val_main_v60_apply, val_main_v59_apply, ei]

/-- The second layer of the reference program is the model's reference layer over the first layer's output. -/
theorem v61_of (H1 : Fin 50000 → Fin 128 → EReal)
    (hH1 : ∀ (n : Fin 50000) (k : Fin 128), val_main_v44 (F := Ideal) x0 x1 x2 x7 (ix2 n k) = H1 n k)
    (hN : ∀ e : Fin 650000, val_main_v26 (F := Ideal) x7 (ix1 e)
      = dinv (fun e => val_main_v6 (F := Ideal) x7 (ix1 e)) (node (val_main_v3 (F := Ideal) x7 (ix1 e)))
        * dinv (fun e => val_main_v6 (F := Ideal) x7 (ix1 e)) (node (val_main_v6 (F := Ideal) x7 (ix1 e))))
    (n : Fin 50000) (j : Fin 128) :
    val_main_v61 (F := Ideal) x0 x1 x2 x3 x4 x7 (ix2 n j)
      = layerR (fun e => val_main_v3 (F := Ideal) x7 (ix1 e)) (fun e => val_main_v6 (F := Ideal) x7 (ix1 e)) H1
          (fun k j => x3 (ix2 k j)) (fun j => x4 (ix1 j)) n j := by
  rw [val_main_v61_apply, v58_at, v60_at]
  unfold layerR
  refine congrArg (fun t => (zf + t) + x4 (ix1 j)) (Finset.sum_congr rfl fun e _ => ?_)
  rw [hN e, v45_at x0 x1 x2 x3 x7 H1 hH1]

end

end Cert.ReferenceIdeal.RefLayer2

end
-- ==== Proof.RefTail.lean ====
/-
  The end of the reference program over the extended reals: per-graph sums of the second layer's rows by an
  accumulating scatter, the graphs' node counts by another, the mean as the quotient by the count (at least one), and
  the classifier as a matrix product plus a bias.

  An accumulating scatter whose indices are one graph number per node adds row n of its updates into row g of the
  result exactly when node n's graph number, read signed, is g; so row g ends as zero plus the sum of the rows of the
  nodes of graph g, and the count ends as zero plus one per such node. The second layer's output enters as a
  hypothesis, entry by entry.
-/
import proofs.«162227_j16466904612871_2_alg».proof.Proof.Gen.ReferenceIdeal.Read
import proofs.«162227_j16466904612871_2_alg».proof.Proof.Model
import proofs.«162227_j16466904612871_2_alg».proof.Proof.LibScatterAddRows
import proofs.«162227_j16466904612871_2_alg».proof.Proof.LibKeepdims
import Idealize.ShloMosaic.Lib.ValueIdx
import Idealize.ShloMosaic.Lib.Pipeline.Value
import Idealize.ShloMosaic.PureOps.Ideal.Laws

noncomputable section

open scoped BigOperators

namespace Cert.ReferenceIdeal.RefTail

open Cert.ReferenceIdeal Cert.ReferenceIdeal.Read Cert.GcnModel Cert.GcnSpec Idealize.ShloMosaic Idealize.ShloMosaic.ValueIdx

/-! ## What the two scatters' dimension numbers compute -/

/-- The pooling scatter: update row `n` goes to the row its index names (read signed), column for column. -/
theorem pool_scatter_facts {w : ℕ} (idx : IVec S50000x1 w) (k : Fin 50000) (c : Fin 128) :
    scatter_S64x128_S50000x1_S50000x128_1_0_0_1.start (ix2 k c) idx 0 = (idx (ix2 k (0 : Fin 1))).toInt
      ∧ scatter_S64x128_S50000x1_S50000x128_1_0_0_1.start (ix2 k c) idx 1 = 0
      ∧ scatter_S64x128_S50000x1_S50000x128_1_0_0_1.window (ix2 k c) 0 = 0
      ∧ scatter_S64x128_S50000x1_S50000x128_1_0_0_1.window (ix2 k c) 1 = c.val := by
  refine ⟨?_, ?_, ?_, ?_⟩
  · unfold ScatterDims.start
    rw [dif_pos (by decide)]
    refine congrArg (fun i => (idx i).toInt) (funext fun b => Fin.ext ?_)
    match b with
    | ⟨0, _⟩ => rfl
    | ⟨1, _⟩ => rfl
  · unfold ScatterDims.start
    rw [dif_neg (by decide)]
  · unfold ScatterDims.window
    rw [dif_neg (by decide)]
  · unfold ScatterDims.window
    rw [dif_pos (by decide)]
    rfl

/-- The counting scatter: update `n` goes to the entry its index names (read signed). -/
theorem cnt_scatter_facts {w : ℕ} (idx : IVec S50000x1 w) (k : Fin 50000) :
    scatter_S64_S50000x1_S50000_n_0_0_1.start (ix1 k) idx 0 = (idx (ix2 k (0 : Fin 1))).toInt
      ∧ scatter_S64_S50000x1_S50000_n_0_0_1.window (ix1 k) 0 = 0 := by
  refine ⟨?_, ?_⟩
  · unfold ScatterDims.start
    rw [dif_pos (by decide)]
    refine congrArg (fun i => (idx i).toInt) (funext fun b => Fin.ext ?_)
    match b with
    | ⟨0, _⟩ => rfl
    | ⟨1, _⟩ => rfl
  · unfold ScatterDims.window
    rw [dif_neg (by decide)]

/-! ## Index bookkeeping: the composed index functions at indices written by coordinates -/

theorem idx63_eq (k : Fin 50000) : idx_main_v63 (ix2 k (0 : Fin 1)) = ix1 k :=
  funext fun a => by match a with | ⟨0, _⟩ => rfl
theorem idx67_eq (k : Fin 50000) : idx_main_v67 (ix2 k (0 : Fin 1)) = ix1 k :=
  funext fun a => by match a with | ⟨0, _⟩ => rfl
theorem idx72_eq (g : Fin 64) (j : Fin 128) : idx_main_v72 (ix2 g j) = ix2 g (0 : Fin 1) :=
  funext fun a => by match a with | ⟨0, _⟩ => rfl | ⟨1, _⟩ => rfl
theorem idx71_eq (g : Fin 64) : idx_main_v71 (ix2 g (0 : Fin 1)) = ix1 g :=
  funext fun a => by match a with | ⟨0, _⟩ => rfl
theorem lidx74_eq (g : Fin 64) (q : Fin 10) (k : Fin 128) : lidx_main_v74 (ix2 g q) k = ix2 g k :=
  funext fun a => by match a with | ⟨0, _⟩ => rfl | ⟨1, _⟩ => rfl
theorem ridx74_eq (g : Fin 64) (q : Fin 10) (k : Fin 128) : ridx_main_v74 (ix2 g q) k = ix2 k q :=
  funext fun a => by match a with | ⟨0, _⟩ => rfl | ⟨1, _⟩ => rfl
theorem idx76_eq (g : Fin 64) (q : Fin 10) : idx_main_v76 (ix2 g q) = ix2 (0 : Fin 1) q :=
  funext fun a => by match a with | ⟨0, _⟩ => rfl | ⟨1, _⟩ => rfl
theorem idx75_eq (q : Fin 10) : idx_main_v75 (ix2 (0 : Fin 1) q) = ix1 q :=
  funext fun a => by match a with | ⟨0, _⟩ => rfl

/-! ## The constants and the index column -/

/-- The zero-filled [64, 128] array reads the zero literal. -/
theorem v62_at (i : S64x128.Idx) : val_main_v62 (F := Ideal) i = zf := by
  rw [val_main_v62_apply, val_main_cst_10_apply, Ideal.ofBits_def]
  unfold zf
  rfl
/-- The zero-filled [64] array reads the zero literal. -/
theorem v66_at (i : S64.Idx) : val_main_v66 (F := Ideal) i = zf := by
  rw [val_main_v66_apply, val_main_cst_12_apply, Ideal.ofBits_def]
  unfold zf
  rfl
/-- The one-filled [50000] array reads the literal one. -/
theorem v65_at (i : S50000.Idx) : val_main_v65 (F := Ideal) i = onef := by
  rw [val_main_v65_apply, val_main_cst_11_apply, Ideal.ofBits_def]
  unfold onef
  rfl
/-- The one-filled [64] array reads the literal one. -/
theorem v69_at (i : S64.Idx) : val_main_v69 (F := Ideal) i = onef := by
  rw [val_main_v69_apply, val_main_cst_13_apply, Ideal.ofBits_def]
  unfold onef
  rfl
/-- The graph numbers as a column read the graph number of the row. -/
theorem v63_at (x8 : (⟨S50000, .i32⟩ : BufTy).Contents (Elt Ideal)) (k : Fin 50000) : val_main_v63 (F := Ideal) x8 (ix2 k (0 : Fin 1)) = x8 (ix1 k) := by
  rw [val_main_v63_apply, idx63_eq]
theorem v67_at (x8 : (⟨S50000, .i32⟩ : BufTy).Contents (Elt Ideal)) (k : Fin 50000) : val_main_v67 (F := Ideal) x8 (ix2 k (0 : Fin 1)) = x8 (ix1 k) := by
  rw [val_main_v67_apply, idx67_eq]

/-! ## The per-graph sums, the counts, the mean, the classifier -/

/-- Row g of the pooling scatter: zero plus the rows of the nodes of graph g. -/
theorem v64_at (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x7 : (⟨S2x600000, .i32⟩ : BufTy).Contents (Elt Ideal)) (x8 : (⟨S50000, .i32⟩ : BufTy).Contents (Elt Ideal))
    (H2 : Fin 50000 → Fin 128 → EReal)
    (hH2 : ∀ (n : Fin 50000) (j : Fin 128), val_main_v61 (F := Ideal) x0 x1 x2 x3 x4 x7 (ix2 n j) = H2 n j)
    (g : Fin 64) (j : Fin 128) :
    val_main_v64 (F := Ideal) x0 x1 x2 x3 x4 x7 x8 (ix2 g j) = poolR (fun n => x8 (ix1 n)) H2 g j := by
  refine (Cert.LibScatterAddRows.scatterAdd_rows (N := 64) (C := 128) (K := 50000) scatter_S64x128_S50000x1_S50000x128_1_0_0_1
    (val_main_v63 (F := Ideal) x8)
    (fun k c => (pool_scatter_facts (val_main_v63 (F := Ideal) x8) k c).1) (fun k c => (pool_scatter_facts (val_main_v63 (F := Ideal) x8) k c).2.1)
    (fun k c => (pool_scatter_facts (val_main_v63 (F := Ideal) x8) k c).2.2.1) (fun k c => (pool_scatter_facts (val_main_v63 (F := Ideal) x8) k c).2.2.2)
    (val_main_v62 (F := Ideal)) (val_main_v61 (F := Ideal) x0 x1 x2 x3 x4 x7) g j).trans ?_
  rw [v62_at]
  unfold poolR graphOf
  refine congrArg (fun t => zf + t) ?_
  exact Finset.sum_congr (Finset.filter_congr fun k _ => by rw [v63_at]) (fun k _ => hH2 k j)

/-- The count of graph g: zero plus one per node of graph g. -/
theorem v68_at (x8 : (⟨S50000, .i32⟩ : BufTy).Contents (Elt Ideal)) (g : Fin 64) :
    val_main_v68 (F := Ideal) x8 (ix1 g) = cnt (fun n => x8 (ix1 n)) g := by
  refine (Cert.LibScatterAddRows.scatterAdd_vec (N := 64) (K := 50000) scatter_S64_S50000x1_S50000_n_0_0_1
    (val_main_v67 (F := Ideal) x8)
    (fun k => (cnt_scatter_facts (val_main_v67 (F := Ideal) x8) k).1) (fun k => (cnt_scatter_facts (val_main_v67 (F := Ideal) x8) k).2)
    (val_main_v66 (F := Ideal)) (val_main_v65 (F := Ideal)) g).trans ?_
  rw [v66_at]
  unfold cnt graphOf
  refine congrArg (fun t => zf + t) ?_
  exact Finset.sum_congr (Finset.filter_congr fun k _ => by rw [v67_at]) (fun k _ => v65_at _)

/-- The mean of graph g at column j: the pooled sum over the count, the count at least one. -/
theorem v73_at (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x7 : (⟨S2x600000, .i32⟩ : BufTy).Contents (Elt Ideal)) (x8 : (⟨S50000, .i32⟩ : BufTy).Contents (Elt Ideal))
    (H2 : Fin 50000 → Fin 128 → EReal)
    (hH2 : ∀ (n : Fin 50000) (j : Fin 128), val_main_v61 (F := Ideal) x0 x1 x2 x3 x4 x7 (ix2 n j) = H2 n j)
    (g : Fin 64) (j : Fin 128) :
    val_main_v73 (F := Ideal) x0 x1 x2 x3 x4 x7 x8 (ix2 g j)
      = meanOf (fun n => x8 (ix1 n)) (poolR (fun n => x8 (ix1 n)) H2) g j := by
  rw [val_main_v73_apply, Ideal.hostDivf_def, v64_at x0 x1 x2 x3 x4 x7 x8 H2 hH2, val_main_v72_apply, idx72_eq,
    val_main_v71_apply, idx71_eq, val_main_v70_apply, Ideal.maximumf_def, v68_at, v69_at]
  unfold meanOf
  rfl

/-- The reference's result: the classifier applied to the graphs' means. -/
theorem ref_tail (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x10, .f32⟩ : BufTy).Contents (Elt Ideal)) (x6 : (⟨S10, .f32⟩ : BufTy).Contents (Elt Ideal)) (x7 : (⟨S2x600000, .i32⟩ : BufTy).Contents (Elt Ideal)) (x8 : (⟨S50000, .i32⟩ : BufTy).Contents (Elt Ideal))
    (H2 : Fin 50000 → Fin 128 → EReal)
    (hH2 : ∀ (n : Fin 50000) (j : Fin 128), val_main_v61 (F := Ideal) x0 x1 x2 x3 x4 x7 (ix2 n j) = H2 n j)
    (g : Fin 64) (q : Fin 10) :
    val_main_v77 (F := Ideal) x0 x1 x2 x3 x4 x5 x6 x7 x8 (ix2 g q)
      = logits (meanOf (fun n => x8 (ix1 n)) (poolR (fun n => x8 (ix1 n)) H2)) (fun k c => x5 (ix2 k c)) (fun c => x6 (ix1 c)) g q := by
  rw [val_main_v77_apply, Ideal.addf_def, val_main_v74_apply, val_main_v76_apply, idx76_eq, val_main_v75_apply, idx75_eq]
  unfold logits mm
  refine congrArg (fun t => t + x6 (ix1 q)) ?_
  refine Finset.sum_congr rfl fun k _ => ?_
  rw [lidx74_eq, ridx74_eq, v73_at x0 x1 x2 x3 x4 x7 x8 H2 hH2]

end Cert.ReferenceIdeal.RefTail

end
-- ==== Proof.PreFacts.lean ====
/-
  Two facts about the inputs of the graph network.

  Self loops. The list of target nodes is the 600000 given edge targets followed by the numbers 0 … 49999, one per
  node: entry 600000 + n of the joined array is n. So every node n is the target of at least one edge, the loop at n,
  and the set of edges that land on n is not empty.

  Finiteness. The precondition is one truth value: the conjunction, over the seven float arguments, of "every entry
  has absolute value below +∞". Read at the extended reals an entry with |x| < +∞ is neither +∞ nor -∞, so it is a
  real number.
-/
import proofs.«162227_j16466904612871_2_alg».proof.Pre_finite_inputs
import proofs.«162227_j16466904612871_2_alg».proof.Proof.Gen.Pre_finite_inputs
import proofs.«162227_j16466904612871_2_alg».proof.Proof.Gen.ReferenceIdeal.Read
import proofs.«162227_j16466904612871_2_alg».proof.Proof.Model
import Idealize.ShloMosaic.Lib.ValueIdx
import Idealize.ShloMosaic.Lib.Pipeline.Value
import Idealize.ShloMosaic.Lib.ReduceAll
import Idealize.ShloMosaic.PureOps.Ideal.Laws

noncomputable section

namespace Cert.PreFacts

open Idealize.ShloMosaic

/-! ## Self loops -/

/-- Entry 600000 + n of the joined target array is the n-th entry of the second piece, the count 0, 1, 2, …: it is n. -/
theorem v6_loop (x7 : (⟨Cert.ReferenceIdeal.S2x600000, .i32⟩ : BufTy).Contents (Elt Ideal)) (n : Fin 50000) :
    Cert.ReferenceIdeal.Read.val_main_v6 (F := Ideal) x7 (ValueIdx.ix1 (⟨600000 + n.val, by omega⟩ : Fin 650000))
      = BitVec.ofNat 32 n.val := by
  unfold Cert.ReferenceIdeal.Read.val_main_v6
  refine (concatenate_pair_apply_right (t := Cert.ReferenceIdeal.S650000) (s₁ := Cert.ReferenceIdeal.S600000)
    (s₂ := Cert.ReferenceIdeal.S50000) 0 _ _ _ _ rfl rfl (ValueIdx.ix1 n) ?_ ?_).trans ?_
  · intro b hb
    match b with
    | ⟨0, _⟩ => exact absurd rfl hb
  · show n.val + 600000 = 600000 + n.val
    omega
  · rw [Cert.ReferenceIdeal.Read.val_main_v0_apply]

/-- A count below 50000, written as a 32-bit word and read signed, is itself. -/
theorem toInt_ofNat_node (n : Fin 50000) : (BitVec.ofNat 32 n.val).toInt = (n.val : Int) := by
  have hn := n.isLt
  rw [BitVec.toInt_eq_toNat_cond, BitVec.toNat_ofNat]
  split <;> omega

/-- Every node is the target of its own loop, so the set of edges landing on it is not empty. -/
theorem land_nonempty (x7 : (⟨Cert.ReferenceIdeal.S2x600000, .i32⟩ : BufTy).Contents (Elt Ideal)) (n : Fin 50000) :
    (Cert.GcnModel.land (fun e => Cert.ReferenceIdeal.Read.val_main_v6 (F := Ideal) x7 (ValueIdx.ix1 e)) n).Nonempty := by
  refine ⟨(⟨600000 + n.val, by omega⟩ : Fin 650000), ?_⟩
  unfold Cert.GcnModel.land
  rw [Finset.mem_filter]
  refine ⟨Finset.mem_univ _, ?_⟩
  show (Cert.ReferenceIdeal.Read.val_main_v6 (F := Ideal) x7 (ValueIdx.ix1 (⟨600000 + n.val, by omega⟩ : Fin 650000))).toInt
    = (n.val : Int)
  rw [v6_loop x7 n]
  exact toInt_ofNat_node n

/-! ## Finiteness -/

open Cert.GcnSpec

/-- An extended real whose absolute value is below +∞ is a real number: it is neither +∞ nor -∞. -/
theorem isReal_of_abs_lt (x : EReal)
    (h : FloatOps.cmpf (F := Ideal) (φ := .f32) .olt (FloatOps.hostAbsf (F := Ideal) (φ := .f32) x)
      (FloatOps.ofBits (F := Ideal) .f32 0x7F800000#32) = 1#1) : IsReal x := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x using EReal.rec with
  | bot => simp at h
  | coe r => exact ⟨r, rfl⟩
  | top => simp at h

/-- A shape with no axes has exactly one index. -/
local instance : Subsingleton Cert.Pre_finite_inputs.S_.Idx := ⟨fun a b => funext fun d => d.elim0⟩

/-- If the conjunction, over a whole array, of "the entry's absolute value is below +∞" is true, every entry of the
    array is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
        (cmpf .olt (Host.absf x) (broadcastInDim s ![] hb (constant (F := Ideal) Cert.Pre_finite_inputs.S_ .f32 0x7F800000#32)))
        init hr hu ValueIdx.ix0 = 1#1) (i : s.Idx) : IsReal (x i) := by
  have := Host.reduce_andi_all _ init hr hu ValueIdx.ix0 e i
  exact isReal_of_abs_lt (x i) this

open Cert.Pre_finite_inputs in
/-- Under the precondition the node features, both layers' weights and the first layer's bias are real numbers.
    The precondition is a conjunction of seven whole-array tests nested to the left; the first four conjuncts are the
    tests of these four arrays. -/
theorem real_of_pre [Cert.Pre_finite_inputs.Facts]
    (a0 : FVec Ideal S50000x128 .f32) (a1 : FVec Ideal S128x128 .f32) (a2 : FVec Ideal S128 .f32)
    (a3 : FVec Ideal S128x128 .f32) (a4 : FVec Ideal S128 .f32) (a5 : FVec Ideal S128x10 .f32)
    (a6 : FVec Ideal S10 .f32) (a7 : IVec S2x600000 32) (a8 : IVec S50000 32)
    (h : Cert.Pre_finite_inputs.fn (F := Ideal) a0 a1 a2 a3 a4 a5 a6 a7 a8 = fun _ => 1#1) :
    (∀ i, IsReal (a0 i)) ∧ (∀ i, IsReal (a1 i)) ∧ (∀ i, IsReal (a2 i)) ∧ (∀ i, IsReal (a3 i)) := by
  have h0 := congrFun h ValueIdx.ix0
  dsimp only [Cert.Pre_finite_inputs.fn, Cert.Pre_finite_inputs.fn_part1, andi] at h0
  obtain ⟨h1, -⟩ := IntOp.andi_eq_one.1 h0
  obtain ⟨h2, -⟩ := IntOp.andi_eq_one.1 h1
  obtain ⟨h3, -⟩ := IntOp.andi_eq_one.1 h2
  obtain ⟨h4, e3⟩ := IntOp.andi_eq_one.1 h3
  obtain ⟨h5, e2⟩ := IntOp.andi_eq_one.1 h4
  obtain ⟨e0, e1⟩ := IntOp.andi_eq_one.1 h5
  exact ⟨all_real a0 _ _ _ _ e0, all_real a1 _ _ _ _ e1, all_real a2 _ _ _ _ e2, all_real a3 _ _ _ _ e3⟩

end Cert.PreFacts

end
-- ==== Proof.Bridge.lean ====
/-
  The two programs' results are one array. Entry by entry the reference's result is the model's network as written
  (its first layer and edge normalisation, its second layer over those, its pooling, mean and classifier over that)
  and the kernel's is the same network with the degree factors regrouped; on finite inputs, with a self loop on every
  node, the two networks agree.
-/
import proofs.«162227_j16466904612871_2_alg».proof.Defs
import proofs.«162227_j16466904612871_2_alg».proof.Proof.Gen.ReferenceIdeal.Read
import proofs.«162227_j16466904612871_2_alg».proof.Proof.KernelValue
import proofs.«162227_j16466904612871_2_alg».proof.Proof.RefValue
import proofs.«162227_j16466904612871_2_alg».proof.Proof.RefLayer2
import proofs.«162227_j16466904612871_2_alg».proof.Proof.RefTail
import proofs.«162227_j16466904612871_2_alg».proof.Proof.PreFacts
import proofs.«162227_j16466904612871_2_alg».proof.Proof.Model

-- the two programs' result buffers are one type only after both buffer tables are evaluated
set_option maxRecDepth 100000

noncomputable section

open Idealize.ShloMosaic Idealize.ShloMosaic.TcCoe Idealize.SL.Sem Idealize.ShloMosaic.ValueIdx

namespace Cert.Bridge

/-- From memories that agree on the arguments, under the precondition on the kernel's memory, the reference's result
    term is the contents the kernel's run leaves in its result buffer. -/
theorem result_eq
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) = fun _ => 1#1)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_main_v77 m' c
      = Cert.KernelIdeal.Gen.W8 m ρ c (Proc.devRef .tc Cert.KernelIdeal.main_v49) := by
  obtain ⟨h0, h1, h2, h3, h4, h5, h6, h7, h8⟩ := hag
  rw [Cert.ReferenceIdeal.Read.val_main_v77_eq, h0, h1, h2, h3, h4, h5, h6, h7, h8]
  funext i
  obtain ⟨g, q, rfl⟩ : ∃ (g : Fin 64) (q : Fin 10), i = ix2 g q := ⟨i 0, i 1, eq_ix2 i⟩
  rw [Cert.ReferenceIdeal.RefTail.ref_tail _ _ _ _ _ _ _ _ _ _
    (fun n j => Cert.ReferenceIdeal.RefLayer2.v61_of _ _ _ _ _ _ _
      (fun n k => Cert.ReferenceIdeal.RefValue.v44_at _ _ _ _ n k) (fun e => Cert.ReferenceIdeal.RefValue.v26_at _ e) n j)]
  refine Eq.trans ?_ (Cert.KernelIdeal.KernelValue.kernel_value m ρ c g q).symm
  obtain ⟨r0, r1, r2, r3⟩ := Cert.PreFacts.real_of_pre _ _ _ _ _ _ _ _ _ hpre
  have hk := Cert.GcnModel.gcnK_eq_gcnR (Cert.KernelIdeal.KernelValue.rowv m c) (Cert.KernelIdeal.KernelValue.colv m c)
    (Cert.KernelIdeal.KernelValue.fBat m c) (Cert.KernelIdeal.KernelValue.fX m c) (Cert.KernelIdeal.KernelValue.fW1 m c)
    (Cert.KernelIdeal.KernelValue.fB1 m c) (Cert.KernelIdeal.KernelValue.fW2 m c) (Cert.KernelIdeal.KernelValue.fB2 m c)
    (Cert.KernelIdeal.KernelValue.fWL m c) (Cert.KernelIdeal.KernelValue.fBL m c)
    (Cert.PreFacts.land_nonempty _) (fun n k => r0 _) (fun k j => r1 _) (fun j => r2 _) (fun k j => r3 _)
  exact (congrFun (congrFun hk g) q).symm

end Cert.Bridge

end
-- ==== Proof.lean ====
/-
  The certificate of a two-layer graph convolution network with mean pooling and a linear classifier, written as
  four pallas regions among host gathers and scatter-adds, against its plain reference.

  Frames: the two kernel programs' by their generated frame certificates (at the word level and at the extended
  reals), the reference's by its generated run. Preserves: the ideal pass rewrote nothing. Algebraic: the kernel's run
  with its result named leaves, entry by entry, the network with each node's degree factor taken out of its sum
  (the factor of a message's source folded into the gathered features) and the pooling done by a one-hot product over
  ten blocks of nodes; the reference computes the network as written. On finite inputs the features and degree
  factors are real numbers (every node has a self loop, so no degree is zero), and there the factor moves across each
  node's finite sum by distributivity; a one-hot weighted sum over all nodes is the sum over a graph's nodes.
-/
import proofs.«162227_j16466904612871_2_alg».proof.Defs
import proofs.«162227_j16466904612871_2_alg».proof.Proof.Gen.Kernel
import proofs.«162227_j16466904612871_2_alg».proof.Proof.Gen.Kernel.Skeleton
import proofs.«162227_j16466904612871_2_alg».proof.Proof.Gen.Kernel.Launch
import proofs.«162227_j16466904612871_2_alg».proof.Proof.Gen.Kernel.Points
import proofs.«162227_j16466904612871_2_alg».proof.Proof.Gen.Kernel.Frame
import proofs.«162227_j16466904612871_2_alg».proof.Proof.Gen.KernelIdeal
import proofs.«162227_j16466904612871_2_alg».proof.Proof.Gen.KernelIdeal.Skeleton
import proofs.«162227_j16466904612871_2_alg».proof.Proof.Gen.KernelIdeal.Launch
import proofs.«162227_j16466904612871_2_alg».proof.Proof.Gen.KernelIdeal.Points
import proofs.«162227_j16466904612871_2_alg».proof.Proof.Gen.KernelIdeal.Frame
import proofs.«162227_j16466904612871_2_alg».proof.Proof.Gen.ReferenceIdeal
import proofs.«162227_j16466904612871_2_alg».proof.Proof.Gen.ReferenceIdeal.Run
import proofs.«162227_j16466904612871_2_alg».proof.Proof.Gen.ReferenceIdeal.Read
import proofs.«162227_j16466904612871_2_alg».proof.Proof.Gen.Pre_finite_inputs
import proofs.«162227_j16466904612871_2_alg».proof.Proof.KernelRun
import proofs.«162227_j16466904612871_2_alg».proof.Proof.Bridge
import Idealize.ShloMosaic.Adequacy
import Idealize.ShloMosaic.Init

set_option maxRecDepth 100000

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the contents the kernel's last segment leaves: the kernel's by its run
    with the result named, the reference's by its generated run and the entry-by-entry agreement of the two results. -/
theorem algebraic : Cert.algebraic_KernelIdeal_ReferenceIdeal := by
  intro m ρ m' ρ' hpre hagree
  refine ⟨fun c => Cert.KernelIdeal.Gen.W8 m ρ c (Proc.devRef .tc Cert.KernelIdeal.main_v49),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.Bridge.result_eq m ρ m' c (hpre c) (hagree c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
